-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 256]⟩ ⟨2, ![512, 1024]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨1, ![256]⟩ ⟨1, ![1024]⟩ 0 4 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 256]⟩ ⟨2, ![512, 1024]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v12) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S512x256 : Shape := ⟨2, ![512, 256]⟩
abbrev S256 : Shape := ⟨1, ![256]⟩
abbrev S_ : Shape := ⟨0, ![]⟩

class Facts : Prop where
  bcast_S_S512x256 : S_.BroadcastsInDim S512x256 (![] : Fin 0 → Fin S512x256.rank)
  reducesTo_S512x256_S_d0_1 : S512x256.ReducesTo [0, 1] S_
  h_S_ : 0 < S_.numel
  bcast_S_S256 : S_.BroadcastsInDim S256 (![] : Fin 0 → Fin S256.rank)
  reducesTo_S256_S_d0 : S256.ReducesTo [0] S_

variable [Facts]

def fn {F : FTy → Type} [FloatOps F] (main_arg0 : FVec F S512x256 .f32) (main_arg1 : FVec F S256 .f32) : IVec S_ 1 :=
  let main_v0 : FVec F S512x256 .f32 := Host.absf main_arg0
  let main_cst : FVec F S_ .f32 := constant S_ .f32 0x7F800000#32
  let main_v1 : FVec F S512x256 .f32 := broadcastInDim S512x256 ![] bcast_S_S512x256 main_cst
  let main_v2 : IVec S512x256 1 := cmpf .olt main_v0 main_v1
  let main_c : IVec S_ 1 := constantI S_ 1 1#1
  let main_v3 : IVec S_ 1 := (fun x v => Host.reduce IntOp.andi x v reducesTo_S512x256_S_d0_1 h_S_) main_v2 main_c
  let main_v4 : FVec F S256 .f32 := Host.absf main_arg1
  let main_cst_0 : FVec F S_ .f32 := constant S_ .f32 0x7F800000#32
  let main_v5 : FVec F S256 .f32 := broadcastInDim S256 ![] bcast_S_S256 main_cst_0
  let main_v6 : IVec S256 1 := cmpf .olt main_v4 main_v5
  let main_c_1 : IVec S_ 1 := constantI S_ 1 1#1
  let main_v7 : IVec S_ 1 := (fun x v => Host.reduce IntOp.andi x v reducesTo_S256_S_d0 h_S_) main_v6 main_c_1
  let main_v8 : IVec S_ 1 := andi main_v3 main_v7
  main_v8
-- ==== Pre_finite_inputs_ReferenceIdeal.lean ====
abbrev S512x1024 : Shape := ⟨2, ![512, 1024]⟩
abbrev S1024 : Shape := ⟨1, ![1024]⟩
abbrev S_ : Shape := ⟨0, ![]⟩

class Facts : Prop where
  bcast_S_S512x1024 : S_.BroadcastsInDim S512x1024 (![] : Fin 0 → Fin S512x1024.rank)
  reducesTo_S512x1024_S_d0_1 : S512x1024.ReducesTo [0, 1] S_
  h_S_ : 0 < S_.numel
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S512x1024 .f32) (main_arg1 : FVec F S1024 .f32) : IVec S_ 1 :=
  let main_v0 : FVec F S512x1024 .f32 := Host.absf main_arg0
  let main_cst : FVec F S_ .f32 := constant S_ .f32 0x7F800000#32
  let main_v1 : FVec F S512x1024 .f32 := broadcastInDim S512x1024 ![] bcast_S_S512x1024 main_cst
  let main_v2 : IVec S512x1024 1 := cmpf .olt main_v0 main_v1
  let main_c : IVec S_ 1 := constantI S_ 1 1#1
  let main_v3 : IVec S_ 1 := (fun x v => Host.reduce IntOp.andi x v reducesTo_S512x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  main_v8
-- ==== Kernel.lean ====
abbrev S512x256 : Shape := ⟨2, ![512, 256]⟩
abbrev S256 : Shape := ⟨1, ![256]⟩
abbrev S4x512 : Shape := ⟨2, ![4, 512]⟩
abbrev S3 : Shape := ⟨1, ![3]⟩
abbrev S_ : Shape := ⟨0, ![]⟩
abbrev S512 : Shape := ⟨1, ![512]⟩
abbrev S1x512 : Shape := ⟨2, ![1, 512]⟩
abbrev S1 : Shape := ⟨1, ![1]⟩
abbrev S1x256 : Shape := ⟨2, ![1, 256]⟩
abbrev S512x1 : Shape := ⟨2, ![512, 1]⟩

abbrev nBuf : Space → Nat
  | .hbm => 3
  | .vmem => 4
  | .smem => 0
  | _ => 0

abbrev bufTy : (tb : Table) → Fin (tcTables nBuf tb) → BufTy
  | .hbm, ⟨0, _⟩ => ⟨S512x256, .f32⟩
  | .hbm, ⟨1, _⟩ => ⟨S256, .f32⟩
  | .hbm, ⟨2, _⟩ => ⟨S512x256, .f32⟩
  | .local _ .vmem, ⟨0, _⟩ => ⟨S512x256, .f32⟩
  | .local _ .vmem, ⟨1, _⟩ => ⟨S256, .f32⟩
  | .local _ .vmem, ⟨2, _⟩ => ⟨S512x256, .f32⟩
  | .local _ .vmem, ⟨3, _⟩ => ⟨S4x512, .f32⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  { ofTc nBuf bufTy 1 9 bufScoped semScoped dmaSemScoped tileCredit tileCredit_eq_zero tileCredit_pos with
    barrierSem := RefSig.barrierTable [(0, 0)]
    barrierSem_unscoped := RefSig.barrierTable_unscoped [(0, 0)] semScoped rfl }

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let c0_i32 : BitVec 32 := 0#32
  let v5 : BitVec 1 := Scalar.cmpi .eq c4_i32_1 c0_i32
  let c1_i32_2 : BitVec 32 := 1#32
  let v6 : BitVec 32 := Scalar.select v5 c1_i32_2 c4_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v17 : BitVec 32 := Scalar.addi v2 c2_i32
  let c4_i32_9 : BitVec 32 := 4#32
  let c0_i32_10 : BitVec 32 := 0#32
  let v18 : BitVec 1 := Scalar.cmpi .eq c4_i32_9 c0_i32_10
  let c1_i32_11 : BitVec 32 := 1#32
  let v19 : BitVec 32 := Scalar.select v18 c1_i32_11 c4_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v30 : BitVec 32 := Scalar.addi v2 c3_i32
  let c4_i32_18 : BitVec 32 := 4#32
  let c0_i32_19 : BitVec 32 := 0#32
  let v31 : BitVec 1 := Scalar.cmpi .eq c4_i32_18 c0_i32_19
  let c1_i32_20 : BitVec 32 := 1#32
  let v32 : BitVec 32 := Scalar.select v31 c1_i32_20 c4_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_42 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_30 : BitVec 32 := 2#32
  let v50 : BitVec 32 := Scalar.addi v2 c2_i32_30
  let c4_i32_31 : BitVec 32 := 4#32
  let c0_i32_32 : BitVec 32 := 0#32
  let v51 : BitVec 1 := Scalar.cmpi .eq c4_i32_31 c0_i32_32
  let c1_i32_33 : BitVec 32 := 1#32
  let v52 : BitVec 32 := Scalar.select v51 c1_i32_33 c4_i32_31
  let v53 : BitVec 32 := Scalar.remsi v50 v52
  let c0_i32_35 : BitVec 32 := 0#32
  let v55 : BitVec 1 := Scalar.cmpi .slt v53 c0_i32_35
  let c0_i32_36 : BitVec 32 := 0#32
  let v56 : BitVec 1 := Scalar.cmpi .slt v52 c0_i32_36
  let v57 : BitVec 1 := Scalar.xori v55 v56
  let c0_i32_34 : BitVec 32 := 0#32
  let v54 : BitVec 1 := Scalar.cmpi .ne v53 c0_i32_34
  let v58 : BitVec 1 := Scalar.andi v57 v54
  let v59 : BitVec 32 := Scalar.addi v53 v52
  let v60 : BitVec 32 := Scalar.select v58 v59 v53
  let c1_i32_41 : BitVec 32 := 1#32
  let v61 : BitVec 32 := Scalar.muli v60 c1_i32_41
  let v62 : BitVec 32 := Scalar.addi c0_i32_42 v61
  v62.toNat
def k0_dev5 (d0 : Dev nD) : Nat :=
  let c0_i32_57 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_45 : BitVec 32 := 1#32
  let v71 : BitVec 32 := Scalar.addi v2 c1_i32_45
  let c4_i32_46 : BitVec 32 := 4#32
  let c0_i32_47 : BitVec 32 := 0#32
  let v72 : BitVec 1 := Scalar.cmpi .eq c4_i32_46 c0_i32_47
  let c1_i32_48 : BitVec 32 := 1#32
  let v73 : BitVec 32 := Scalar.select v72 c1_i32_48 c4_i32_46
  let v74 : BitVec 32 := Scalar.remsi v71 v73
  let c0_i32_50 : BitVec 32 := 0#32
  let v76 : BitVec 1 := Scalar.cmpi .slt v74 c0_i32_50
  let c0_i32_51 : BitVec 32 := 0#32
  let v77 : BitVec 1 := Scalar.cmpi .slt v73 c0_i32_51
  let v78 : BitVec 1 := Scalar.xori v76 v77
  let c0_i32_49 : BitVec 32 := 0#32
  let v75 : BitVec 1 := Scalar.cmpi .ne v74 c0_i32_49
  let v79 : BitVec 1 := Scalar.andi v78 v75
  let v80 : BitVec 32 := Scalar.addi v74 v73
  let v81 : BitVec 32 := Scalar.select v79 v80 v74
  let c1_i32_56 : BitVec 32 := 1#32
  let v82 : BitVec 32 := Scalar.muli v81 c1_i32_56
  let v83 : BitVec 32 := Scalar.addi c0_i32_57 v82
  v83.toNat
def k0_dev6 (d0 : Dev nD) : Nat :=
  let c0_i32_72 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_60 : BitVec 32 := 3#32
  let v92 : BitVec 32 := Scalar.addi v2 c3_i32_60
  let c4_i32_61 : BitVec 32 := 4#32
  let c0_i32_62 : BitVec 32 := 0#32
  let v93 : BitVec 1 := Scalar.cmpi .eq c4_i32_61 c0_i32_62
  let c1_i32_63 : BitVec 32 := 1#32
  let v94 : BitVec 32 := Scalar.select v93 c1_i32_63 c4_i32_61
  let v95 : BitVec 32 := Scalar.remsi v92 v94
  let c0_i32_65 : BitVec 32 := 0#32
  let v97 : BitVec 1 := Scalar.cmpi .slt v95 c0_i32_65
  let c0_i32_66 : BitVec 32 := 0#32
  let v98 : BitVec 1 := Scalar.cmpi .slt v94 c0_i32_66
  let v99 : BitVec 1 := Scalar.xori v97 v98
  let c0_i32_64 : BitVec 32 := 0#32
  let v96 : BitVec 1 := Scalar.cmpi .ne v95 c0_i32_64
  let v100 : BitVec 1 := Scalar.andi v99 v96
  let v101 : BitVec 32 := Scalar.addi v95 v94
  let v102 : BitVec 32 := Scalar.select v100 v101 v95
  let c1_i32_71 : BitVec 32 := 1#32
  let v103 : BitVec 32 := Scalar.muli v102 c1_i32_71
  let v104 : BitVec 32 := Scalar.addi c0_i32_72 v103
  v104.toNat
abbrev stage0_0 : Fin 1 → Memref sig .tc .vmem S512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

class Facts₀ : Prop where
  hamt_1 : (1#32 : BitVec 32).msb = false
  inb_S512x256_S512x256_0_0 : ∀ a, (![0, 0] : Fin 2 → Nat) a + S512x256.size a ≤ S512x256.size a
  h_S512x256 : 0 < S512x256.numel
  shapeCasts_S512x256_S512x256 : S512x256.ShapeCasts S512x256
  reduces_S512x256_S512 : S512x256.Reduces [1] S512
  inb_S4x512_S1x512_3_0 : ∀ a, (![3, 0] : Fin 2 → Nat) a + S1x512.size a ≤ S4x512.size a
  h_S1x512 : 0 < S1x512.numel
  shapeCasts_S1x512_S512 : S1x512.ShapeCasts S512
  shapeCasts_S512_S1x512 : S512.ShapeCasts S1x512
  hamt_3 : (3#32 : BitVec 32).msb = false
  inb_S3_S1_1 : ∀ a, (![1] : Fin 1 → Nat) a + S1.size a ≤ S3.size a
  squeezes_S1_S_ : S1.Squeezes S_
  inb_S4x512_S1x512_1_0 : ∀ a, (![1, 0] : Fin 2 → Nat) a + S1x512.size a ≤ S4x512.size a
  squeezes_S1x512_S512 : S1x512.Squeezes S512
  inb_S3_S1_0 : ∀ a, (![0] : Fin 1 → Nat) a + S1.size a ≤ S3.size a
  inb_S4x512_S1x512_0_0 : ∀ a, (![0, 0] : Fin 2 → Nat) a + S1x512.size a ≤ S4x512.size a
  inb_S3_S1_2 : ∀ a, (![2] : Fin 1 → Nat) a + S1.size a ≤ S3.size a
  inb_S4x512_S1x512_2_0 : ∀ a, (![2, 0] : Fin 2 → Nat) a + S1x512.size a ≤ S4x512.size a
  inb_S256_S256_0 : ∀ a, (![0] : Fin 1 → Nat) a + S256.size a ≤ S256.size a
  h_S256 : 0 < S256.numel
  shapeCasts_S256_S256 : S256.ShapeCasts S256
  shapeCasts_S256_S1x256 : S256.ShapeCasts S1x256
  broadcasts_S1x256_S512x256 : S1x256.Broadcasts S512x256
  shapeCasts_S512_S512x1 : S512.ShapeCasts S512x1
  broadcasts_S512x1_S512x256 : S512x1.Broadcasts S512x256
  hcc0_scratch1 : 3 + S3.numel ≤ 9
  hcc0_scratch2 : 6 + S3.numel ≤ 9
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  hstage0_0 : ∀ j, (stage0_0 j).IsWhole
  hstage0_1 : ∀ j, (stage0_1 j).IsWhole
  hstage0_2 : ∀ j, (stage0_2 j).IsWhole

variable [Facts₀]

abbrev cc0_scratch1 : DmaSems sig S3 := SemArray.consecutive 3 S3 hcc0_scratch1
abbrev cc0_scratch2 : DmaSems sig S3 := SemArray.consecutive 6 S3 hcc0_scratch2

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg1) false false (stage0_1 0) (sem0_1 0) (Memref.isWhole_whole _) (hstage0_1 0)

abbrev win0_2 : Pipeline.Window sig grid0 :=
  Pipeline.Window.whole (Memref.whole main_v1) true false (stage0_2 0) (sem0_2 0) (Memref.isWhole_whole _) (hstage0_2 0)

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S512x1024 : Shape := ⟨2, ![512, 1024]⟩
abbrev S1024 : Shape := ⟨1, ![1024]⟩
abbrev S_ : Shape := ⟨0, ![]⟩
abbrev S512 : Shape := ⟨1, ![512]⟩
abbrev S512x1 : Shape := ⟨2, ![512, 1]⟩
abbrev S1x1024 : Shape := ⟨2, ![1, 1024]⟩

abbrev nBuf : Space → Nat
  | .hbm => 18
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S1024, .f32⟩
  | .hbm, ⟨2, _⟩ => ⟨S512x1024, .f32⟩
  | .hbm, ⟨3, _⟩ => ⟨S_, .f32⟩
  | .hbm, ⟨4, _⟩ => ⟨S512, .f32⟩
  | .hbm, ⟨5, _⟩ => ⟨S512x1, .f32⟩
  | .hbm, ⟨6, _⟩ => ⟨S_, .f32⟩
  | .hbm, ⟨7, _⟩ => ⟨S512x1, .f32⟩
  | .hbm, ⟨8, _⟩ => ⟨S512x1, .f32⟩
  | .hbm, ⟨9, _⟩ => ⟨S_, .f32⟩
  | .hbm, ⟨10, _⟩ => ⟨S512x1, .f32⟩
  | .hbm, ⟨11, _⟩ => ⟨S512x1, .f32⟩
  | .hbm, ⟨12, _⟩ => ⟨S512x1, .f32⟩
  | .hbm, ⟨13, _⟩ => ⟨S1x1024, .f32⟩
  | .hbm, ⟨14, _⟩ => ⟨S512x1024, .f32⟩
  | .hbm, ⟨15, _⟩ => ⟨S512x1024, .f32⟩
  | .hbm, ⟨16, _⟩ => ⟨S512x1024, .f32⟩
  | .hbm, ⟨17, _⟩ => ⟨S512x1024, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]

class Facts₀ : Prop where
  reducesTo_S512x1024_S512_d1 : S512x1024.ReducesTo [1] S512
  h_S_ : 0 < S_.numel
  bcast_S512_S512x1_0 : S512.BroadcastsInDim S512x1 (![0] : Fin 1 → Fin S512x1.rank)
  bcast_S_S512x1 : S_.BroadcastsInDim S512x1 (![] : Fin 0 → Fin S512x1.rank)
  bcast_S1024_S1x1024_1 : S1024.BroadcastsInDim S1x1024 (![1] : Fin 1 → Fin S1x1024.rank)
  bcast_S1x1024_S512x1024_0_1 : S1x1024.BroadcastsInDim S512x1024 (![0, 1] : Fin 2 → Fin S512x1024.rank)
  bcast_S512x1_S512x1024_0_1 : S512x1.BroadcastsInDim S512x1024 (![0, 1] : Fin 2 → Fin S512x1024.rank)

variable [Facts₀]

class Facts : Prop extends Facts₀ where

variable [Facts]
-- ==== Proof.Protocol.lean ====
import proofs.«900385_g7700000000000386_dist_rmsnorm_colshard_i_m512_n256_v7x_i4_f32_1_alg».proof.Defs
import proofs.«900385_g7700000000000386_dist_rmsnorm_colshard_i_m512_n256_v7x_i4_f32_1_alg».proof.Proof.Gen.KernelIdeal
import proofs.«900385_g7700000000000386_dist_rmsnorm_colshard_i_m512_n256_v7x_i4_f32_1_alg».proof.Proof.Gen.KernelIdeal.Skeleton
import proofs.«900385_g7700000000000386_dist_rmsnorm_colshard_i_m512_n256_v7x_i4_f32_1_alg».proof.Proof.Gen.KernelIdeal.Launch
import proofs.«900385_g7700000000000386_dist_rmsnorm_colshard_i_m512_n256_v7x_i4_f32_1_alg».proof.Proof.Gen.KernelIdeal.Points
import proofs.«900385_g7700000000000386_dist_rmsnorm_colshard_i_m512_n256_v7x_i4_f32_1_alg».proof.Proof.Gen.KernelIdeal.Frame
import Idealize.ShloMosaic.Lib.Pipeline.Launch
import Idealize.ShloMosaic.Lib.Pipeline.Kit
import Idealize.ShloMosaic.Lib.Pipeline.Value
import Idealize.ShloMosaic.Lib.Tactic

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's own copy and the collective's (three duty names) -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero. -/
def s₀ : MemSt nD τ sig (Elt F) := ⟨m, fun _ => 0, ρ⟩

/-! ## The four devices: who is `j + 1` places ahead of whom

Device `c` addresses the devices `c + 1`, `c + 2`, `c + 3` (mod 4): `fwd j c` is `j + 1` places ahead, `bwd j c`
the same number of places behind. A device `j + 1` ahead of `c` sees `c` as `(2 - j) + 1` ahead of itself. -/

def fwd (j : Fin 3) (c : Dev nD) : Dev nD := ⟨(c.val + j.val + 1) % 4, Nat.mod_lt _ (by decide)⟩
def bwd (j : Fin 3) (c : Dev nD) : Dev nD := ⟨(c.val + 3 - j.val) % 4, Nat.mod_lt _ (by decide)⟩
def rev (j : Fin 3) : Fin 3 := ⟨2 - j.val, by omega⟩

theorem bwd_fwd (j : Fin 3) (c : Dev nD) : bwd j (fwd j c) = c := by revert j c; decide
theorem fwd_bwd (j : Fin 3) (c : Dev nD) : fwd j (bwd j c) = c := by revert j c; decide
theorem fwd_rev (j : Fin 3) (c : Dev nD) : fwd (rev j) c = bwd j c := by revert j c; decide
theorem bwd_rev (j : Fin 3) (c : Dev nD) : bwd (rev j) c = fwd j c := by revert j c; decide
theorem rev_rev (j : Fin 3) : rev (rev j) = j := by revert j; decide

def ring (j : Fin 3) : Dev nD ≃ Dev nD := ⟨fwd j, bwd j, bwd_fwd j, fwd_bwd j⟩

/-- The kernel's `device_id` chains: the three signals go 1, 2, 3 places ahead; the three copies 2, 1, 3 places ahead. -/
theorem dev1_eq (c : Dev nD) : (⟨k0_dev1 c, k0_dev1_lt c⟩ : Dev nD) = fwd 0 c := by revert c; decide +kernel
theorem dev2_eq (c : Dev nD) : (⟨k0_dev2 c, k0_dev2_lt c⟩ : Dev nD) = fwd 1 c := by revert c; decide +kernel
theorem dev3_eq (c : Dev nD) : (⟨k0_dev3 c, k0_dev3_lt c⟩ : Dev nD) = fwd 2 c := by revert c; decide +kernel
theorem dev4_eq (c : Dev nD) : (⟨k0_dev4 c, k0_dev4_lt c⟩ : Dev nD) = fwd 1 c := by revert c; decide +kernel
theorem dev5_eq (c : Dev nD) : (⟨k0_dev5 c, k0_dev5_lt c⟩ : Dev nD) = fwd 0 c := by revert c; decide +kernel
theorem dev6_eq (c : Dev nD) : (⟨k0_dev6 c, k0_dev6_lt c⟩ : Dev nD) = fwd 2 c := by revert c; decide +kernel

/-! ## The semaphores and cells -/

/-- The runtime's barrier semaphore of collective id 0; the three send and the three receive DMA semaphores. -/
abbrev barS : Sem sig := (SemArray.scalar (sig.barrier 0 rfl) : Sems sig S_).sem
abbrev sendS : Fin 3 → DmaSem sig := fun | 0 => 3 | 1 => 4 | 2 => 5
abbrev recvS : Fin 3 → DmaSem sig := fun | 0 => 6 | 1 => 7 | 2 => 8

abbrev barCell (c : Dev nD) : GSem nD τ sig := ((c : Thread nD τ), .reg barS)
abbrev sendCell (j : Fin 3) (c : Dev nD) : GSem nD τ sig := ((c : Thread nD τ), .dma (sendS j))
abbrev recvCell (j : Fin 3) (c : Dev nD) : GSem nD τ sig := ((c : Thread nD τ), .dma (recvS j))

/-- What a semaphore is in the protocol. -/
inductive CK | bar | snd (j : Fin 3) | rcv (j : Fin 3) | other
deriving DecidableEq

def kindOf : SemLoc sig → CK
  | .reg s => if s = barS then .bar else .other
  | .dma q => if q = 3 then .snd 0 else if q = 4 then .snd 1 else if q = 5 then .snd 2
      else if q = 6 then .rcv 0 else if q = 7 then .rcv 1 else if q = 8 then .rcv 2 else .other

theorem kind_bar : kindOf (.reg barS) = .bar := by decide
theorem kind_send (j : Fin 3) : kindOf (.dma (sendS j)) = .snd j := by revert j; decide
theorem kind_recv (j : Fin 3) : kindOf (.dma (recvS j)) = .rcv j := by revert j; decide

/-- The kernel's OWN (scoped) semaphores, as the launch indexes them: the three send cells, then the three receive cells; -/
abbrev osem : Fin 6 → SemLoc sig := fun | 0 => .dma (sendS 0) | 1 => .dma (sendS 1) | 2 => .dma (sendS 2) | 3 => .dma (recvS 0) | 4 => .dma (recvS 1) | 5 => .dma (recvS 2)
/-- all seven of the protocol: the barrier cell first. -/
abbrev csem : Fin 7 → SemLoc sig := fun | 0 => .reg barS | 1 => .dma (sendS 0) | 2 => .dma (sendS 1) | 3 => .dma (sendS 2) | 4 => .dma (recvS 0) | 5 => .dma (recvS 1) | 6 => .dma (recvS 2)
abbrev kcell (ck : Dev nD × Fin 7) : GSem nD τ sig := ((ck.1 : Thread nD τ), csem ck.2)

/-! ## The exchange buffer, row by row -/

abbrev sM : Memref sig .tc .vmem S4x512 .f32 := Memref.whole cc0_scratch0
abbrev xM : Memref sig .tc .vmem S512x256 .f32 := Memref.whole cc0_stg0_0
abbrev gM : Memref sig .tc .vmem S256 .f32 := Memref.whole cc0_stg1_0
abbrev oM : Memref sig .tc .vmem S512x256 .f32 := Memref.whole cc0_stg2_0

/-- Row `k` of the 4 × 512 exchange buffer as a rectangle. -/
abbrev rk : Fin 4 → Rect S4x512 := fun
  | 0 => Rect.unit (s := S4x512) ![0, 0] S1x512.size inb_S4x512_S1x512_0_0
  | 1 => Rect.unit (s := S4x512) ![1, 0] S1x512.size inb_S4x512_S1x512_1_0
  | 2 => Rect.unit (s := S4x512) ![2, 0] S1x512.size inb_S4x512_S1x512_2_0
  | 3 => Rect.unit (s := S4x512) ![3, 0] S1x512.size inb_S4x512_S1x512_3_0

/-- The row as a vector access sees it (1 × 512), -/
abbrev aV (k : Fin 4) : View sig .tc .vmem (rk k).shape .f32 := sM.access (rk k)
/-- and as a copy's end (512). -/
abbrev rowM : Fin 4 → Memref sig .tc .vmem S512 .f32 := fun
  | 0 => (sM.slice (Rect.unit (s := S4x512) ![0, 0] S1x512.size inb_S4x512_S1x512_0_0) (fun _ => rfl)).squeeze S512 squeezes_S1x512_S512
  | 1 => (sM.slice (Rect.unit (s := S4x512) ![1, 0] S1x512.size inb_S4x512_S1x512_1_0) (fun _ => rfl)).squeeze S512 squeezes_S1x512_S512
  | 2 => (sM.slice (Rect.unit (s := S4x512) ![2, 0] S1x512.size inb_S4x512_S1x512_2_0) (fun _ => rfl)).squeeze S512 squeezes_S1x512_S512
  | 3 => (sM.slice (Rect.unit (s := S4x512) ![3, 0] S1x512.size inb_S4x512_S1x512_3_0) (fun _ => rfl)).squeeze S512 squeezes_S1x512_S512

/-- The elements of row `k`. -/
def rowSet (k : Fin 4) : Finset S4x512.Idx := (rk k).set

theorem mem_rowSet {k : Fin 4} {i : S4x512.Idx} : i ∈ rowSet k ↔ (i 0).val = k.val := by
  unfold rowSet
  have key : ∀ (o : ℕ) (inb : ∀ a, (![o, 0] : Fin 2 → ℕ) a + S1x512.size a ≤ S4x512.size a),
      i ∈ (Rect.unit (s := S4x512) ![o, 0] S1x512.size inb).set ↔ (i 0).val = o := by
    intro o inb
    rw [Rect.mem_set_unit]
    constructor
    · intro h; have h0 := h (0 : Fin 2); simp at h0; omega
    · intro h a
      have h1 : (i 1).val < 512 := (i 1).isLt
      fin_cases a
      · simp; omega
      · simp; exact h1
  fin_cases k
  · exact key 0 _
  · exact key 1 _
  · exact key 2 _
  · exact key 3 _

theorem rowSet_disjoint {j k : Fin 4} (h : j ≠ k) : Disjoint (rowSet j) (rowSet k) :=
  Finset.disjoint_left.mpr fun i hj hk => h (Fin.ext ((mem_rowSet.mp hj).symm.trans (mem_rowSet.mp hk)))

theorem rowSet_cover : (Finset.univ : Finset (Fin 4)).biUnion rowSet = Finset.univ :=
  Finset.eq_univ_iff_forall.mpr fun i => Finset.mem_biUnion.mpr ⟨⟨(i 0).val, (i 0).isLt⟩, Finset.mem_univ _, mem_rowSet.mpr rfl⟩

theorem aV_set (k : Fin 4) : (aV k).set = rowSet k := by
  fin_cases k <;> exact View.set_slice_whole _ _
theorem rowM_set0 : (rowM 0).view.set = rowSet 0 := by
  simp only [rowM, Memref.view_squeeze, View.set_reshape]; exact View.set_slice_whole _ _
theorem rowM_set1 : (rowM 1).view.set = rowSet 1 := by
  simp only [rowM, Memref.view_squeeze, View.set_reshape]; exact View.set_slice_whole _ _
theorem rowM_set2 : (rowM 2).view.set = rowSet 2 := by
  simp only [rowM, Memref.view_squeeze, View.set_reshape]; exact View.set_slice_whole _ _
theorem rowM_set3 : (rowM 3).view.set = rowSet 3 := by
  simp only [rowM, Memref.view_squeeze, View.set_reshape]; exact View.set_slice_whole _ _

abbrev N : ℕ := (rowM 0).view.dmaCredit
theorem N_pos : 0 < N := View.dmaCredit_pos _ (by decide)

/-! ## Contents

Each device squares its 512 × 256 block of `x` and sums every row (the generated payload `k0_pay2`): 512 partial sums,
kept in row 3 of its exchange buffer and copied into row `j` of the device `j + 1` places ahead. After the exchange,
row `j < 3` of device `c` holds the partial sums of the device `j + 1` places behind it, row 3 its own. -/

/-- Device `c`'s blocks of `x` and of `gamma` as the pipeline stages them. -/
def xstg (c : Dev nD) : (cc0_stg0_0 : Ref sig .tc).ty.Contents (Elt F) := iblk m c 0 t0_0
def gstg (c : Dev nD) : (cc0_stg1_0 : Ref sig .tc).ty.Contents (Elt F) := iblk m c 1 t0_0

/-- Device `c`'s partial sums of squares, one per row of its block. -/
def psum (c : Dev nD) : S1x512.Idx → Elt F .f32 := k0_pay2 (xstg m c)

/-- The exchange buffer of device `c` once everything has landed (rows written one by one over arbitrary contents). -/
def comm (c : Dev nD) : (cc0_scratch0 : Ref sig .tc).ty.Contents (Elt F) :=
  (aV 0).write (Elt F) ((aV 1).write (Elt F) ((aV 2).write (Elt F) ((aV 3).write (Elt F) (fun _ => Classical.arbitrary _) (psum m c) Finset.univ)
    (psum m (bwd 2 c)) Finset.univ) (psum m (bwd 1 c)) Finset.univ) (psum m (bwd 0 c)) Finset.univ

/-- Row `k` of device `c`'s exchange buffer, held at share `q` with contents `f`. -/
def rowPts (c : Dev nD) (k : Fin 4) (q : PosShare TreeShare) (f : Buf (Elt F) ((c : Thread nD τ).loc cc0_scratch0)) : sProp 𝕄 :=
  ((c : Thread nD τ).loc cc0_scratch0) ↦[rowSet k]{q} f

omit [FloatOps F] in
instance rowPts_storable (c : Dev nD) (k : Fin 4) (q) (f) : BI.Storable (upEmb : UEmb _ 𝕄) (rowPts (F := F) c k q f) := by unfold rowPts; infer_instance

/-- Row 3 is read by three copies at once and by the device itself: four quarter shares. -/
abbrev qs : Fin 3 → PosShare TreeShare := fun | 0 => fullShare.left.left | 1 => fullShare.left.right | 2 => fullShare.right.left
abbrev qk : PosShare TreeShare := fullShare.right.right

/-! ## The schedule: one round

A device's barrier cell has three duties, one per peer: duty `d` is paid by the device `d + 1` places behind, which
hands over the row of ITS buffer that this device will copy into (row `2 - d`) and that it has opened the receive cell
of that row. A send cell and a receive cell have one duty each, of a row's credit: the send cell gives back the share of
row 3 the copy read, the receive cell gives the row holding the sender's partial sums. -/

def barPay (e : Dev nD) (d : Fin 3) : sProp 𝕄 :=
  iprop((∃ f, rowPts (bwd d e) (rev d).castSucc fullShare f) ∗ reached ER (recvCell (rev d) (bwd d e)) 0)
def sendPay (c : Dev nD) (j : Fin 3) : sProp 𝕄 := rowPts c 3 (qs j) (comm m c)
def recvPay (e : Dev nD) (j : Fin 3) : sProp 𝕄 := rowPts e j.castSucc fullShare (comm m e)

def sched : Rounds.Schedule (GSem nD τ sig) (Fin 3) 𝕄 where
  duties g r := if r = 0 ∧ g.1.2 = .tc then (match kindOf g.2 with | .bar => Finset.univ | .snd _ => {0} | .rcv _ => {0} | .other => ∅) else ∅
  unitless _ := False
  amount g _ _ := match kindOf g.2 with | .bar => 1 | _ => N
  payload g _ d := match kindOf g.2 with
    | .bar => barPay g.1.1 d
    | .snd j => sendPay m g.1.1 j
    | .rcv j => recvPay m g.1.1 j
    | .other => iprop(emp)
  amount_pos g _ _ _ := by
    cases kindOf g.2 <;> first | exact Nat.one_pos | exact N_pos

instance sched_payload_storable (g : GSem nD τ sig) (r : ℕ) (d : Fin 3) :
    BI.Storable (upEmb : UEmb _ 𝕄) ((sched (F := F) m).payload g r d) := by
  show BI.Storable upEmb (match kindOf g.2 with
    | .bar => barPay g.1.1 d | .snd j => sendPay m g.1.1 j | .rcv j => recvPay m g.1.1 j | .other => iprop(emp))
  unfold barPay sendPay recvPay
  cases kindOf g.2 <;> infer_instance

section Sched
variable (c : Dev nD) (j : Fin 3)

theorem duties_bar : (sched (F := F) m).duties (barCell c) 0 = Finset.univ := by
  dsimp only [sched]; rw [if_pos ⟨rfl, rfl⟩, kind_bar]
theorem duties_send : (sched (F := F) m).duties (sendCell j c) 0 = {0} := by
  dsimp only [sched]; rw [if_pos ⟨rfl, rfl⟩, kind_send]
theorem duties_recv : (sched (F := F) m).duties (recvCell j c) 0 = {0} := by
  dsimp only [sched]; rw [if_pos ⟨rfl, rfl⟩, kind_recv]
theorem duties_later (g : GSem nD τ sig) : ∀ r, 1 ≤ r → (sched (F := F) m).duties g r = ∅ :=
  fun r hr => by dsimp only [sched]; rw [if_neg fun h => by omega]

theorem amount_bar (d : Fin 3) : (sched (F := F) m).amount (barCell c) 0 d = 1 := by dsimp only [sched]; rw [kind_bar]
theorem amount_send (d : Fin 3) : (sched (F := F) m).amount (sendCell j c) 0 d = N := by dsimp only [sched]; rw [kind_send]
theorem amount_recv (d : Fin 3) : (sched (F := F) m).amount (recvCell j c) 0 d = N := by dsimp only [sched]; rw [kind_recv]

theorem expect_bar : (sched (F := F) m).expect (barCell c) 0 = 3 := by
  unfold Schedule.expect Schedule.amountOf
  rw [duties_bar, Finset.sum_congr rfl fun d _ => amount_bar m c d, Finset.sum_const, Finset.card_univ, Fintype.card_fin, smul_eq_mul]
theorem expect_send : (sched (F := F) m).expect (sendCell j c) 0 = N := by
  unfold Schedule.expect Schedule.amountOf; rw [duties_send, Finset.sum_singleton, amount_send]
theorem expect_recv : (sched (F := F) m).expect (recvCell j c) 0 = N := by
  unfold Schedule.expect Schedule.amountOf; rw [duties_recv, Finset.sum_singleton, amount_recv]

theorem payload_bar (d : Fin 3) : (sched (F := F) m).payload (barCell c) 0 d = barPay c d := by dsimp only [sched]; rw [kind_bar]
theorem payload_send (d : Fin 3) : (sched (F := F) m).payload (sendCell j c) 0 d = sendPay m c j := by dsimp only [sched]; rw [kind_send]
theorem payload_recv (d : Fin 3) : (sched (F := F) m).payload (recvCell j c) 0 d = recvPay m c j := by dsimp only [sched]; rw [kind_recv]

omit [FloatOps F] in
theorem bigSep_fin3 (Φ : Fin 3 → sProp 𝕄) : bigSep Finset.univ Φ = iprop(Φ 0 ∗ Φ 1 ∗ Φ 2) := bigSep_univ_eq_bigSepL [0, 1, 2] (by decide) (by decide) Φ

/-- The rest of a round no duty of which has been taken: every peer's hand-over; the share back; the row landed. -/
theorem rest_bar : bigSep ((sched (F := F) m).duties (barCell c) 0 \ ∅) (fun d => (sched (F := F) m).payload (barCell c) 0 d)
    = iprop(barPay c 0 ∗ barPay c 1 ∗ barPay c 2) := by
  rw [Finset.sdiff_empty, duties_bar, bigSep_fin3, payload_bar, payload_bar, payload_bar]
theorem rest_send : bigSep ((sched (F := F) m).duties (sendCell j c) 0 \ ∅) (fun d => (sched (F := F) m).payload (sendCell j c) 0 d) = sendPay m c j := by
  rw [Finset.sdiff_empty, duties_send, bigSep_singleton, payload_send]
theorem rest_recv : bigSep ((sched (F := F) m).duties (recvCell j c) 0 \ ∅) (fun d => (sched (F := F) m).payload (recvCell j c) 0 d) = recvPay m c j := by
  rw [Finset.sdiff_empty, duties_recv, bigSep_singleton, payload_recv]

end Sched

/-! ## What each device owes at launch; the levels

Device `c` owes each peer's barrier cell one unit and each peer's receive cell (of the row it copies into) a row's
credit. Barrier cells sit at level 1, receive cells at level 2, everything else (staging, send) at 0: a device waits on
its barrier cell owing only receive credits, and on its receive cells owing nothing. -/

def tB (j : Fin 3) (c : Dev nD) : CellTallies nD τ sig Unit := tallyAt (barCell (fwd j c)) () 1
def tR (j : Fin 3) (c : Dev nD) : CellTallies nD τ sig Unit := tallyAt (recvCell j (fwd j c)) () N
/-- After the three signals: the three receive credits, summed so that the copies (2, 1, 3 places ahead) peel them from the right. -/
def OR (c : Dev nD) : CellTallies nD τ sig Unit := tR 2 c + tR 0 c + tR 1 c
def O₀ (c : Dev nD) : CellTallies nD τ sig Unit := OR c + tB 2 c + tB 1 c + tB 0 c

def L (g : GSem nD τ sig) : Finset Unit := if g.1.2 = .tc then {()} else ∅
def lv (g : GSem nD τ sig) (_ : Unit) : ℕ := match kindOf g.2 with | .bar => 1 | .rcv _ => 2 | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barCell c) u = 1 := by dsimp only [lv]; rw [kind_bar]
theorem lv_recv (j : Fin 3) (c : Dev nD) (u : Unit) : lv (recvCell j c) u = 2 := by dsimp only [lv]; rw [kind_recv]
theorem lv_send (j : Fin 3) (c : Dev nD) (u : Unit) : lv (sendCell j c) u = 0 := by dsimp only [lv]; rw [kind_send]

theorem OR_pos {c : Dev nD} {g : GSem nD τ sig} {u : Unit} (h : 0 < OR c g u) : ∃ j, g = recvCell j (fwd j c) := by
  unfold OR tR at h
  rcases Pipeline.add_pos_cases h with h | h
  · rcases Pipeline.add_pos_cases h with h | h
    · exact ⟨2, (Pipeline.tallyAt_pos h).1⟩
    · exact ⟨0, (Pipeline.tallyAt_pos h).1⟩
  · exact ⟨1, (Pipeline.tallyAt_pos h).1⟩

theorem O₀_pos {c : Dev nD} {g : GSem nD τ sig} {u : Unit} (h : 0 < O₀ c g u) :
    (∃ j, g = recvCell j (fwd j c)) ∨ ∃ j, g = barCell (fwd j c) := by
  unfold O₀ tB at h
  rcases Pipeline.add_pos_cases h with h | h
  · rcases Pipeline.add_pos_cases h with h | h
    · rcases Pipeline.add_pos_cases h with h | h
      · exact .inl (OR_pos h)
      · exact .inr ⟨2, (Pipeline.tallyAt_pos h).1⟩
    · exact .inr ⟨1, (Pipeline.tallyAt_pos h).1⟩
  · exact .inr ⟨0, (Pipeline.tallyAt_pos h).1⟩

omit [FloatOps F] in
/-- A wait on a cell of level 0 (a staging cell, a send cell), whatever of its launch dues the device still owes. -/
theorem mayWait_low (c : Dev nD) (s : SemLoc sig) (hs : lv ((c : Thread nD τ), s) () = 0) (O : CellTallies nD τ sig Unit)
    (hO : ∀ g u, 0 < O g u → 0 < O₀ c g u) :
    (levAts L lv : sProp 𝕄) ⊢ MayWait (c : Thread nD τ) s () O :=
  Pipeline.mayWait_of_levAts (by rw [L_tc]; exact Finset.mem_singleton_self _) fun g u hg => by
    rcases O₀_pos (hO g u hg) with ⟨j, rfl⟩ | ⟨j, rfl⟩
    · exact ⟨by rw [L_tc]; exact Finset.mem_singleton_self _, by rw [hs, lv_recv]; decide⟩
    · exact ⟨by rw [L_tc]; exact Finset.mem_singleton_self _, by rw [hs, lv_bar]; decide⟩

omit [FloatOps F] in
/-- At its barrier wait a device owes receive credits only: receive cells sit above barrier cells. -/
theorem mayWait_bar (c : Dev nD) : (levAts L lv : sProp 𝕄) ⊢ MayWait (c : Thread nD τ) (.reg barS) () (OR c) :=
  Pipeline.mayWait_of_levAts (by rw [L_tc]; exact Finset.mem_singleton_self _) fun g u hg => by
    obtain ⟨j, rfl⟩ := OR_pos hg
    exact ⟨by rw [L_tc]; exact Finset.mem_singleton_self _, by rw [lv_bar, lv_recv]; decide⟩

/-! ## Reading the exchange buffer

Rows are disjoint, so writing one row leaves the others alone, and what a row reads back is what was last written to it. -/

omit [FloatOps F] in
theorem write_row_off {k k' : Fin 4} (h : k ≠ k') (f : (cc0_scratch0 : Ref sig .tc).ty.Contents (Elt F)) (w : (rk k).shape.Idx → Elt F .f32)
    {i : S4x512.Idx} (hi : i ∈ rowSet k') : (aV k).write (Elt F) f w Finset.univ i = f i :=
  View.write_of_not_mem _ _ _ (by
    rw [View.setOn_univ, aV_set]; exact fun hk => Finset.disjoint_left.mp (rowSet_disjoint h) hk hi)

omit [FloatOps F] in
theorem write_row_on {k : Fin 4} (f f' : (cc0_scratch0 : Ref sig .tc).ty.Contents (Elt F)) (w : (rk k).shape.Idx → Elt F .f32)
    {i : S4x512.Idx} (hi : i ∈ rowSet k) : (aV k).write (Elt F) f w Finset.univ i = (aV k).write (Elt F) f' w Finset.univ i := by
  have h := congrFun (View.write_eq_piecewise (v := aV k) f f' w Finset.univ) i
  rw [h, Finset.piecewise_eq_of_mem _ _ _ (by rw [View.setOn_univ, aV_set]; exact hi)]

omit [FloatOps F] in
theorem read_row_off {k k' : Fin 4} (h : k ≠ k') (f : (cc0_scratch0 : Ref sig .tc).ty.Contents (Elt F)) (w : (rk k').shape.Idx → Elt F .f32) :
    (aV k).read (Elt F) ((aV k').write (Elt F) f w Finset.univ) = (aV k).read (Elt F) f :=
  View.read_slice_write_slice_of_disjoint (v := sM.view) (rk k) (rk k') f w Finset.univ (by
    rw [View.setOn_univ]; show Disjoint (aV k).set (aV k').set; rw [aV_set, aV_set]; exact rowSet_disjoint h)

/-- Row 3 of a device's buffer reads its own partial sums; row `j < 3` those of the device `j + 1` places behind. -/
theorem read_comm3 (c : Dev nD) : (aV 3).read (Elt F) (comm m c) = psum m c := by
  unfold comm
  rw [read_row_off (by decide), read_row_off (by decide), read_row_off (by decide)]
  exact View.read_write_univ _ _
theorem read_comm2 (c : Dev nD) : (aV 2).read (Elt F) (comm m c) = psum m (bwd 2 c) := by
  unfold comm
  rw [read_row_off (by decide), read_row_off (by decide)]
  exact View.read_write_univ _ _
theorem read_comm1 (c : Dev nD) : (aV 1).read (Elt F) (comm m c) = psum m (bwd 1 c) := by
  unfold comm
  rw [read_row_off (by decide)]
  exact View.read_write_univ _ _
theorem read_comm0 (c : Dev nD) : (aV 0).read (Elt F) (comm m c) = psum m (bwd 0 c) := by
  unfold comm
  exact View.read_write_univ _ _

/-- On row `k` the final contents are that row's write, over whatever was there. -/
theorem comm_at0 (c : Dev nD) {i : S4x512.Idx} (hi : i ∈ rowSet 0) (f : (cc0_scratch0 : Ref sig .tc).ty.Contents (Elt F)) :
    comm m c i = (aV 0).write (Elt F) f (psum m (bwd 0 c)) Finset.univ i := by
  unfold comm; exact write_row_on _ _ _ hi
theorem comm_at1 (c : Dev nD) {i : S4x512.Idx} (hi : i ∈ rowSet 1) (f : (cc0_scratch0 : Ref sig .tc).ty.Contents (Elt F)) :
    comm m c i = (aV 1).write (Elt F) f (psum m (bwd 1 c)) Finset.univ i := by
  unfold comm; rw [write_row_off (k := 0) (by decide) _ _ hi]; exact write_row_on _ _ _ hi
theorem comm_at2 (c : Dev nD) {i : S4x512.Idx} (hi : i ∈ rowSet 2) (f : (cc0_scratch0 : Ref sig .tc).ty.Contents (Elt F)) :
    comm m c i = (aV 2).write (Elt F) f (psum m (bwd 2 c)) Finset.univ i := by
  unfold comm; rw [write_row_off (k := 0) (by decide) _ _ hi, write_row_off (k := 1) (by decide) _ _ hi]; exact write_row_on _ _ _ hi
theorem comm_at3 (c : Dev nD) {i : S4x512.Idx} (hi : i ∈ rowSet 3) (f : (cc0_scratch0 : Ref sig .tc).ty.Contents (Elt F)) :
    comm m c i = (aV 3).write (Elt F) f (psum m c) Finset.univ i := by
  unfold comm
  rw [write_row_off (k := 0) (by decide) _ _ hi, write_row_off (k := 1) (by decide) _ _ hi, write_row_off (k := 2) (by decide) _ _ hi]
  exact write_row_on _ _ _ hi

/-- The copy 1 place(s) ahead lands the sender's partial sums in row 0 of the receiver, as the receiver finally holds it. -/
theorem land_eq0 (c : Dev nD) (fd : (cc0_scratch0 : Ref sig .tc).ty.Contents (Elt F)) :
    ∀ i ∈ rowSet 0, (rowM 0).view.write (Elt F) fd ((rowM 3).view.read (Elt F) (comm m c)) Finset.univ i = comm m (fwd 0 c) i := fun i hi => by
  have hw : (rowM 0).view.write (Elt F) fd ((rowM 3).view.read (Elt F) (comm m c)) Finset.univ
      = (aV 0).write (Elt F) fd (fun x => (rowM 3).view.read (Elt F) (comm m c) ((Shape.reshapeEquiv squeezes_S1x512_S512.numel_eq).symm x)) Finset.univ :=
    View.write_reshape_univ (v := aV 0) squeezes_S1x512_S512.numel_eq fd _
  have hr : (fun x => (rowM 3).view.read (Elt F) (comm m c) ((Shape.reshapeEquiv squeezes_S1x512_S512.numel_eq).symm x)) = psum m c := by
    funext x
    show (aV 3).read (Elt F) (comm m c) (Shape.reshapeEquiv squeezes_S1x512_S512.numel_eq ((Shape.reshapeEquiv squeezes_S1x512_S512.numel_eq).symm x)) = _
    rw [Equiv.apply_symm_apply, read_comm3]
  have hw' : (rowM 0).view.write (Elt F) fd ((rowM 3).view.read (Elt F) (comm m c)) Finset.univ = (aV 0).write (Elt F) fd (psum m c) Finset.univ :=
    hw.trans (congrArg (fun w => View.write (Elt F) (aV 0) fd w Finset.univ) hr)
  rw [hw', comm_at0 m (fwd 0 c) hi fd, bwd_fwd]

/-- The copy 2 place(s) ahead lands the sender's partial sums in row 1 of the receiver, as the receiver finally holds it. -/
theorem land_eq1 (c : Dev nD) (fd : (cc0_scratch0 : Ref sig .tc).ty.Contents (Elt F)) :
    ∀ i ∈ rowSet 1, (rowM 1).view.write (Elt F) fd ((rowM 3).view.read (Elt F) (comm m c)) Finset.univ i = comm m (fwd 1 c) i := fun i hi => by
  have hw : (rowM 1).view.write (Elt F) fd ((rowM 3).view.read (Elt F) (comm m c)) Finset.univ
      = (aV 1).write (Elt F) fd (fun x => (rowM 3).view.read (Elt F) (comm m c) ((Shape.reshapeEquiv squeezes_S1x512_S512.numel_eq).symm x)) Finset.univ :=
    View.write_reshape_univ (v := aV 1) squeezes_S1x512_S512.numel_eq fd _
  have hr : (fun x => (rowM 3).view.read (Elt F) (comm m c) ((Shape.reshapeEquiv squeezes_S1x512_S512.numel_eq).symm x)) = psum m c := by
    funext x
    show (aV 3).read (Elt F) (comm m c) (Shape.reshapeEquiv squeezes_S1x512_S512.numel_eq ((Shape.reshapeEquiv squeezes_S1x512_S512.numel_eq).symm x)) = _
    rw [Equiv.apply_symm_apply, read_comm3]
  have hw' : (rowM 1).view.write (Elt F) fd ((rowM 3).view.read (Elt F) (comm m c)) Finset.univ = (aV 1).write (Elt F) fd (psum m c) Finset.univ :=
    hw.trans (congrArg (fun w => View.write (Elt F) (aV 1) fd w Finset.univ) hr)
  rw [hw', comm_at1 m (fwd 1 c) hi fd, bwd_fwd]

/-- The copy 3 place(s) ahead lands the sender's partial sums in row 2 of the receiver, as the receiver finally holds it. -/
theorem land_eq2 (c : Dev nD) (fd : (cc0_scratch0 : Ref sig .tc).ty.Contents (Elt F)) :
    ∀ i ∈ rowSet 2, (rowM 2).view.write (Elt F) fd ((rowM 3).view.read (Elt F) (comm m c)) Finset.univ i = comm m (fwd 2 c) i := fun i hi => by
  have hw : (rowM 2).view.write (Elt F) fd ((rowM 3).view.read (Elt F) (comm m c)) Finset.univ
      = (aV 2).write (Elt F) fd (fun x => (rowM 3).view.read (Elt F) (comm m c) ((Shape.reshapeEquiv squeezes_S1x512_S512.numel_eq).symm x)) Finset.univ :=
    View.write_reshape_univ (v := aV 2) squeezes_S1x512_S512.numel_eq fd _
  have hr : (fun x => (rowM 3).view.read (Elt F) (comm m c) ((Shape.reshapeEquiv squeezes_S1x512_S512.numel_eq).symm x)) = psum m c := by
    funext x
    show (aV 3).read (Elt F) (comm m c) (Shape.reshapeEquiv squeezes_S1x512_S512.numel_eq ((Shape.reshapeEquiv squeezes_S1x512_S512.numel_eq).symm x)) = _
    rw [Equiv.apply_symm_apply, read_comm3]
  have hw' : (rowM 2).view.write (Elt F) fd ((rowM 3).view.read (Elt F) (comm m c)) Finset.univ = (aV 2).write (Elt F) fd (psum m c) Finset.univ :=
    hw.trans (congrArg (fun w => View.write (Elt F) (aV 2) fd w Finset.univ) hr)
  rw [hw', comm_at2 m (fwd 2 c) hi fd, bwd_fwd]

/-- Row `k`'s elements are those the buffer's own view reaches through the row's rectangle. -/
theorem rowSet_eq (k : Fin 4) : rowSet k = sM.view.setOn (rk k).set := (aV_set k).symm.trans (View.set_slice _ _)

end Cert.KernelIdealProof
end
-- ==== Proof.Body.lean ====
import proofs.«900385_g7700000000000386_dist_rmsnorm_colshard_i_m512_n256_v7x_i4_f32_1_alg».proof.Defs
import proofs.«900385_g7700000000000386_dist_rmsnorm_colshard_i_m512_n256_v7x_i4_f32_1_alg».proof.Proof.Gen.KernelIdeal
import proofs.«900385_g7700000000000386_dist_rmsnorm_colshard_i_m512_n256_v7x_i4_f32_1_alg».proof.Proof.Gen.KernelIdeal.Skeleton
import proofs.«900385_g7700000000000386_dist_rmsnorm_colshard_i_m512_n256_v7x_i4_f32_1_alg».proof.Proof.Gen.KernelIdeal.Launch
import proofs.«900385_g7700000000000386_dist_rmsnorm_colshard_i_m512_n256_v7x_i4_f32_1_alg».proof.Proof.Gen.KernelIdeal.Points
import proofs.«900385_g7700000000000386_dist_rmsnorm_colshard_i_m512_n256_v7x_i4_f32_1_alg».proof.Proof.Gen.KernelIdeal.Frame
import Idealize.ShloMosaic.Lib.Pipeline.Launch
import Idealize.ShloMosaic.Lib.Pipeline.Kit
import Idealize.ShloMosaic.Lib.Pipeline.Value
import Idealize.ShloMosaic.Lib.Tactic
import proofs.«900385_g7700000000000386_dist_rmsnorm_colshard_i_m512_n256_v7x_i4_f32_1_alg».proof.Proof.Protocol

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The pipeline's proof data -/

theorem cfg0_N : cfg0.N = 1 := by decide
abbrev t₀ : Fin cfg0.N := t0_0
theorem fin_N (t : Fin cfg0.N) : t = t₀ := fin_N0 t

/-- The kernel's result on device `c`: its block of `x` times its block of `gamma`, every row scaled by the reciprocal
    root of the mean of the FOUR devices' partial sums for that row plus epsilon (the generated payloads). -/
def outAt (c : Dev nD) : (cc0_stg2_0 : Ref sig .tc).ty.Contents (Elt F) :=
  k0_pay4 (k0_pay3 (k0_pay1 (xstg m c)) (gstg m c)) (psum m (bwd 0 c)) (psum m (bwd 1 c)) (psum m (bwd 2 c)) (psum m c)

/-- The cells' invariants device `c`'s body opens, under the names `K` the launch allocated them at: its own seven,
    each peer's barrier cell (its signals), each peer's receive cell for the row it copies into. -/
def invs (K : Dev nD × Fin 7 → ℕ) (c : Dev nD) : sProp 𝕄 :=
  iprop(cellInv ER (sched m) (K (c, 0)) (barCell c)
    ∗ cellInv ER (sched m) (K (c, 1)) (sendCell 0 c) ∗ cellInv ER (sched m) (K (c, 2)) (sendCell 1 c) ∗ cellInv ER (sched m) (K (c, 3)) (sendCell 2 c)
    ∗ cellInv ER (sched m) (K (c, 4)) (recvCell 0 c) ∗ cellInv ER (sched m) (K (c, 5)) (recvCell 1 c) ∗ cellInv ER (sched m) (K (c, 6)) (recvCell 2 c)
    ∗ cellInv ER (sched m) (K (fwd 0 c, 0)) (barCell (fwd 0 c)) ∗ cellInv ER (sched m) (K (fwd 1 c, 0)) (barCell (fwd 1 c)) ∗ cellInv ER (sched m) (K (fwd 2 c, 0)) (barCell (fwd 2 c))
    ∗ cellInv ER (sched m) (K (fwd 0 c, 4)) (recvCell 0 (fwd 0 c)) ∗ cellInv ER (sched m) (K (fwd 1 c, 5)) (recvCell 1 (fwd 1 c)) ∗ cellInv ER (sched m) (K (fwd 2 c, 6)) (recvCell 2 (fwd 2 c)))

instance invs_persistent (K : Dev nD × Fin 7 → ℕ) (c : Dev nD) : BI.Persistent (invs m K c) := by unfold invs; infer_instance

/-- Where device `c` stands on its own seven cells: round 0, nothing taken. -/
def posns (c : Dev nD) : sProp 𝕄 :=
  iprop(atPos ER (barCell c) 0 ∅ 0
    ∗ atPos ER (sendCell 0 c) 0 ∅ 0 ∗ atPos ER (sendCell 1 c) 0 ∅ 0 ∗ atPos ER (sendCell 2 c) 0 ∅ 0
    ∗ atPos ER (recvCell 0 c) 0 ∅ 0 ∗ atPos ER (recvCell 1 c) 0 ∅ 0 ∗ atPos ER (recvCell 2 c) 0 ∅ 0)

/-- Round 0 is open on every cell device `c` touches. -/
def marks (c : Dev nD) : sProp 𝕄 :=
  iprop(reached ER (barCell (fwd 0 c)) 0 ∗ reached ER (barCell (fwd 1 c)) 0 ∗ reached ER (barCell (fwd 2 c)) 0
    ∗ reached ER (recvCell 0 (fwd 0 c)) 0 ∗ reached ER (recvCell 1 (fwd 1 c)) 0 ∗ reached ER (recvCell 2 (fwd 2 c)) 0
    ∗ reached ER (sendCell 0 c) 0 ∗ reached ER (sendCell 1 c) 0 ∗ reached ER (sendCell 2 c) 0
    ∗ reached ER (recvCell 0 c) 0 ∗ reached ER (recvCell 1 c) 0 ∗ reached ER (recvCell 2 c) 0)

instance marks_persistent (c : Dev nD) : BI.Persistent (marks (F := F) c) := by unfold marks; infer_instance

/-- The tokens of the nine duties device `c` pays: duty `j` of the barrier cell of the device `j + 1` ahead, the
    receive duty of the row it copies into there, and its own three send duties. -/
def payToks (c : Dev nD) : sProp 𝕄 :=
  iprop(dutyTok ER (barCell (fwd 0 c)) 0 0 ∗ dutyTok ER (barCell (fwd 1 c)) 0 1 ∗ dutyTok ER (barCell (fwd 2 c)) 0 2
    ∗ dutyTok ER (recvCell 0 (fwd 0 c)) 0 0 ∗ dutyTok ER (recvCell 1 (fwd 1 c)) 0 0 ∗ dutyTok ER (recvCell 2 (fwd 2 c)) 0 0
    ∗ dutyTok ER (sendCell 0 c) 0 0 ∗ dutyTok ER (sendCell 1 c) 0 0 ∗ dutyTok ER (sendCell 2 c) 0 0)

def ghost (K : Dev nD × Fin 7 → ℕ) (c : Dev nD) : sProp 𝕄 :=
  iprop(invs m K c ∗ posns c ∗ marks c ∗ payToks c)

/-- The credit with which device `c` waits: three units on its barrier cell, a row's credit on each receive cell. -/
def creds (c : Dev nD) : sProp 𝕄 :=
  iprop(cred (tallyAt (barCell c) () 3) ∗ cred (tallyAt (recvCell 0 c) () N) ∗ cred (tallyAt (recvCell 1 c) () N) ∗ cred (tallyAt (recvCell 2 c) () N))

def start (c : Dev nD) : sProp 𝕄 := iprop((∃ K, ghost m K c) ∗ creds c ∗ levAts L lv)

/-- The exchange buffer whole, at some contents. -/
def scrAny (c : Dev nD) : sProp 𝕄 := iprop(∃ f : Buf (Elt F) ((c : Thread nD τ).loc cc0_scratch0), ((c : Thread nD τ).loc cc0_scratch0) ↦{fullShare} f)

def Φ₀ (c : Dev nD) : sProp 𝕄 := iprop(start m c ∗ scrAny c)
/-- After the point: the exchange buffer whole again, the six own cells at zero, closed. -/
def Φ₁ (c : Dev nD) : sProp 𝕄 :=
  iprop(scrAny c ∗ semVal (sendCell 0 c) 0 ∗ semVal (sendCell 1 c) 0 ∗ semVal (sendCell 2 c) 0
    ∗ semVal (recvCell 0 c) 0 ∗ semVal (recvCell 1 c) 0 ∗ semVal (recvCell 2 c) 0)

def dats (_ : Fin 1) (c : Dev nD) : Dat τ (Elt F) Unit ℕ UU ℕ cfg0 c where
  A w := m ((cfg0.win w).arr.view.loc (c : Thread nD τ))
  after w _ := match w with
    | ⟨0, _⟩ => xstg m c
    | ⟨1, _⟩ => gstg m c
    | ⟨2, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

abbrev 𝒱₀ : Variants := Variants.none

omit [FloatOps F] in
theorem bigSep_W (Φ : Fin cfg0.W → sProp 𝕄) : bigSep Finset.univ Φ = iprop(Φ (0 : Fin 3) ∗ Φ (1 : Fin 3) ∗ Φ (2 : Fin 3)) := bigSep_W0 Φ

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem before_x (c : Dev nD) (d) : (dats m 0 c).before (0 : Fin 3) t₀ d = xstg m c := by
  unfold Dat.before; rw [if_pos (fetch0_0 t₀)]; rfl
theorem before_g (c : Dev nD) (d) : (dats m 0 c).before (1 : Fin 3) t₀ d = gstg m c := by
  unfold Dat.before; rw [if_pos (fetch0_1 t₀)]; rfl

/-! ## The body -/

section Body

variable (K : Dev nD × Fin 7 → ℕ)

def bodyPre (c : Dev nD) : sProp 𝕄 :=
  iprop((ghost m K c ∗ creds c ∗ levAts L lv ∗ scrAny c)
    ∗ (dats m 0 c).owesAt () t₀.castSucc
    ∗ (∃ d, stg c cc0_stg0_0 ((dats m 0 c).before (0 : Fin 3) t₀ d))
    ∗ (∃ d, stg c cc0_stg1_0 ((dats m 0 c).before (1 : Fin 3) t₀ d))
    ∗ (∃ d, stg c cc0_stg2_0 ((dats m 0 c).before (2 : Fin 3) t₀ d)))

def bodyPost (c : Dev nD) : sProp 𝕄 :=
  iprop(Φ₁ c ∗ (dats m 0 c).owesAt () t₀.succ ∗ stg c cc0_stg0_0 (xstg m c) ∗ stg c cc0_stg1_0 (gstg m c) ∗ stg c cc0_stg2_0 (outAt m c))

omit [FloatOps F] in
theorem bigSep_fin4 (Φ : Fin 4 → sProp 𝕄) : bigSep Finset.univ Φ = iprop(Φ 0 ∗ Φ 1 ∗ Φ 2 ∗ Φ 3) := bigSep_univ_eq_bigSepL [0, 1, 2, 3] (by decide) (by decide) Φ

omit [FloatOps F] in
/-- The exchange buffer whole is its four rows. -/
theorem scr_rows (c : Dev nD) (q : PosShare TreeShare) (f : Buf (Elt F) ((c : Thread nD τ).loc cc0_scratch0)) :
    ((((c : Thread nD τ).loc cc0_scratch0) ↦{q} f : sProp 𝕄)) = iprop(rowPts c 0 q f ∗ rowPts c 1 q f ∗ rowPts c 2 q f ∗ rowPts c 3 q f) := by
  unfold rowPts
  have h := pointsTo_biUnion (Ix := Unit) (Name := ℕ) (U := UU) (Lvl := ℕ) (ℓ := ((c : Thread nD τ).loc cc0_scratch0)) (q := q) (f := f) Finset.univ rowSet
    (fun _ _ _ _ h => rowSet_disjoint h)
  rw [rowSet_cover] at h
  rw [h, bigSep_fin4]

/-- What the barrier wait brings: row `j` of the device `j + 1` ahead, and that its receive cell `j` is open, for each `j`. -/
theorem rest_bar' (c : Dev nD) : bigSep ((sched (F := F) m).duties (barCell c) 0 \ ∅) (fun d => (sched (F := F) m).payload (barCell c) 0 d)
    = iprop(((∃ f, rowPts (fwd 2 c) 2 fullShare f) ∗ reached ER (recvCell 2 (fwd 2 c)) 0)
        ∗ ((∃ f, rowPts (fwd 1 c) 1 fullShare f) ∗ reached ER (recvCell 1 (fwd 1 c)) 0)
        ∗ ((∃ f, rowPts (fwd 0 c) 0 fullShare f) ∗ reached ER (recvCell 0 (fwd 0 c)) 0)) := by
  rw [rest_bar]; unfold barPay
  rw [← bwd_rev 2 c, ← bwd_rev 1 c, ← bwd_rev 0 c]; rfl

omit [FloatOps F] in
theorem hz2 : (![0, 0] : Fin 2 → Nat) = fun _ => 0 := funext fun a => by fin_cases a <;> rfl
omit [FloatOps F] in
theorem hz1 : (![0] : Fin 1 → Nat) = fun _ => 0 := funext fun a => by fin_cases a; rfl

abbrev rX : Rect S512x256 := Rect.unit (s := S512x256) ![0, 0] S512x256.size inb_S512x256_S512x256_0_0
abbrev rG : Rect S256 := Rect.unit (s := S256) ![0] S256.size inb_S256_S256_0

omit [FloatOps F] in
theorem read_x (f : (cc0_stg0_0 : Ref sig .tc).ty.Contents (Elt F)) : xM.view.readAt (Elt F) rX.toLoadRect f = f :=
  Memref.readAt_unit_zero (Elt F) cc0_stg0_0 hz2 _ f
omit [FloatOps F] in
theorem read_g (f : (cc0_stg1_0 : Ref sig .tc).ty.Contents (Elt F)) : gM.view.readAt (Elt F) rG.toLoadRect f = f :=
  Memref.readAt_unit_zero (Elt F) cc0_stg1_0 hz1 _ f
omit [FloatOps F] in
theorem write_out (f w : (cc0_stg2_0 : Ref sig .tc).ty.Contents (Elt F)) :
    ((oM : Memref sig .tc .vmem S512x256 .f32).access rX : View sig .tc _ _ _).write (Elt F) f w Finset.univ = w :=
  Memref.write_access_unit_zero_univ (Elt F) cc0_stg2_0 hz2 _ f w

/-- What the barrier wait brings, row by row (ownership spelt out). -/
theorem rest_bar'' (c : Dev nD) : bigSep ((sched (F := F) m).duties (barCell c) 0 \ ∅) (fun d => (sched (F := F) m).payload (barCell c) 0 d)
    = iprop(((∃ f, ((fwd 2 c : Thread nD τ).loc cc0_scratch0) ↦[rowSet 2]{fullShare} f) ∗ reached ER (recvCell 2 (fwd 2 c)) 0)
        ∗ ((∃ f, ((fwd 1 c : Thread nD τ).loc cc0_scratch0) ↦[rowSet 1]{fullShare} f) ∗ reached ER (recvCell 1 (fwd 1 c)) 0)
        ∗ ((∃ f, ((fwd 0 c : Thread nD τ).loc cc0_scratch0) ↦[rowSet 0]{fullShare} f) ∗ reached ER (recvCell 0 (fwd 0 c)) 0)) := by
  rw [rest_bar']; rfl

theorem rest_recv0' (c : Dev nD) : bigSep ((sched (F := F) m).duties (recvCell 0 c) 0 \ ∅) (fun d => (sched (F := F) m).payload (recvCell 0 c) 0 d)
    = (((c : Thread nD τ).loc cc0_scratch0) ↦[rowSet 0]{fullShare} comm m c : sProp 𝕄) := by
  rw [rest_recv]; rfl
theorem rest_send0' (c : Dev nD) : bigSep ((sched (F := F) m).duties (sendCell 0 c) 0 \ ∅) (fun d => (sched (F := F) m).payload (sendCell 0 c) 0 d)
    = (((c : Thread nD τ).loc cc0_scratch0) ↦[rowSet 3]{fullShare.left.left} comm m c : sProp 𝕄) := by
  rw [rest_send]; rfl

theorem rest_recv1' (c : Dev nD) : bigSep ((sched (F := F) m).duties (recvCell 1 c) 0 \ ∅) (fun d => (sched (F := F) m).payload (recvCell 1 c) 0 d)
    = (((c : Thread nD τ).loc cc0_scratch0) ↦[rowSet 1]{fullShare} comm m c : sProp 𝕄) := by
  rw [rest_recv]; rfl
theorem rest_send1' (c : Dev nD) : bigSep ((sched (F := F) m).duties (sendCell 1 c) 0 \ ∅) (fun d => (sched (F := F) m).payload (sendCell 1 c) 0 d)
    = (((c : Thread nD τ).loc cc0_scratch0) ↦[rowSet 3]{fullShare.left.right} comm m c : sProp 𝕄) := by
  rw [rest_send]; rfl

theorem rest_recv2' (c : Dev nD) : bigSep ((sched (F := F) m).duties (recvCell 2 c) 0 \ ∅) (fun d => (sched (F := F) m).payload (recvCell 2 c) 0 d)
    = (((c : Thread nD τ).loc cc0_scratch0) ↦[rowSet 2]{fullShare} comm m c : sProp 𝕄) := by
  rw [rest_recv]; rfl
theorem rest_send2' (c : Dev nD) : bigSep ((sched (F := F) m).duties (sendCell 2 c) 0 \ ∅) (fun d => (sched (F := F) m).payload (sendCell 2 c) 0 d)
    = (((c : Thread nD τ).loc cc0_scratch0) ↦[rowSet 3]{fullShare.right.left} comm m c : sProp 𝕄) := by
  rw [rest_send]; rfl

set_option maxHeartbeats 1600000 in
/-- The copy 1 place(s) ahead: `Rounds.wp_send_pointsTo` at send cell 0 and the receiver's receive cell 0, reading row 3 at its
    share for this copy and landing in the receiver's row 0 (addressed to `n = fwd 0 c`, substituted). -/
theorem wp_send0_core (c n : Dev nD) (hn : n = fwd 0 c)
    {hsc : (rowM 0 : Memref sig (Dev.tc n : Thread nD τ).2.kind .vmem S512 .f32).view.ref.isScScratch = false}
    {hsrc : (rowM 3).view.WordExact} {hdst : (rowM 0).view.WordExact}
    {hsem : DmaTarget.Typed .vmem (.dma (recvS 0)) (.remote (Dev.tc n : Thread nD τ) (rowM 0) (.dma (sendS 0)) hsc)}
    {α : Type} {Q : α → sProp 𝕄} {k : PUnit → Prog (TpuEff nD τ sig (Elt F) Λ₀ .tc) α}
    (fn : Buf (Elt F) ((fwd 0 c : Thread nD τ).loc cc0_scratch0)) (O : CellTallies nD τ sig Unit) (W : Waits sig Unit) :
    iprop(cellInv ER (sched m) (K (c, 1)) (sendCell 0 c) ∗ cellInv ER (sched m) (K (fwd 0 c, 4)) (recvCell 0 (fwd 0 c))
        ∗ ((rowM 3).view.loc (c : Thread nD τ) ↦[(rowM 3).view.set]{qs 0} comm m c)
        ∗ ((rowM 0).view.loc (fwd 0 c : Thread nD τ) ↦[(rowM 0).view.set]{fullShare} fn)
        ∗ owes (c : Thread nD τ) (O + tallyAt (recvCell 0 (fwd 0 c)) () N) W
        ∗ dutyTok ER (sendCell 0 c) 0 0 ∗ reached ER (sendCell 0 c) 0
        ∗ dutyTok ER (recvCell 0 (fwd 0 c)) 0 0 ∗ reached ER (recvCell 0 (fwd 0 c)) 0)
      ⊢ iprop(((cred (tallyAt (sendCell 0 c) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (rowM 3) (.remote (Dev.tc n : Thread nD τ) (rowM 0) (.dma (sendS 0)) hsc) (.dma (recvS 0)) hsrc hdst hsem) k) Q) := by
  subst hn
  exact Rounds.wp_send_pointsTo 𝒱₀ ER (sched m) (c : Thread nD τ) none (c' := (fwd 0 c : Thread nD τ)) (src := rowM 3) (dst := rowM 0)
    (q := qs 0) (fs := comm m c) (κ₁ := K (c, 1)) (κ₂ := K (fwd 0 c, 4))
    (r₁ := 0) (r₂ := 0) (d₁ := 0) (d₂ := 0) (fd := fn)
    (by rw [duties_send]; exact Finset.mem_singleton_self _) (by rw [duties_recv]; exact Finset.mem_singleton_self _)
    () () N rfl (amount_send m c 0 0) (amount_recv m (fwd 0 c) 0 0) O rfl (W := W)
    (by rw [payload_send]; unfold sendPay rowPts; rw [← rowM_set3])
    (by
      rw [payload_recv]; unfold recvPay rowPts
      refine Entails.of_eq ?_
      rw [rowM_set0]
      exact pointsTo_congr (land_eq0 m c fn))

set_option maxHeartbeats 1600000 in
/-- The same over the rows as the body's proof holds them. -/
theorem wp_send0 (c n : Dev nD) (hn : n = fwd 0 c)
    {hsc : (rowM 0 : Memref sig (Dev.tc n : Thread nD τ).2.kind .vmem S512 .f32).view.ref.isScScratch = false}
    {hsrc : (rowM 3).view.WordExact} {hdst : (rowM 0).view.WordExact}
    {hsem : DmaTarget.Typed .vmem (.dma (recvS 0)) (.remote (Dev.tc n : Thread nD τ) (rowM 0) (.dma (sendS 0)) hsc)}
    {α : Type} {Q : α → sProp 𝕄} {k : PUnit → Prog (TpuEff nD τ sig (Elt F) Λ₀ .tc) α}
    (fn : Buf (Elt F) ((fwd 0 c : Thread nD τ).loc cc0_scratch0)) (O : CellTallies nD τ sig Unit) (W : Waits sig Unit) :
    iprop(cellInv ER (sched m) (K (c, 1)) (sendCell 0 c) ∗ cellInv ER (sched m) (K (fwd 0 c, 4)) (recvCell 0 (fwd 0 c))
        ∗ (((c : Thread nD τ).loc cc0_scratch0) ↦[rowSet 3]{fullShare.left.left} comm m c)
        ∗ (((fwd 0 c : Thread nD τ).loc cc0_scratch0) ↦[rowSet 0]{fullShare} fn)
        ∗ owes (c : Thread nD τ) (O + tR 0 c) W
        ∗ dutyTok ER (sendCell 0 c) 0 0 ∗ reached ER (sendCell 0 c) 0
        ∗ dutyTok ER (recvCell 0 (fwd 0 c)) 0 0 ∗ reached ER (recvCell 0 (fwd 0 c)) 0)
      ⊢ iprop(((cred (tallyAt (sendCell 0 c) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (rowM 3) (.remote (Dev.tc n : Thread nD τ) (rowM 0) (.dma (sendS 0)) hsc) (.dma (recvS 0)) hsrc hdst hsem) k) Q) := by
  have e1 : ((((c : Thread nD τ).loc cc0_scratch0) ↦[rowSet 3]{fullShare.left.left} comm m c) : sProp 𝕄) = ((rowM 3).view.loc (c : Thread nD τ) ↦[(rowM 3).view.set]{qs 0} comm m c) := by
    rw [rowM_set3]
  have e2 : ((((fwd 0 c : Thread nD τ).loc cc0_scratch0) ↦[rowSet 0]{fullShare} fn) : sProp 𝕄) = ((rowM 0).view.loc (fwd 0 c : Thread nD τ) ↦[(rowM 0).view.set]{fullShare} fn) := by
    rw [rowM_set0]
  rw [e1, e2]; unfold tR
  exact wp_send0_core m K c n hn fn O W

set_option maxHeartbeats 1600000 in
/-- The copy 2 place(s) ahead: `Rounds.wp_send_pointsTo` at send cell 1 and the receiver's receive cell 1, reading row 3 at its
    share for this copy and landing in the receiver's row 1 (addressed to `n = fwd 1 c`, substituted). -/
theorem wp_send1_core (c n : Dev nD) (hn : n = fwd 1 c)
    {hsc : (rowM 1 : Memref sig (Dev.tc n : Thread nD τ).2.kind .vmem S512 .f32).view.ref.isScScratch = false}
    {hsrc : (rowM 3).view.WordExact} {hdst : (rowM 1).view.WordExact}
    {hsem : DmaTarget.Typed .vmem (.dma (recvS 1)) (.remote (Dev.tc n : Thread nD τ) (rowM 1) (.dma (sendS 1)) hsc)}
    {α : Type} {Q : α → sProp 𝕄} {k : PUnit → Prog (TpuEff nD τ sig (Elt F) Λ₀ .tc) α}
    (fn : Buf (Elt F) ((fwd 1 c : Thread nD τ).loc cc0_scratch0)) (O : CellTallies nD τ sig Unit) (W : Waits sig Unit) :
    iprop(cellInv ER (sched m) (K (c, 2)) (sendCell 1 c) ∗ cellInv ER (sched m) (K (fwd 1 c, 5)) (recvCell 1 (fwd 1 c))
        ∗ ((rowM 3).view.loc (c : Thread nD τ) ↦[(rowM 3).view.set]{qs 1} comm m c)
        ∗ ((rowM 1).view.loc (fwd 1 c : Thread nD τ) ↦[(rowM 1).view.set]{fullShare} fn)
        ∗ owes (c : Thread nD τ) (O + tallyAt (recvCell 1 (fwd 1 c)) () N) W
        ∗ dutyTok ER (sendCell 1 c) 0 0 ∗ reached ER (sendCell 1 c) 0
        ∗ dutyTok ER (recvCell 1 (fwd 1 c)) 0 0 ∗ reached ER (recvCell 1 (fwd 1 c)) 0)
      ⊢ iprop(((cred (tallyAt (sendCell 1 c) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (rowM 3) (.remote (Dev.tc n : Thread nD τ) (rowM 1) (.dma (sendS 1)) hsc) (.dma (recvS 1)) hsrc hdst hsem) k) Q) := by
  subst hn
  exact Rounds.wp_send_pointsTo 𝒱₀ ER (sched m) (c : Thread nD τ) none (c' := (fwd 1 c : Thread nD τ)) (src := rowM 3) (dst := rowM 1)
    (q := qs 1) (fs := comm m c) (κ₁ := K (c, 2)) (κ₂ := K (fwd 1 c, 5))
    (r₁ := 0) (r₂ := 0) (d₁ := 0) (d₂ := 0) (fd := fn)
    (by rw [duties_send]; exact Finset.mem_singleton_self _) (by rw [duties_recv]; exact Finset.mem_singleton_self _)
    () () N rfl (amount_send m c 1 0) (amount_recv m (fwd 1 c) 1 0) O rfl (W := W)
    (by rw [payload_send]; unfold sendPay rowPts; rw [← rowM_set3])
    (by
      rw [payload_recv]; unfold recvPay rowPts
      refine Entails.of_eq ?_
      rw [rowM_set1]
      exact pointsTo_congr (land_eq1 m c fn))

set_option maxHeartbeats 1600000 in
/-- The same over the rows as the body's proof holds them. -/
theorem wp_send1 (c n : Dev nD) (hn : n = fwd 1 c)
    {hsc : (rowM 1 : Memref sig (Dev.tc n : Thread nD τ).2.kind .vmem S512 .f32).view.ref.isScScratch = false}
    {hsrc : (rowM 3).view.WordExact} {hdst : (rowM 1).view.WordExact}
    {hsem : DmaTarget.Typed .vmem (.dma (recvS 1)) (.remote (Dev.tc n : Thread nD τ) (rowM 1) (.dma (sendS 1)) hsc)}
    {α : Type} {Q : α → sProp 𝕄} {k : PUnit → Prog (TpuEff nD τ sig (Elt F) Λ₀ .tc) α}
    (fn : Buf (Elt F) ((fwd 1 c : Thread nD τ).loc cc0_scratch0)) (O : CellTallies nD τ sig Unit) (W : Waits sig Unit) :
    iprop(cellInv ER (sched m) (K (c, 2)) (sendCell 1 c) ∗ cellInv ER (sched m) (K (fwd 1 c, 5)) (recvCell 1 (fwd 1 c))
        ∗ (((c : Thread nD τ).loc cc0_scratch0) ↦[rowSet 3]{fullShare.left.right} comm m c)
        ∗ (((fwd 1 c : Thread nD τ).loc cc0_scratch0) ↦[rowSet 1]{fullShare} fn)
        ∗ owes (c : Thread nD τ) (O + tR 1 c) W
        ∗ dutyTok ER (sendCell 1 c) 0 0 ∗ reached ER (sendCell 1 c) 0
        ∗ dutyTok ER (recvCell 1 (fwd 1 c)) 0 0 ∗ reached ER (recvCell 1 (fwd 1 c)) 0)
      ⊢ iprop(((cred (tallyAt (sendCell 1 c) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (rowM 3) (.remote (Dev.tc n : Thread nD τ) (rowM 1) (.dma (sendS 1)) hsc) (.dma (recvS 1)) hsrc hdst hsem) k) Q) := by
  have e1 : ((((c : Thread nD τ).loc cc0_scratch0) ↦[rowSet 3]{fullShare.left.right} comm m c) : sProp 𝕄) = ((rowM 3).view.loc (c : Thread nD τ) ↦[(rowM 3).view.set]{qs 1} comm m c) := by
    rw [rowM_set3]
  have e2 : ((((fwd 1 c : Thread nD τ).loc cc0_scratch0) ↦[rowSet 1]{fullShare} fn) : sProp 𝕄) = ((rowM 1).view.loc (fwd 1 c : Thread nD τ) ↦[(rowM 1).view.set]{fullShare} fn) := by
    rw [rowM_set1]
  rw [e1, e2]; unfold tR
  exact wp_send1_core m K c n hn fn O W

set_option maxHeartbeats 1600000 in
/-- The copy 3 place(s) ahead: `Rounds.wp_send_pointsTo` at send cell 2 and the receiver's receive cell 2, reading row 3 at its
    share for this copy and landing in the receiver's row 2 (addressed to `n = fwd 2 c`, substituted). -/
theorem wp_send2_core (c n : Dev nD) (hn : n = fwd 2 c)
    {hsc : (rowM 2 : Memref sig (Dev.tc n : Thread nD τ).2.kind .vmem S512 .f32).view.ref.isScScratch = false}
    {hsrc : (rowM 3).view.WordExact} {hdst : (rowM 2).view.WordExact}
    {hsem : DmaTarget.Typed .vmem (.dma (recvS 2)) (.remote (Dev.tc n : Thread nD τ) (rowM 2) (.dma (sendS 2)) hsc)}
    {α : Type} {Q : α → sProp 𝕄} {k : PUnit → Prog (TpuEff nD τ sig (Elt F) Λ₀ .tc) α}
    (fn : Buf (Elt F) ((fwd 2 c : Thread nD τ).loc cc0_scratch0)) (O : CellTallies nD τ sig Unit) (W : Waits sig Unit) :
    iprop(cellInv ER (sched m) (K (c, 3)) (sendCell 2 c) ∗ cellInv ER (sched m) (K (fwd 2 c, 6)) (recvCell 2 (fwd 2 c))
        ∗ ((rowM 3).view.loc (c : Thread nD τ) ↦[(rowM 3).view.set]{qs 2} comm m c)
        ∗ ((rowM 2).view.loc (fwd 2 c : Thread nD τ) ↦[(rowM 2).view.set]{fullShare} fn)
        ∗ owes (c : Thread nD τ) (O + tallyAt (recvCell 2 (fwd 2 c)) () N) W
        ∗ dutyTok ER (sendCell 2 c) 0 0 ∗ reached ER (sendCell 2 c) 0
        ∗ dutyTok ER (recvCell 2 (fwd 2 c)) 0 0 ∗ reached ER (recvCell 2 (fwd 2 c)) 0)
      ⊢ iprop(((cred (tallyAt (sendCell 2 c) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (rowM 3) (.remote (Dev.tc n : Thread nD τ) (rowM 2) (.dma (sendS 2)) hsc) (.dma (recvS 2)) hsrc hdst hsem) k) Q) := by
  subst hn
  exact Rounds.wp_send_pointsTo 𝒱₀ ER (sched m) (c : Thread nD τ) none (c' := (fwd 2 c : Thread nD τ)) (src := rowM 3) (dst := rowM 2)
    (q := qs 2) (fs := comm m c) (κ₁ := K (c, 3)) (κ₂ := K (fwd 2 c, 6))
    (r₁ := 0) (r₂ := 0) (d₁ := 0) (d₂ := 0) (fd := fn)
    (by rw [duties_send]; exact Finset.mem_singleton_self _) (by rw [duties_recv]; exact Finset.mem_singleton_self _)
    () () N rfl (amount_send m c 2 0) (amount_recv m (fwd 2 c) 2 0) O rfl (W := W)
    (by rw [payload_send]; unfold sendPay rowPts; rw [← rowM_set3])
    (by
      rw [payload_recv]; unfold recvPay rowPts
      refine Entails.of_eq ?_
      rw [rowM_set2]
      exact pointsTo_congr (land_eq2 m c fn))

set_option maxHeartbeats 1600000 in
/-- The same over the rows as the body's proof holds them. -/
theorem wp_send2 (c n : Dev nD) (hn : n = fwd 2 c)
    {hsc : (rowM 2 : Memref sig (Dev.tc n : Thread nD τ).2.kind .vmem S512 .f32).view.ref.isScScratch = false}
    {hsrc : (rowM 3).view.WordExact} {hdst : (rowM 2).view.WordExact}
    {hsem : DmaTarget.Typed .vmem (.dma (recvS 2)) (.remote (Dev.tc n : Thread nD τ) (rowM 2) (.dma (sendS 2)) hsc)}
    {α : Type} {Q : α → sProp 𝕄} {k : PUnit → Prog (TpuEff nD τ sig (Elt F) Λ₀ .tc) α}
    (fn : Buf (Elt F) ((fwd 2 c : Thread nD τ).loc cc0_scratch0)) (O : CellTallies nD τ sig Unit) (W : Waits sig Unit) :
    iprop(cellInv ER (sched m) (K (c, 3)) (sendCell 2 c) ∗ cellInv ER (sched m) (K (fwd 2 c, 6)) (recvCell 2 (fwd 2 c))
        ∗ (((c : Thread nD τ).loc cc0_scratch0) ↦[rowSet 3]{fullShare.right.left} comm m c)
        ∗ (((fwd 2 c : Thread nD τ).loc cc0_scratch0) ↦[rowSet 2]{fullShare} fn)
        ∗ owes (c : Thread nD τ) (O + tR 2 c) W
        ∗ dutyTok ER (sendCell 2 c) 0 0 ∗ reached ER (sendCell 2 c) 0
        ∗ dutyTok ER (recvCell 2 (fwd 2 c)) 0 0 ∗ reached ER (recvCell 2 (fwd 2 c)) 0)
      ⊢ iprop(((cred (tallyAt (sendCell 2 c) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (rowM 3) (.remote (Dev.tc n : Thread nD τ) (rowM 2) (.dma (sendS 2)) hsc) (.dma (recvS 2)) hsrc hdst hsem) k) Q) := by
  have e1 : ((((c : Thread nD τ).loc cc0_scratch0) ↦[rowSet 3]{fullShare.right.left} comm m c) : sProp 𝕄) = ((rowM 3).view.loc (c : Thread nD τ) ↦[(rowM 3).view.set]{qs 2} comm m c) := by
    rw [rowM_set3]
  have e2 : ((((fwd 2 c : Thread nD τ).loc cc0_scratch0) ↦[rowSet 2]{fullShare} fn) : sProp 𝕄) = ((rowM 2).view.loc (fwd 2 c : Thread nD τ) ↦[(rowM 2).view.set]{fullShare} fn) := by
    rw [rowM_set2]
  rw [e1, e2]; unfold tR
  exact wp_send2_core m K c n hn fn O W

set_option maxHeartbeats 4000000 in
/-- The body, run from `bodyPre` one rule per effect in program order, to `bodyPost`. -/
theorem sound_body (c : Dev nD) (Kt : PUnit → sProp 𝕄) :
    iprop(bodyPre m K c ∗ (bodyPost m c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _) (Memref.whole cc0_scratch0) (Memref.isWhole_whole _) cc0_scratch1 cc0_scratch2) Kt := by
  simp only [cc0_body_eq_skeleton]; unfold cc0_body_skel
  simp only [k0_part1_eq_skeleton, k0_part2_eq_skeleton, k0_part3_eq_skeleton, k0_part4_eq_skeleton, k0_part5_eq_skeleton]
  unfold k0_part1_skel k0_part2_skel k0_part3_skel k0_part4_skel k0_part5_skel
  simp only [semSignalWord, semWaitWord, Prog.lift, Prog.bind_op, Prog.bind_ret, Prog.pure_eq_ret, wp_deviceId]
  unfold bodyPre ghost invs posns marks payToks creds scrAny
  iintro ⟨⟨⟨⟨⟨#HIbar, #HIs0, #HIs1, #HIs2, #HIr0, #HIr1, #HIr2, #HIb0, #HIb1, #HIb2, #HIv0, #HIv1, #HIv2⟩,
      ⟨HatB, HatS0, HatS1, HatS2, HatV0, HatV1, HatV2⟩,
      ⟨#HrB0, #HrB1, #HrB2, #HrV0, #HrV1, #HrV2, #HrS0, #HrS1, #HrS2, #HrR0, #HrR1, #HrR2⟩,
      ⟨HtB0, HtB1, HtB2, HtV0, HtV1, HtV2, HtS0, HtS1, HtS2⟩⟩,
      ⟨HcB, HcV0, HcV1, HcV2⟩, #Hlev, ⟨%f0, Hscr⟩⟩,
    Ho, ⟨%d0, %g0, %hg0, Hx⟩, ⟨%d1, %g1, %hg1, Hg⟩, ⟨%d2, %g2, %hg2, Hout⟩⟩, Hk⟩
  rw [before_x] at hg0; subst hg0
  rw [before_g] at hg1; subst hg1
  unfold Dat.owesAt Pipeline.owesWithin
  icases Ho with ⟨%W, %hW, HO⟩
  rw [show (dats m 0 c).owed t₀.castSucc = O₀ c from rfl]
  simp only [dev1_eq c, dev2_eq c, dev3_eq c]
  ihave Hrows := (Entails.of_eq (scr_rows (F := F) c fullShare f0)) $$ Hscr
  icases Hrows with ⟨Hrow0, Hrow1, Hrow2, Hrow3⟩
  unfold rowPts
  unfold O₀
  -- the signal 1 place ahead: its duty 0, handing over this device's row 2 and that receive cell 2 is open
  iapply (Rounds.wp_signal 𝒱₀ ER (sched m) (c : Thread nD τ) none (dst := (fwd 0 c : Thread nD τ)) (κ := K (fwd 0 c, 0))
      (d := 0) (by rw [duties_bar]; exact Finset.mem_univ _) ((amount_bar m (fwd 0 c) 0).trans (by decide)) () (OR c + tB 2 c + tB 1 c) rfl)
    $$ [HO HtB0 Hrow2]
  · isplitr; · iexact HIb0
    isplitl [HO]; · iexact HO
    isplitl [HtB0]; · iexact HtB0
    isplitl [Hrow2]
    · rw [payload_bar]; unfold barPay rowPts; rw [bwd_fwd]
      isplitl [Hrow2]; · iexists f0; iexact Hrow2
      iexact HrR2
    · iexact HrB0
  iintro HO
  -- 2 places ahead: duty 1, row 1
  iapply (Rounds.wp_signal 𝒱₀ ER (sched m) (c : Thread nD τ) none (dst := (fwd 1 c : Thread nD τ)) (κ := K (fwd 1 c, 0))
      (d := 1) (by rw [duties_bar]; exact Finset.mem_univ _) ((amount_bar m (fwd 1 c) 1).trans (by decide)) () (OR c + tB 2 c) rfl)
    $$ [HO HtB1 Hrow1]
  · isplitr; · iexact HIb1
    isplitl [HO]; · iexact HO
    isplitl [HtB1]; · iexact HtB1
    isplitl [Hrow1]
    · rw [payload_bar]; unfold barPay rowPts; rw [bwd_fwd]
      isplitl [Hrow1]; · iexists f0; iexact Hrow1
      iexact HrR1
    · iexact HrB1
  iintro HO
  -- 3 places ahead: duty 2, row 0
  iapply (Rounds.wp_signal 𝒱₀ ER (sched m) (c : Thread nD τ) none (dst := (fwd 2 c : Thread nD τ)) (κ := K (fwd 2 c, 0))
      (d := 2) (by rw [duties_bar]; exact Finset.mem_univ _) ((amount_bar m (fwd 2 c) 2).trans (by decide)) () (OR c) rfl)
    $$ [HO HtB2 Hrow0]
  · isplitr; · iexact HIb2
    isplitl [HO]; · iexact HO
    isplitl [HtB2]; · iexact HtB2
    isplitl [Hrow0]
    · rw [payload_bar]; unfold barPay rowPts; rw [bwd_fwd]
      isplitl [Hrow0]; · iexists f0; iexact Hrow0
      iexact HrR0
    · iexact HrB2
  iintro HO
  -- the block of x; row 3 read (unused) and overwritten with this device's partial sums
  iapply (wp_load 𝒱₀ (c : Thread nD τ) none Set.univ (m := xM) (Finset.subset_univ _)) $$ Hx; iintro Hx
  rw [read_x]
  iapply (wp_load 𝒱₀ (c : Thread nD τ) none Set.univ (m := sM) (r := (rk 3).toLoadRect) (S := rowSet 3) (by rw [rowSet_eq])) $$ Hrow3; iintro Hrow3
  iapply (wp_store 𝒱₀ (c : Thread nD τ) none Set.univ (m := sM) (r := rk 3) (Mk := Finset.univ) (S := rowSet 3)
    (by rw [View.setOn_univ]; exact (aV_set 3).le)) $$ Hrow3; iintro Hrow3
  ihave Hrow3 := (Entails.of_eq (pointsTo_congr (fun i hi => (comm_at3 m c hi f0).symm))) $$ Hrow3
  -- the WAIT for 3 on the barrier cell, owing the three receive credits: each peer's row comes with it
  iapply (Rounds.wp_wait_rest_token 𝒱₀ ER (sched m) (c : Thread nD τ) none (κ := K (c, 0))
      (wpE_semWait_eq 𝒱₀ (c : Thread nD τ) none Set.univ) (Set.mem_univ _) () (O := OR c) (W := W) (R := 0) (m := 0) (T := ∅)
      (by rw [expect_bar]; decide)) $$ [HcB HO HatB]
  · isplitr; · iexact HIbar
    isplitl [HcB]; · iexact HcB
    isplitl [HO]; · iexact HO
    isplitr; · iapply (mayWait_bar c); iexact Hlev
    iexact HatB
  iintro ⟨HO, HatB, -, Hpay⟩
  ihave Hp := (Entails.of_eq (rest_bar'' m c)) $$ Hpay
  icases Hp with ⟨⟨⟨%fn2, Hn2⟩, -⟩, ⟨⟨%fn1, Hn1⟩, -⟩, ⟨⟨%fn0, Hn0⟩, -⟩⟩
  -- row 3 in four quarter shares: one per copy, one kept for this device's own read
  ihave Hh := (pointsTo_share (PosShare.mem_left_op_right fullShare)).1 $$ Hrow3
  icases Hh with ⟨HL, HR⟩
  ihave Hh := (pointsTo_share (PosShare.mem_left_op_right fullShare.left)).1 $$ HL
  icases Hh with ⟨Hq0, Hq1⟩
  ihave Hh := (pointsTo_share (PosShare.mem_left_op_right fullShare.right)).1 $$ HR
  icases Hh with ⟨Hq2, Hqk⟩
  unfold OR
  -- the copy 2 places ahead (row 1, cells 1)
  iapply (wp_send1 m K c _ (dev4_eq c) fn1 (tR 2 c + tR 0 c) (insert (SemLoc.reg barS, ()) W)) $$ [Hq1 Hn1 HO HtS1 HtV1]
  · isplitr; · iexact HIs1
    isplitr; · iexact HIv1
    isplitl [Hq1]; · iexact Hq1
    isplitl [Hn1]; · iexact Hn1
    isplitl [HO]; · iexact HO
    isplitl [HtS1]; · iexact HtS1
    isplitr; · iexact HrS1
    isplitl [HtV1]; · iexact HtV1
    iexact HrV1
  iintro ⟨HcS1, HO⟩
  -- 1 place ahead (row 0, cells 0)
  iapply (wp_send0 m K c _ (dev5_eq c) fn0 (tR 2 c) (insert (SemLoc.reg barS, ()) W)) $$ [Hq0 Hn0 HO HtS0 HtV0]
  · isplitr; · iexact HIs0
    isplitr; · iexact HIv0
    isplitl [Hq0]; · iexact Hq0
    isplitl [Hn0]; · iexact Hn0
    isplitl [HO]; · iexact HO
    isplitl [HtS0]; · iexact HtS0
    isplitr; · iexact HrS0
    isplitl [HtV0]; · iexact HtV0
    iexact HrV0
  iintro ⟨HcS0, HO⟩
  -- 3 places ahead (row 2, cells 2)
  iapply (wp_send2 m K c _ (dev6_eq c) fn2 0 (insert (SemLoc.reg barS, ()) W)) $$ [Hq2 Hn2 HO HtS2 HtV2]
  · isplitr; · iexact HIs2
    isplitr; · iexact HIv2
    isplitl [Hq2]; · iexact Hq2
    isplitl [Hn2]; · iexact Hn2
    isplitl [HO]; · rw [zero_add]; iexact HO
    isplitl [HtS2]; · iexact HtS2
    isplitr; · iexact HrS2
    isplitl [HtV2]; · iexact HtV2
    iexact HrV2
  iintro ⟨HcS2, HO⟩
  -- the block of gamma
  iapply (wp_load 𝒱₀ (c : Thread nD τ) none Set.univ (m := gM) (Finset.subset_univ _)) $$ Hg; iintro Hg
  rw [read_g]
  -- the three receive waits (rows 1, 0, 2): each row comes holding its sender's partial sums

  iapply (Rounds.wp_wait_rest_token 𝒱₀ ER (sched m) (c : Thread nD τ) none (κ := K (c, 5))
      (sm := SemLoc.dma (recvS 1)) (wpE_waitDma2_eq 𝒱₀ (c : Thread nD τ) none Set.univ) (Set.mem_univ _) () (O := 0) (W := insert (SemLoc.reg barS, ()) W) (R := 0) (m := 0) (T := ∅)
      (by rw [Nat.zero_add]; exact ((expect_recv m c 1).trans (by decide)).symm)) $$ [HcV1 HO HatV1]
  · isplitr; · iexact HIr1
    isplitl [HcV1]; · iexact HcV1
    isplitl [HO]; · iexact HO
    isplitr; · rw [MayWait_zero]; iempintro
    iexact HatV1
  iintro ⟨HO, HatV1, -, Hpay⟩
  ihave Hrow1 := (Entails.of_eq (rest_recv1' m c)) $$ Hpay

  iapply (Rounds.wp_wait_rest_token 𝒱₀ ER (sched m) (c : Thread nD τ) none (κ := K (c, 4))
      (sm := SemLoc.dma (recvS 0)) (wpE_waitDma2_eq 𝒱₀ (c : Thread nD τ) none Set.univ) (Set.mem_univ _) () (O := 0) (W := insert (SemLoc.dma (recvS 1), ()) (insert (SemLoc.reg barS, ()) W)) (R := 0) (m := 0) (T := ∅)
      (by rw [Nat.zero_add]; exact ((expect_recv m c 0).trans (by decide)).symm)) $$ [HcV0 HO HatV0]
  · isplitr; · iexact HIr0
    isplitl [HcV0]; · iexact HcV0
    isplitl [HO]; · iexact HO
    isplitr; · rw [MayWait_zero]; iempintro
    iexact HatV0
  iintro ⟨HO, HatV0, -, Hpay⟩
  ihave Hrow0 := (Entails.of_eq (rest_recv0' m c)) $$ Hpay

  iapply (Rounds.wp_wait_rest_token 𝒱₀ ER (sched m) (c : Thread nD τ) none (κ := K (c, 6))
      (sm := SemLoc.dma (recvS 2)) (wpE_waitDma2_eq 𝒱₀ (c : Thread nD τ) none Set.univ) (Set.mem_univ _) () (O := 0) (W := insert (SemLoc.dma (recvS 0), ()) (insert (SemLoc.dma (recvS 1), ()) (insert (SemLoc.reg barS, ()) W))) (R := 0) (m := 0) (T := ∅)
      (by rw [Nat.zero_add]; exact ((expect_recv m c 2).trans (by decide)).symm)) $$ [HcV2 HO HatV2]
  · isplitr; · iexact HIr2
    isplitl [HcV2]; · iexact HcV2
    isplitl [HO]; · iexact HO
    isplitr; · rw [MayWait_zero]; iempintro
    iexact HatV2
  iintro ⟨HO, HatV2, -, Hpay⟩
  ihave Hrow2 := (Entails.of_eq (rest_recv2' m c)) $$ Hpay
  -- the four rows read, the result computed and stored
  iapply (wp_load 𝒱₀ (c : Thread nD τ) none Set.univ (m := sM) (r := (rk 0).toLoadRect) (S := rowSet 0) (by rw [rowSet_eq])) $$ Hrow0; iintro Hrow0
  rw [show sM.view.readAt (Elt F) (rk 0).toLoadRect (comm m c) = psum m (bwd 0 c) from read_comm0 m c]
  iapply (wp_load 𝒱₀ (c : Thread nD τ) none Set.univ (m := sM) (r := (rk 1).toLoadRect) (S := rowSet 1) (by rw [rowSet_eq])) $$ Hrow1; iintro Hrow1
  rw [show sM.view.readAt (Elt F) (rk 1).toLoadRect (comm m c) = psum m (bwd 1 c) from read_comm1 m c]
  iapply (wp_load 𝒱₀ (c : Thread nD τ) none Set.univ (m := sM) (r := (rk 2).toLoadRect) (S := rowSet 2) (by rw [rowSet_eq])) $$ Hrow2; iintro Hrow2
  rw [show sM.view.readAt (Elt F) (rk 2).toLoadRect (comm m c) = psum m (bwd 2 c) from read_comm2 m c]
  iapply (wp_load 𝒱₀ (c : Thread nD τ) none Set.univ (m := sM) (r := (rk 3).toLoadRect) (S := rowSet 3) (by rw [rowSet_eq])) $$ Hqk; iintro Hqk
  rw [show sM.view.readAt (Elt F) (rk 3).toLoadRect (comm m c) = psum m c from read_comm3 m c]
  iapply (wp_load 𝒱₀ (c : Thread nD τ) none Set.univ (m := oM) (Finset.subset_univ _)) $$ Hout; iintro Hout
  iapply (wp_store 𝒱₀ (c : Thread nD τ) none Set.univ (m := oM) (r := rX) (Mk := Finset.univ) (Finset.subset_univ _)) $$ Hout; iintro Hout
  rw [write_out]
  -- the three send waits (cells 1, 0, 2): the shares of row 3 come back

  iapply (Rounds.wp_wait_rest_token 𝒱₀ ER (sched m) (c : Thread nD τ) none (κ := K (c, 2))
      (sm := SemLoc.dma (sendS 1)) (wpE_waitDma2_eq 𝒱₀ (c : Thread nD τ) none Set.univ) (Set.mem_univ _) () (O := 0) (W := insert (SemLoc.dma (recvS 2), ()) (insert (SemLoc.dma (recvS 0), ()) (insert (SemLoc.dma (recvS 1), ()) (insert (SemLoc.reg barS, ()) W)))) (R := 0) (m := 0) (T := ∅)
      (by rw [Nat.zero_add]; exact ((expect_send m c 1).trans (by decide)).symm)) $$ [HcS1 HO HatS1]
  · isplitr; · iexact HIs1
    isplitl [HcS1]; · iexact HcS1
    isplitl [HO]; · iexact HO
    isplitr; · rw [MayWait_zero]; iempintro
    iexact HatS1
  iintro ⟨HO, HatS1, -, Hpay⟩
  ihave Hq1 := (Entails.of_eq (rest_send1' m c)) $$ Hpay

  iapply (Rounds.wp_wait_rest_token 𝒱₀ ER (sched m) (c : Thread nD τ) none (κ := K (c, 1))
      (sm := SemLoc.dma (sendS 0)) (wpE_waitDma2_eq 𝒱₀ (c : Thread nD τ) none Set.univ) (Set.mem_univ _) () (O := 0) (W := insert (SemLoc.dma (sendS 1), ()) (insert (SemLoc.dma (recvS 2), ()) (insert (SemLoc.dma (recvS 0), ()) (insert (SemLoc.dma (recvS 1), ()) (insert (SemLoc.reg barS, ()) W))))) (R := 0) (m := 0) (T := ∅)
      (by rw [Nat.zero_add]; exact ((expect_send m c 0).trans (by decide)).symm)) $$ [HcS0 HO HatS0]
  · isplitr; · iexact HIs0
    isplitl [HcS0]; · iexact HcS0
    isplitl [HO]; · iexact HO
    isplitr; · rw [MayWait_zero]; iempintro
    iexact HatS0
  iintro ⟨HO, HatS0, -, Hpay⟩
  ihave Hq0 := (Entails.of_eq (rest_send0' m c)) $$ Hpay

  iapply (Rounds.wp_wait_rest_token 𝒱₀ ER (sched m) (c : Thread nD τ) none (κ := K (c, 3))
      (sm := SemLoc.dma (sendS 2)) (wpE_waitDma2_eq 𝒱₀ (c : Thread nD τ) none Set.univ) (Set.mem_univ _) () (O := 0) (W := insert (SemLoc.dma (sendS 0), ()) (insert (SemLoc.dma (sendS 1), ()) (insert (SemLoc.dma (recvS 2), ()) (insert (SemLoc.dma (recvS 0), ()) (insert (SemLoc.dma (recvS 1), ()) (insert (SemLoc.reg barS, ()) W)))))) (R := 0) (m := 0) (T := ∅)
      (by rw [Nat.zero_add]; exact ((expect_send m c 2).trans (by decide)).symm)) $$ [HcS2 HO HatS2]
  · isplitr; · iexact HIs2
    isplitl [HcS2]; · iexact HcS2
    isplitl [HO]; · iexact HO
    isplitr; · rw [MayWait_zero]; iempintro
    iexact HatS2
  iintro ⟨HO, HatS2, -, Hpay⟩
  ihave Hq2 := (Entails.of_eq (rest_send2' m c)) $$ Hpay
  -- the six own cells close: their counters at zero are the device's again
  imod (Rounds.cell_close ER (sched m) (Set.mem_univ (K (c, 1))) (fun h => h) (R := 0 + 1) (duties_later m (sendCell 0 c))) $$ [HatS0] with HzS0
  · isplitr; · iexact HIs0
    iexact HatS0
  imod (Rounds.cell_close ER (sched m) (Set.mem_univ (K (c, 2))) (fun h => h) (R := 0 + 1) (duties_later m (sendCell 1 c))) $$ [HatS1] with HzS1
  · isplitr; · iexact HIs1
    iexact HatS1
  imod (Rounds.cell_close ER (sched m) (Set.mem_univ (K (c, 3))) (fun h => h) (R := 0 + 1) (duties_later m (sendCell 2 c))) $$ [HatS2] with HzS2
  · isplitr; · iexact HIs2
    iexact HatS2
  imod (Rounds.cell_close ER (sched m) (Set.mem_univ (K (c, 4))) (fun h => h) (R := 0 + 1) (duties_later m (recvCell 0 c))) $$ [HatV0] with HzV0
  · isplitr; · iexact HIr0
    iexact HatV0
  imod (Rounds.cell_close ER (sched m) (Set.mem_univ (K (c, 5))) (fun h => h) (R := 0 + 1) (duties_later m (recvCell 1 c))) $$ [HatV1] with HzV1
  · isplitr; · iexact HIr1
    iexact HatV1
  imod (Rounds.cell_close ER (sched m) (Set.mem_univ (K (c, 6))) (fun h => h) (R := 0 + 1) (duties_later m (recvCell 2 c))) $$ [HatV2] with HzV2
  · isplitr; · iexact HIr2
    iexact HatV2
  -- row 3's four shares rejoined, the four rows the whole buffer again
  ihave HL := (pointsTo_share (PosShare.mem_left_op_right fullShare.left)).2 $$ [Hq0 Hq1]
  · isplitl [Hq0] <;> iassumption
  ihave HR := (pointsTo_share (PosShare.mem_left_op_right fullShare.right)).2 $$ [Hq2 Hqk]
  · isplitl [Hq2] <;> iassumption
  ihave Hrow3 := (pointsTo_share (PosShare.mem_left_op_right fullShare)).2 $$ [HL HR]
  · isplitl [HL] <;> iassumption
  ihave Hscr := (Entails.of_eq (scr_rows (F := F) c fullShare (comm m c)).symm) $$ [Hrow0 Hrow1 Hrow2 Hrow3]
  · unfold rowPts
    isplitl [Hrow0]; · iexact Hrow0
    isplitl [Hrow1]; · iexact Hrow1
    isplitl [Hrow2]; · iexact Hrow2
    iexact Hrow3
  rw [wp_ret]; imodintro
  iapply Hk
  unfold bodyPost Φ₁ scrAny Dat.owesAt Pipeline.owesWithin
  rw [show (dats m 0 c).owed t₀.succ = 0 from rfl]
  isplitl [Hscr HzS0 HzS1 HzS2 HzV0 HzV1 HzV2]
  · isplitl [Hscr]; · iexists (comm m c); iexact Hscr
    isplitl [HzS0]; · iexact HzS0
    isplitl [HzS1]; · iexact HzS1
    isplitl [HzS2]; · iexact HzS2
    isplitl [HzV0]; · iexact HzV0
    isplitl [HzV1]; · iexact HzV1
    iexact HzV2
  isplitl [HO]
  · iexists (insert (SemLoc.dma (sendS 2), ()) (insert (SemLoc.dma (sendS 0), ()) (insert (SemLoc.dma (sendS 1), ()) (insert (SemLoc.dma (recvS 2), ()) (insert (SemLoc.dma (recvS 0), ()) (insert (SemLoc.dma (recvS 1), ()) (insert (SemLoc.reg barS, ()) W)))))))
    isplitr; · ipureintro; exact fun _ _ => Or.inl trivial
    iexact HO
  isplitl [Hx]
  · iexists _; isplitr; · (ipureintro; rfl)
    iexact Hx
  isplitl [Hg]
  · iexists _; isplitr; · (ipureintro; rfl)
    iexact Hg
  iexists _; isplitr; · (ipureintro; rfl)
  iexact Hout

end Body

set_option maxRecDepth 4000 in
def bodyPre' (c : Dev nD) : sProp 𝕄 :=
  iprop(Φ₀ m c ∗ (dats m 0 c).owesAt () t₀.castSucc
    ∗ (∃ d, stg c cc0_stg0_0 ((dats m 0 c).before (0 : Fin 3) t₀ d))
    ∗ (∃ d, stg c cc0_stg1_0 ((dats m 0 c).before (1 : Fin 3) t₀ d))
    ∗ (∃ d, stg c cc0_stg2_0 ((dats m 0 c).before (2 : Fin 3) t₀ d)))

set_option maxRecDepth 4000 in
/-- The library's body obligation on device `c`. -/
theorem body_obligation (c : Dev nD) : BodyObligation (dats (F := F) m 0 c) (defs₀ (F := F)) 𝒱₀ () Set.univ := fun t => by
  rw [fin_N t]
  rw [bigSep_W, bigSep_W]
  simp only [owns_whole_eq]
  show bodyPre' m c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_stg2_0) (Memref.isWhole_whole _) (Memref.whole cc0_scratch0) (Memref.isWhole_whole _) cc0_scratch1 cc0_scratch2) (fun _ => bodyPost m c)
  unfold bodyPre' Φ₀ start
  iintro ⟨⟨⟨⟨%K, Hg⟩, Hrest⟩, Hscr⟩, Ho, Hx, Hgm, Hout⟩
  iapply (sound_body m K c fun _ => bodyPost m c)
  unfold bodyPre
  isplitr []
  · isplitl [Hg Hrest Hscr]
    · isplitl [Hg]; · iexact Hg
      icases Hrest with ⟨H1, H2⟩
      isplitl [H1]; · iexact H1
      isplitl [H2]; · iexact H2
      iexact Hscr
    isplitl [Ho]; · iexact Ho
    isplitl [Hx]; · iexact Hx
    isplitl [Hgm]; · iexact Hgm
    iexact Hout
  · iintro H; iexact H

end Cert.KernelIdealProof
end
-- ==== Proof.Launch.lean ====
import proofs.«900385_g7700000000000386_dist_rmsnorm_colshard_i_m512_n256_v7x_i4_f32_1_alg».proof.Defs
import proofs.«900385_g7700000000000386_dist_rmsnorm_colshard_i_m512_n256_v7x_i4_f32_1_alg».proof.Proof.Gen.KernelIdeal
import proofs.«900385_g7700000000000386_dist_rmsnorm_colshard_i_m512_n256_v7x_i4_f32_1_alg».proof.Proof.Gen.KernelIdeal.Skeleton
import proofs.«900385_g7700000000000386_dist_rmsnorm_colshard_i_m512_n256_v7x_i4_f32_1_alg».proof.Proof.Gen.KernelIdeal.Launch
import proofs.«900385_g7700000000000386_dist_rmsnorm_colshard_i_m512_n256_v7x_i4_f32_1_alg».proof.Proof.Gen.KernelIdeal.Points
import proofs.«900385_g7700000000000386_dist_rmsnorm_colshard_i_m512_n256_v7x_i4_f32_1_alg».proof.Proof.Gen.KernelIdeal.Frame
import Idealize.ShloMosaic.Lib.Pipeline.Launch
import Idealize.ShloMosaic.Lib.Pipeline.Kit
import Idealize.ShloMosaic.Lib.Pipeline.Value
import Idealize.ShloMosaic.Lib.Tactic
import proofs.«900385_g7700000000000386_dist_rmsnorm_colshard_i_m512_n256_v7x_i4_f32_1_alg».proof.Proof.Body

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The launch -/

theorem ownSemFacts : Pipeline.OwnSemFacts cfg0.spec osem := by decide

theorem share_eq (c : Dev nD) (w : Fin cfg0.W) : (dats m 0 c).share w = fullShare := by unfold Dat.share; split <;> rfl

theorem kcell_injective : Function.Injective (kcell : Dev nD × Fin 7 → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := by fin_cases k <;> fin_cases k' <;> first | rfl | exact absurd h2 (by decide)
  subst this; rfl
def allCells : Finset (GSem nD τ sig) := Finset.univ.map ⟨kcell, kcell_injective⟩

/-- A device's own cells' duty tokens as minted: its barrier's three, its send cells' and its receive cells' one each. -/
abbrev tokOf (cj : Dev nD × Fin 9) : GSem nD τ sig × ℕ × Fin 3 := match cj.2 with
  | 0 => (barCell cj.1, 0, 0) | 1 => (barCell cj.1, 0, 1) | 2 => (barCell cj.1, 0, 2)
  | 3 => (sendCell 0 cj.1, 0, 0) | 4 => (sendCell 1 cj.1, 0, 0) | 5 => (sendCell 2 cj.1, 0, 0)
  | 6 => (recvCell 0 cj.1, 0, 0) | 7 => (recvCell 1 cj.1, 0, 0) | 8 => (recvCell 2 cj.1, 0, 0)
theorem tokOf_injective : Function.Injective (tokOf : Dev nD × Fin 9 → GSem nD τ sig × ℕ × Fin 3) := by
  rintro ⟨c, j⟩ ⟨c', j'⟩ h
  have h1 : c = c' := by
    have := congrArg (fun x : GSem nD τ sig × ℕ × Fin 3 => x.1.1.1) h
    fin_cases j <;> fin_cases j' <;> exact this
  subst h1
  have : j = j' := by
    fin_cases j <;> fin_cases j' <;> first | rfl | exact absurd (congrArg (fun x : GSem nD τ sig × ℕ × Fin 3 => (x.1.2, x.2.2)) h) (by dsimp only [tokOf]; decide)
  subst this; rfl
def allToks : Finset (GSem nD τ sig × ℕ × Fin 3) := Finset.univ.map ⟨tokOf, tokOf_injective⟩

def u₀ : UU :=
  (initOf (Pipeline.cells cfgs cellOf_inj) (Pipeline.launchToks cfgs cellOf_inj), initOf allCells allToks)

/-- The duty tokens of device `c`'s own cells. -/
def toks (c : Dev nD) : sProp 𝕄 :=
  iprop(dutyTok ER (barCell c) 0 0 ∗ dutyTok ER (barCell c) 0 1 ∗ dutyTok ER (barCell c) 0 2
    ∗ dutyTok ER (sendCell 0 c) 0 0 ∗ dutyTok ER (sendCell 1 c) 0 0 ∗ dutyTok ER (sendCell 2 c) 0 0
    ∗ dutyTok ER (recvCell 0 c) 0 0 ∗ dutyTok ER (recvCell 1 c) 0 0 ∗ dutyTok ER (recvCell 2 c) 0 0)

/-- What the launch element deals device `c`. -/
def G (c : Dev nD) : sProp 𝕄 :=
  iprop((bigSep Finset.univ fun k : Fin 7 => roundState ER (sched m) (kcell (c, k)) 0)
    ∗ (bigSep Finset.univ fun k : Fin 7 => iprop(atPos ER (kcell (c, k)) 0 ∅ 0 ∗ reached ER (kcell (c, k)) 0)) ∗ toks c)

/-- What the global step makes of it. -/
def G' (c : Dev nD) : sProp 𝕄 := iprop(∃ K, ghost m K c)

omit [FloatOps F] in
theorem bigSep_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ
omit [FloatOps F] in
theorem bigSep_fin9 (Φ : Fin 9 → sProp 𝕄) : bigSep Finset.univ Φ = iprop(Φ 0 ∗ Φ 1 ∗ Φ 2 ∗ Φ 3 ∗ Φ 4 ∗ Φ 5 ∗ Φ 6 ∗ Φ 7 ∗ Φ 8) :=
  bigSep_univ_eq_bigSepL [0, 1, 2, 3, 4, 5, 6, 7, 8] (by decide) (by decide) Φ
omit [FloatOps F] in
theorem bigSep_fin6 (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ

theorem fund_all : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : Fin 7 => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => by unfold toks; rw [bigSep_fin9]; rfl
  iintro HX
  imod (Rounds.fund ER (sched m) allCells allToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
theorem ownSems0_eq (c : Dev nD) : (Pipeline.ownSems0 (Ix := Unit) (Name := ℕ) (U := UU) (Lvl := ℕ) (Val := Elt F) (τ := τ) osem c : sProp 𝕄)
    = iprop(semVal (sendCell 0 c) 0 ∗ semVal (sendCell 1 c) 0 ∗ semVal (sendCell 2 c) 0 ∗ semVal (recvCell 0 c) 0 ∗ semVal (recvCell 1 c) 0 ∗ semVal (recvCell 2 c) 0) := by
  rw [Pipeline.ownSems0_eq_of_list c osem [0, 1, 2, 3, 4, 5] (by decide) (by decide)]; rfl
omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 7 => semVal (kcell (c, k)) 0 : sProp 𝕄) := by
  rw [ownSems0_eq, unscopedSems0_eq, bigSep_fin7]
  iintro ⟨⟨H1, H2, H3, H4, H5, H6⟩, HB⟩
  isplitl [HB]; · iexact HB
  isplitl [H1]; · iexact H1
  isplitl [H2]; · iexact H2
  isplitl [H3]; · iexact H3
  isplitl [H4]; · iexact H4
  isplitl [H5]; · iexact H5
  iexact H6

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (sched m) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 7 => semVal (kcell (c, k)) 0) ∗ bigSep Finset.univ fun k : Fin 7 => roundState ER (sched m) (kcell (c, k)) 0)
      ⊢ (|={Set.univ}=> bigSep Finset.univ fun k => iprop(∃ κ : ℕ, cellInv ER (sched m) κ (kcell (c, k))) : sProp 𝕄) from by
        rw [← bigSep_sep']
        exact (bigSep_mono fun k _ => (Rounds.body_intro ER (sched m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

def records (K : Dev nD × Fin 7 → ℕ) : sProp 𝕄 :=
  iprop((bigSep Finset.univ fun ck : Dev nD × Fin 7 => cellInv ER (sched m) (K ck) (kcell ck))
    ∗ bigSep Finset.univ fun ck : Dev nD × Fin 7 => reached ER (kcell ck) 0)

instance records_persistent (K : Dev nD × Fin 7 → ℕ) : BI.Persistent (records m K) := by unfold records; infer_instance

theorem inv_at (K : Dev nD × Fin 7 → ℕ) (ck : Dev nD × Fin 7) :
    (bigSep Finset.univ fun ck : Dev nD × Fin 7 => (cellInv ER (sched m) (K ck) (kcell ck) : sProp 𝕄)) ⊢ cellInv ER (sched m) (K ck) (kcell ck) :=
  bigSep_elim (Finset.mem_univ ck)
omit [FloatOps F] in
theorem reached_at (ck : Dev nD × Fin 7) :
    (bigSep Finset.univ fun ck : Dev nD × Fin 7 => (reached ER (kcell ck) 0 : sProp 𝕄)) ⊢ reached ER (kcell ck) 0 :=
  bigSep_elim (Finset.mem_univ ck)

/-- What stays with device `c`: its positions, and the tokens of the duties IT pays. -/
def linear (c : Dev nD) : sProp 𝕄 := iprop(posns c ∗ payToks c)

theorem ghost_intro (K : Dev nD × Fin 7 → ℕ) (c : Dev nD) : iprop(records m K ∗ linear c) ⊢ G' m c := by
  unfold records linear G' ghost invs marks
  iintro ⟨⟨#HI, #HR⟩, Hp, Ht⟩
  iexists K
  isplitr
  · isplitr; · iapply (inv_at m K (c, 0)); iexact HI
    isplitr; · iapply (inv_at m K (c, 1)); iexact HI
    isplitr; · iapply (inv_at m K (c, 2)); iexact HI
    isplitr; · iapply (inv_at m K (c, 3)); iexact HI
    isplitr; · iapply (inv_at m K (c, 4)); iexact HI
    isplitr; · iapply (inv_at m K (c, 5)); iexact HI
    isplitr; · iapply (inv_at m K (c, 6)); iexact HI
    isplitr; · iapply (inv_at m K (fwd 0 c, 0)); iexact HI
    isplitr; · iapply (inv_at m K (fwd 1 c, 0)); iexact HI
    isplitr; · iapply (inv_at m K (fwd 2 c, 0)); iexact HI
    isplitr; · iapply (inv_at m K (fwd 0 c, 4)); iexact HI
    isplitr; · iapply (inv_at m K (fwd 1 c, 5)); iexact HI
    iapply (inv_at m K (fwd 2 c, 6)); iexact HI
  isplitl [Hp]; · iexact Hp
  isplitr
  · isplitr; · iapply (reached_at (F := F) (fwd 0 c, 0)); iexact HR
    isplitr; · iapply (reached_at (F := F) (fwd 1 c, 0)); iexact HR
    isplitr; · iapply (reached_at (F := F) (fwd 2 c, 0)); iexact HR
    isplitr; · iapply (reached_at (F := F) (fwd 0 c, 4)); iexact HR
    isplitr; · iapply (reached_at (F := F) (fwd 1 c, 5)); iexact HR
    isplitr; · iapply (reached_at (F := F) (fwd 2 c, 6)); iexact HR
    isplitr; · iapply (reached_at (F := F) (c, 1)); iexact HR
    isplitr; · iapply (reached_at (F := F) (c, 2)); iexact HR
    isplitr; · iapply (reached_at (F := F) (c, 3)); iexact HR
    isplitr; · iapply (reached_at (F := F) (c, 4)); iexact HR
    isplitr; · iapply (reached_at (F := F) (c, 5)); iexact HR
    iapply (reached_at (F := F) (c, 6)); iexact HR
  iexact Ht

omit [FloatOps F] in
/-- The tokens dealt to their payers: duty `d` of a barrier cell, and the duty of receive cell `d`, go to the device
    `d + 1` places behind the cell's owner; the send tokens stay. -/
theorem toks_around : (bigSep Finset.univ fun c : Dev nD => (toks c : sProp 𝕄)) ⊢ bigSep Finset.univ fun c : Dev nD => payToks c := by
  unfold toks payToks
  simp only [bigSep_sep']
  rw [bigSep_univ_equiv (ring 0) (fun c : Dev nD => (dutyTok ER (barCell c) 0 0 : sProp 𝕄)),
    bigSep_univ_equiv (ring 1) (fun c : Dev nD => (dutyTok ER (barCell c) 0 1 : sProp 𝕄)),
    bigSep_univ_equiv (ring 2) (fun c : Dev nD => (dutyTok ER (barCell c) 0 2 : sProp 𝕄)),
    bigSep_univ_equiv (ring 0) (fun c : Dev nD => (dutyTok ER (recvCell 0 c) 0 0 : sProp 𝕄)),
    bigSep_univ_equiv (ring 1) (fun c : Dev nD => (dutyTok ER (recvCell 1 c) 0 0 : sProp 𝕄)),
    bigSep_univ_equiv (ring 2) (fun c : Dev nD => (dutyTok ER (recvCell 2 c) 0 0 : sProp 𝕄))]
  iintro ⟨B0, B1, B2, S0, S1, S2, V0, V1, V2⟩
  isplitl [B0]; · iexact B0
  isplitl [B1]; · iexact B1
  isplitl [B2]; · iexact B2
  isplitl [V0]; · iexact V0
  isplitl [V1]; · iexact V1
  isplitl [V2]; · iexact V2
  isplitl [S0]; · iexact S0
  isplitl [S1]; · iexact S1
  iexact S2

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (sched m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 7 => iprop(∃ κ : ℕ, cellInv ER (sched m) κ (kcell ck))),
    bigSep_congr (s := Finset.univ) (fun (c : Dev nD) _ => bigSep_sep' Finset.univ (fun k : Fin 7 => (atPos ER (kcell (c, k)) 0 ∅ 0 : sProp 𝕄)) (fun k => reached ER (kcell (c, k)) 0)),
    bigSep_sep', ← bigSep_univ_prod (fun ck : Dev nD × Fin 7 => (reached ER (kcell ck) 0 : sProp 𝕄))]
  iintro ⟨HI, ⟨Hat, #HR⟩, Htok⟩
  ihave HK := (BI.bigSep_exists_pi Finset.univ (fun (ck : Dev nD × Fin 7) (κ : ℕ) => (cellInv ER (sched m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply ((Entails.of_eq (bigSep_sep' Finset.univ (fun c : Dev nD => bigSep Finset.univ fun k : Fin 7 => (atPos ER (kcell (c, k)) 0 ∅ 0 : sProp 𝕄)) payToks).symm).trans
      (bigSep_mono fun c _ => show _ ⊢ linear c from Entails.of_eq (by unfold linear posns; rw [bigSep_fin7])))
    isplitl [Hat]; · iexact Hat
    iexact Htk

/-- The global step: own AND unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ### The launch credit

Every device owes the device `j + 1` ahead one barrier unit and one row's credit on receive cell `j`: summed over the
issuers, each device is dealt three barrier units and a row's credit on each of its receive cells. -/

omit [FloatOps F] in
theorem launch_creds (c : Dev nD) : (Pipeline.launchCred O₀ c : sProp 𝕄) ⊢ creds c := by
  unfold creds
  have hO : (O₀ : Dev nD → CellTallies nD τ sig Unit) = fun d =>
      ((((tallyAt (((fwd 2 d).tc : Thread nD τ), SemLoc.dma (recvS 2)) () N + tallyAt (((fwd 0 d).tc : Thread nD τ), SemLoc.dma (recvS 0)) () N)
        + tallyAt (((fwd 1 d).tc : Thread nD τ), SemLoc.dma (recvS 1)) () N) + tallyAt (((fwd 2 d).tc : Thread nD τ), SemLoc.reg barS) () 1)
        + tallyAt (((fwd 1 d).tc : Thread nD τ), SemLoc.reg barS) () 1) + tallyAt (((fwd 0 d).tc : Thread nD τ), SemLoc.reg barS) () 1 := rfl
  rw [hO, Pipeline.launchCred_add, Pipeline.launchCred_add, Pipeline.launchCred_add, Pipeline.launchCred_add, Pipeline.launchCred_add]
  iintro ⟨⟨⟨⟨⟨R2, R0⟩, R1⟩, B2⟩, B1⟩, B0⟩
  ihave R2' := (Pipeline.launchCred_tallyAt (SemLoc.dma (recvS 2)) (fwd 2) (bwd 2) (fwd_bwd 2) (bwd_fwd 2) () N c) $$ R2
  ihave R0' := (Pipeline.launchCred_tallyAt (SemLoc.dma (recvS 0)) (fwd 0) (bwd 0) (fwd_bwd 0) (bwd_fwd 0) () N c) $$ R0
  ihave R1' := (Pipeline.launchCred_tallyAt (SemLoc.dma (recvS 1)) (fwd 1) (bwd 1) (fwd_bwd 1) (bwd_fwd 1) () N c) $$ R1
  ihave B2' := (Pipeline.launchCred_tallyAt (SemLoc.reg barS) (fwd 2) (bwd 2) (fwd_bwd 2) (bwd_fwd 2) () 1 c) $$ B2
  ihave B1' := (Pipeline.launchCred_tallyAt (SemLoc.reg barS) (fwd 1) (bwd 1) (fwd_bwd 1) (bwd_fwd 1) () 1 c) $$ B1
  ihave B0' := (Pipeline.launchCred_tallyAt (SemLoc.reg barS) (fwd 0) (bwd 0) (fwd_bwd 0) (bwd_fwd 0) () 1 c) $$ B0
  isplitl [B0' B1' B2']
  · have e3 : (tallyAt (barCell c) () 3 : CellTallies nD τ sig Unit) = tallyAt (barCell c) () 1 + tallyAt (barCell c) () 1 + tallyAt (barCell c) () 1 := by
      rw [tallyAt_add, tallyAt_add]
    rw [e3]
    iapply (cred_add _ _).2
    isplitl [B0' B1']
    · iapply (cred_add _ _).2
      isplitl [B0'] <;> iassumption
    · iexact B2'
  isplitl [R0']; · iexact R0'
  isplitl [R1']; · iexact R1'
  iexact R2'

/-! ### The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (launch_creds (F := F) c) $$ Hcr
  imodintro
  unfold start G'
  isplitl
  · isplitl [HG]; · iexact HG
    isplitl [Hc]; · iexact Hc
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scrAny
  iintro ⟨Hs, -, Hr⟩
  isplitl [Hs]; · iexact Hs
  iexact Hr

theorem phi1_exit (c : Dev nD) :
    (dats m 0 c).Φ (Fin.last cfg0.N) ⊢ iprop(emp ∗ Pipeline.ownSems0 osem c ∗ Pipeline.scopedRest cfg0.spec c) := by
  rw [show (dats m 0 c).Φ (Fin.last cfg0.N) = Φ₁ c from rfl, scopedRest0_eq, ownSems0_eq]
  unfold Φ₁ scrAny
  iintro ⟨Hr, Hz⟩
  isplitr; · iempintro
  isplitl [Hz]; · iexact Hz
  iexact Hr

theorem waits (c : Dev nD) : (levAts L lv : sProp 𝕄) ⊢ Pipeline.cellsWaits cfgs (dats m) () 0 c :=
  Pipeline.cellsWaits_intro cfgs (dats m) () 0 c fun w s t =>
    mayWait_low c _ (by fin_cases w <;> fin_cases s <;> rfl) _ (by
      rcases t with ⟨_ | _, ht⟩
      · exact fun g u h => h
      · exact fun g u h => absurd h (Nat.lt_irrefl 0))

/-! ### The run -/

def finalA (c : Dev nD) (w : Fin cfg0.W) : Buf (Elt F) ((cfg0.win w).arr.view.loc (c : Thread nD τ)) := (dats m 0 c).arrAt w cfg0.N

def QC : PUnit × MemSt nD τ sig (Elt F) → Prop := fun r =>
  ∀ c : Dev nD, ∀ w : Fin cfg0.W, r.2.mem ((cfg0.win w).arr.view.loc (c : Thread nD τ)) = finalA m c w

set_option maxRecDepth 8000 in
/-- At the compiled mesh of four devices, at any float instance, from any memory with zero counters: every weakly fair
    execution of @main — the four kernels meeting on the runtime's barrier semaphore, then exchanging their partial sums —
    terminates, and every final state has each device's arrays at the proof data's final contents. -/
theorem run_main : θ_run defs (onTc (τ := τ) (main (F := F))) (s₀ m ρ) (QC m) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m) (hout := phi1_exit m)
    (QY := fun _ _ => True)
    (hY := fun c s' => by
      iintro ⟨-, -, HSI⟩
      imodintro
      isplitr; · ipureintro; trivial
      iexact HSI)
    (hQ := fun _ h c w => (h c).1 w)

end Cert.KernelIdealProof
end
-- ==== Proof.ProtocolK.lean ====
import proofs.«900385_g7700000000000386_dist_rmsnorm_colshard_i_m512_n256_v7x_i4_f32_1_alg».proof.Defs
import proofs.«900385_g7700000000000386_dist_rmsnorm_colshard_i_m512_n256_v7x_i4_f32_1_alg».proof.Proof.Gen.Kernel
import proofs.«900385_g7700000000000386_dist_rmsnorm_colshard_i_m512_n256_v7x_i4_f32_1_alg».proof.Proof.Gen.Kernel.Skeleton
import proofs.«900385_g7700000000000386_dist_rmsnorm_colshard_i_m512_n256_v7x_i4_f32_1_alg».proof.Proof.Gen.Kernel.Launch
import proofs.«900385_g7700000000000386_dist_rmsnorm_colshard_i_m512_n256_v7x_i4_f32_1_alg».proof.Proof.Gen.Kernel.Points
import proofs.«900385_g7700000000000386_dist_rmsnorm_colshard_i_m512_n256_v7x_i4_f32_1_alg».proof.Proof.Gen.Kernel.Frame
import Idealize.ShloMosaic.Lib.Pipeline.Launch
import Idealize.ShloMosaic.Lib.Pipeline.Kit
import Idealize.ShloMosaic.Lib.Pipeline.Value
import Idealize.ShloMosaic.Lib.Tactic

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's own copy and the collective's (three duty names) -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero. -/
def s₀ : MemSt nD τ sig (Elt F) := ⟨m, fun _ => 0, ρ⟩

/-! ## The four devices: who is `j + 1` places ahead of whom

Device `c` addresses the devices `c + 1`, `c + 2`, `c + 3` (mod 4): `fwd j c` is `j + 1` places ahead, `bwd j c`
the same number of places behind. A device `j + 1` ahead of `c` sees `c` as `(2 - j) + 1` ahead of itself. -/

def fwd (j : Fin 3) (c : Dev nD) : Dev nD := ⟨(c.val + j.val + 1) % 4, Nat.mod_lt _ (by decide)⟩
def bwd (j : Fin 3) (c : Dev nD) : Dev nD := ⟨(c.val + 3 - j.val) % 4, Nat.mod_lt _ (by decide)⟩
def rev (j : Fin 3) : Fin 3 := ⟨2 - j.val, by omega⟩

theorem bwd_fwd (j : Fin 3) (c : Dev nD) : bwd j (fwd j c) = c := by revert j c; decide
theorem fwd_bwd (j : Fin 3) (c : Dev nD) : fwd j (bwd j c) = c := by revert j c; decide
theorem fwd_rev (j : Fin 3) (c : Dev nD) : fwd (rev j) c = bwd j c := by revert j c; decide
theorem bwd_rev (j : Fin 3) (c : Dev nD) : bwd (rev j) c = fwd j c := by revert j c; decide
theorem rev_rev (j : Fin 3) : rev (rev j) = j := by revert j; decide

def ring (j : Fin 3) : Dev nD ≃ Dev nD := ⟨fwd j, bwd j, bwd_fwd j, fwd_bwd j⟩

/-- The kernel's `device_id` chains: the three signals go 1, 2, 3 places ahead; the three copies 2, 1, 3 places ahead. -/
theorem dev1_eq (c : Dev nD) : (⟨k0_dev1 c, k0_dev1_lt c⟩ : Dev nD) = fwd 0 c := by revert c; decide +kernel
theorem dev2_eq (c : Dev nD) : (⟨k0_dev2 c, k0_dev2_lt c⟩ : Dev nD) = fwd 1 c := by revert c; decide +kernel
theorem dev3_eq (c : Dev nD) : (⟨k0_dev3 c, k0_dev3_lt c⟩ : Dev nD) = fwd 2 c := by revert c; decide +kernel
theorem dev4_eq (c : Dev nD) : (⟨k0_dev4 c, k0_dev4_lt c⟩ : Dev nD) = fwd 1 c := by revert c; decide +kernel
theorem dev5_eq (c : Dev nD) : (⟨k0_dev5 c, k0_dev5_lt c⟩ : Dev nD) = fwd 0 c := by revert c; decide +kernel
theorem dev6_eq (c : Dev nD) : (⟨k0_dev6 c, k0_dev6_lt c⟩ : Dev nD) = fwd 2 c := by revert c; decide +kernel

/-! ## The semaphores and cells -/

/-- The runtime's barrier semaphore of collective id 0; the three send and the three receive DMA semaphores. -/
abbrev barS : Sem sig := (SemArray.scalar (sig.barrier 0 rfl) : Sems sig S_).sem
abbrev sendS : Fin 3 → DmaSem sig := fun | 0 => 3 | 1 => 4 | 2 => 5
abbrev recvS : Fin 3 → DmaSem sig := fun | 0 => 6 | 1 => 7 | 2 => 8

abbrev barCell (c : Dev nD) : GSem nD τ sig := ((c : Thread nD τ), .reg barS)
abbrev sendCell (j : Fin 3) (c : Dev nD) : GSem nD τ sig := ((c : Thread nD τ), .dma (sendS j))
abbrev recvCell (j : Fin 3) (c : Dev nD) : GSem nD τ sig := ((c : Thread nD τ), .dma (recvS j))

/-- What a semaphore is in the protocol. -/
inductive CK | bar | snd (j : Fin 3) | rcv (j : Fin 3) | other
deriving DecidableEq

def kindOf : SemLoc sig → CK
  | .reg s => if s = barS then .bar else .other
  | .dma q => if q = 3 then .snd 0 else if q = 4 then .snd 1 else if q = 5 then .snd 2
      else if q = 6 then .rcv 0 else if q = 7 then .rcv 1 else if q = 8 then .rcv 2 else .other

theorem kind_bar : kindOf (.reg barS) = .bar := by decide
theorem kind_send (j : Fin 3) : kindOf (.dma (sendS j)) = .snd j := by revert j; decide
theorem kind_recv (j : Fin 3) : kindOf (.dma (recvS j)) = .rcv j := by revert j; decide

/-- The kernel's OWN (scoped) semaphores, as the launch indexes them: the three send cells, then the three receive cells; -/
abbrev osem : Fin 6 → SemLoc sig := fun | 0 => .dma (sendS 0) | 1 => .dma (sendS 1) | 2 => .dma (sendS 2) | 3 => .dma (recvS 0) | 4 => .dma (recvS 1) | 5 => .dma (recvS 2)
/-- all seven of the protocol: the barrier cell first. -/
abbrev csem : Fin 7 → SemLoc sig := fun | 0 => .reg barS | 1 => .dma (sendS 0) | 2 => .dma (sendS 1) | 3 => .dma (sendS 2) | 4 => .dma (recvS 0) | 5 => .dma (recvS 1) | 6 => .dma (recvS 2)
abbrev kcell (ck : Dev nD × Fin 7) : GSem nD τ sig := ((ck.1 : Thread nD τ), csem ck.2)

/-! ## The exchange buffer, row by row -/

abbrev sM : Memref sig .tc .vmem S4x512 .f32 := Memref.whole cc0_scratch0
abbrev xM : Memref sig .tc .vmem S512x256 .f32 := Memref.whole cc0_stg0_0
abbrev gM : Memref sig .tc .vmem S256 .f32 := Memref.whole cc0_stg1_0
abbrev oM : Memref sig .tc .vmem S512x256 .f32 := Memref.whole cc0_stg2_0

/-- Row `k` of the 4 × 512 exchange buffer as a rectangle. -/
abbrev rk : Fin 4 → Rect S4x512 := fun
  | 0 => Rect.unit (s := S4x512) ![0, 0] S1x512.size inb_S4x512_S1x512_0_0
  | 1 => Rect.unit (s := S4x512) ![1, 0] S1x512.size inb_S4x512_S1x512_1_0
  | 2 => Rect.unit (s := S4x512) ![2, 0] S1x512.size inb_S4x512_S1x512_2_0
  | 3 => Rect.unit (s := S4x512) ![3, 0] S1x512.size inb_S4x512_S1x512_3_0

/-- The row as a vector access sees it (1 × 512), -/
abbrev aV (k : Fin 4) : View sig .tc .vmem (rk k).shape .f32 := sM.access (rk k)
/-- and as a copy's end (512). -/
abbrev rowM : Fin 4 → Memref sig .tc .vmem S512 .f32 := fun
  | 0 => (sM.slice (Rect.unit (s := S4x512) ![0, 0] S1x512.size inb_S4x512_S1x512_0_0) (fun _ => rfl)).squeeze S512 squeezes_S1x512_S512
  | 1 => (sM.slice (Rect.unit (s := S4x512) ![1, 0] S1x512.size inb_S4x512_S1x512_1_0) (fun _ => rfl)).squeeze S512 squeezes_S1x512_S512
  | 2 => (sM.slice (Rect.unit (s := S4x512) ![2, 0] S1x512.size inb_S4x512_S1x512_2_0) (fun _ => rfl)).squeeze S512 squeezes_S1x512_S512
  | 3 => (sM.slice (Rect.unit (s := S4x512) ![3, 0] S1x512.size inb_S4x512_S1x512_3_0) (fun _ => rfl)).squeeze S512 squeezes_S1x512_S512

/-- The elements of row `k`. -/
def rowSet (k : Fin 4) : Finset S4x512.Idx := (rk k).set

theorem mem_rowSet {k : Fin 4} {i : S4x512.Idx} : i ∈ rowSet k ↔ (i 0).val = k.val := by
  unfold rowSet
  have key : ∀ (o : ℕ) (inb : ∀ a, (![o, 0] : Fin 2 → ℕ) a + S1x512.size a ≤ S4x512.size a),
      i ∈ (Rect.unit (s := S4x512) ![o, 0] S1x512.size inb).set ↔ (i 0).val = o := by
    intro o inb
    rw [Rect.mem_set_unit]
    constructor
    · intro h; have h0 := h (0 : Fin 2); simp at h0; omega
    · intro h a
      have h1 : (i 1).val < 512 := (i 1).isLt
      fin_cases a
      · simp; omega
      · simp; exact h1
  fin_cases k
  · exact key 0 _
  · exact key 1 _
  · exact key 2 _
  · exact key 3 _

theorem rowSet_disjoint {j k : Fin 4} (h : j ≠ k) : Disjoint (rowSet j) (rowSet k) :=
  Finset.disjoint_left.mpr fun i hj hk => h (Fin.ext ((mem_rowSet.mp hj).symm.trans (mem_rowSet.mp hk)))

theorem rowSet_cover : (Finset.univ : Finset (Fin 4)).biUnion rowSet = Finset.univ :=
  Finset.eq_univ_iff_forall.mpr fun i => Finset.mem_biUnion.mpr ⟨⟨(i 0).val, (i 0).isLt⟩, Finset.mem_univ _, mem_rowSet.mpr rfl⟩

theorem aV_set (k : Fin 4) : (aV k).set = rowSet k := by
  fin_cases k <;> exact View.set_slice_whole _ _
theorem rowM_set0 : (rowM 0).view.set = rowSet 0 := by
  simp only [rowM, Memref.view_squeeze, View.set_reshape]; exact View.set_slice_whole _ _
theorem rowM_set1 : (rowM 1).view.set = rowSet 1 := by
  simp only [rowM, Memref.view_squeeze, View.set_reshape]; exact View.set_slice_whole _ _
theorem rowM_set2 : (rowM 2).view.set = rowSet 2 := by
  simp only [rowM, Memref.view_squeeze, View.set_reshape]; exact View.set_slice_whole _ _
theorem rowM_set3 : (rowM 3).view.set = rowSet 3 := by
  simp only [rowM, Memref.view_squeeze, View.set_reshape]; exact View.set_slice_whole _ _

abbrev N : ℕ := (rowM 0).view.dmaCredit
theorem N_pos : 0 < N := View.dmaCredit_pos _ (by decide)

/-! ## Contents

Each device squares its 512 × 256 block of `x` and sums every row (the generated payload `k0_pay2`): 512 partial sums,
kept in row 3 of its exchange buffer and copied into row `j` of the device `j + 1` places ahead. After the exchange,
row `j < 3` of device `c` holds the partial sums of the device `j + 1` places behind it, row 3 its own. -/

/-- Device `c`'s blocks of `x` and of `gamma` as the pipeline stages them. -/
def xstg (c : Dev nD) : (cc0_stg0_0 : Ref sig .tc).ty.Contents (Elt F) := iblk m c 0 t0_0
def gstg (c : Dev nD) : (cc0_stg1_0 : Ref sig .tc).ty.Contents (Elt F) := iblk m c 1 t0_0

/-- Device `c`'s partial sums of squares, one per row of its block. -/
def psum (c : Dev nD) : S1x512.Idx → Elt F .f32 := k0_pay2 (xstg m c)

/-- The exchange buffer of device `c` once everything has landed (rows written one by one over arbitrary contents). -/
def comm (c : Dev nD) : (cc0_scratch0 : Ref sig .tc).ty.Contents (Elt F) :=
  (aV 0).write (Elt F) ((aV 1).write (Elt F) ((aV 2).write (Elt F) ((aV 3).write (Elt F) (fun _ => Classical.arbitrary _) (psum m c) Finset.univ)
    (psum m (bwd 2 c)) Finset.univ) (psum m (bwd 1 c)) Finset.univ) (psum m (bwd 0 c)) Finset.univ

/-- Row `k` of device `c`'s exchange buffer, held at share `q` with contents `f`. -/
def rowPts (c : Dev nD) (k : Fin 4) (q : PosShare TreeShare) (f : Buf (Elt F) ((c : Thread nD τ).loc cc0_scratch0)) : sProp 𝕄 :=
  ((c : Thread nD τ).loc cc0_scratch0) ↦[rowSet k]{q} f

omit [FloatOps F] in
instance rowPts_storable (c : Dev nD) (k : Fin 4) (q) (f) : BI.Storable (upEmb : UEmb _ 𝕄) (rowPts (F := F) c k q f) := by unfold rowPts; infer_instance

/-- Row 3 is read by three copies at once and by the device itself: four quarter shares. -/
abbrev qs : Fin 3 → PosShare TreeShare := fun | 0 => fullShare.left.left | 1 => fullShare.left.right | 2 => fullShare.right.left
abbrev qk : PosShare TreeShare := fullShare.right.right

/-! ## The schedule: one round

A device's barrier cell has three duties, one per peer: duty `d` is paid by the device `d + 1` places behind, which
hands over the row of ITS buffer that this device will copy into (row `2 - d`) and that it has opened the receive cell
of that row. A send cell and a receive cell have one duty each, of a row's credit: the send cell gives back the share of
row 3 the copy read, the receive cell gives the row holding the sender's partial sums. -/

def barPay (e : Dev nD) (d : Fin 3) : sProp 𝕄 :=
  iprop((∃ f, rowPts (bwd d e) (rev d).castSucc fullShare f) ∗ reached ER (recvCell (rev d) (bwd d e)) 0)
def sendPay (c : Dev nD) (j : Fin 3) : sProp 𝕄 := rowPts c 3 (qs j) (comm m c)
def recvPay (e : Dev nD) (j : Fin 3) : sProp 𝕄 := rowPts e j.castSucc fullShare (comm m e)

def sched : Rounds.Schedule (GSem nD τ sig) (Fin 3) 𝕄 where
  duties g r := if r = 0 ∧ g.1.2 = .tc then (match kindOf g.2 with | .bar => Finset.univ | .snd _ => {0} | .rcv _ => {0} | .other => ∅) else ∅
  unitless _ := False
  amount g _ _ := match kindOf g.2 with | .bar => 1 | _ => N
  payload g _ d := match kindOf g.2 with
    | .bar => barPay g.1.1 d
    | .snd j => sendPay m g.1.1 j
    | .rcv j => recvPay m g.1.1 j
    | .other => iprop(emp)
  amount_pos g _ _ _ := by
    cases kindOf g.2 <;> first | exact Nat.one_pos | exact N_pos

instance sched_payload_storable (g : GSem nD τ sig) (r : ℕ) (d : Fin 3) :
    BI.Storable (upEmb : UEmb _ 𝕄) ((sched (F := F) m).payload g r d) := by
  show BI.Storable upEmb (match kindOf g.2 with
    | .bar => barPay g.1.1 d | .snd j => sendPay m g.1.1 j | .rcv j => recvPay m g.1.1 j | .other => iprop(emp))
  unfold barPay sendPay recvPay
  cases kindOf g.2 <;> infer_instance

section Sched
variable (c : Dev nD) (j : Fin 3)

theorem duties_bar : (sched (F := F) m).duties (barCell c) 0 = Finset.univ := by
  dsimp only [sched]; rw [if_pos ⟨rfl, rfl⟩, kind_bar]
theorem duties_send : (sched (F := F) m).duties (sendCell j c) 0 = {0} := by
  dsimp only [sched]; rw [if_pos ⟨rfl, rfl⟩, kind_send]
theorem duties_recv : (sched (F := F) m).duties (recvCell j c) 0 = {0} := by
  dsimp only [sched]; rw [if_pos ⟨rfl, rfl⟩, kind_recv]
theorem duties_later (g : GSem nD τ sig) : ∀ r, 1 ≤ r → (sched (F := F) m).duties g r = ∅ :=
  fun r hr => by dsimp only [sched]; rw [if_neg fun h => by omega]

theorem amount_bar (d : Fin 3) : (sched (F := F) m).amount (barCell c) 0 d = 1 := by dsimp only [sched]; rw [kind_bar]
theorem amount_send (d : Fin 3) : (sched (F := F) m).amount (sendCell j c) 0 d = N := by dsimp only [sched]; rw [kind_send]
theorem amount_recv (d : Fin 3) : (sched (F := F) m).amount (recvCell j c) 0 d = N := by dsimp only [sched]; rw [kind_recv]

theorem expect_bar : (sched (F := F) m).expect (barCell c) 0 = 3 := by
  unfold Schedule.expect Schedule.amountOf
  rw [duties_bar, Finset.sum_congr rfl fun d _ => amount_bar m c d, Finset.sum_const, Finset.card_univ, Fintype.card_fin, smul_eq_mul]
theorem expect_send : (sched (F := F) m).expect (sendCell j c) 0 = N := by
  unfold Schedule.expect Schedule.amountOf; rw [duties_send, Finset.sum_singleton, amount_send]
theorem expect_recv : (sched (F := F) m).expect (recvCell j c) 0 = N := by
  unfold Schedule.expect Schedule.amountOf; rw [duties_recv, Finset.sum_singleton, amount_recv]

theorem payload_bar (d : Fin 3) : (sched (F := F) m).payload (barCell c) 0 d = barPay c d := by dsimp only [sched]; rw [kind_bar]
theorem payload_send (d : Fin 3) : (sched (F := F) m).payload (sendCell j c) 0 d = sendPay m c j := by dsimp only [sched]; rw [kind_send]
theorem payload_recv (d : Fin 3) : (sched (F := F) m).payload (recvCell j c) 0 d = recvPay m c j := by dsimp only [sched]; rw [kind_recv]

omit [FloatOps F] in
theorem bigSep_fin3 (Φ : Fin 3 → sProp 𝕄) : bigSep Finset.univ Φ = iprop(Φ 0 ∗ Φ 1 ∗ Φ 2) := bigSep_univ_eq_bigSepL [0, 1, 2] (by decide) (by decide) Φ

/-- The rest of a round no duty of which has been taken: every peer's hand-over; the share back; the row landed. -/
theorem rest_bar : bigSep ((sched (F := F) m).duties (barCell c) 0 \ ∅) (fun d => (sched (F := F) m).payload (barCell c) 0 d)
    = iprop(barPay c 0 ∗ barPay c 1 ∗ barPay c 2) := by
  rw [Finset.sdiff_empty, duties_bar, bigSep_fin3, payload_bar, payload_bar, payload_bar]
theorem rest_send : bigSep ((sched (F := F) m).duties (sendCell j c) 0 \ ∅) (fun d => (sched (F := F) m).payload (sendCell j c) 0 d) = sendPay m c j := by
  rw [Finset.sdiff_empty, duties_send, bigSep_singleton, payload_send]
theorem rest_recv : bigSep ((sched (F := F) m).duties (recvCell j c) 0 \ ∅) (fun d => (sched (F := F) m).payload (recvCell j c) 0 d) = recvPay m c j := by
  rw [Finset.sdiff_empty, duties_recv, bigSep_singleton, payload_recv]

end Sched

/-! ## What each device owes at launch; the levels

Device `c` owes each peer's barrier cell one unit and each peer's receive cell (of the row it copies into) a row's
credit. Barrier cells sit at level 1, receive cells at level 2, everything else (staging, send) at 0: a device waits on
its barrier cell owing only receive credits, and on its receive cells owing nothing. -/

def tB (j : Fin 3) (c : Dev nD) : CellTallies nD τ sig Unit := tallyAt (barCell (fwd j c)) () 1
def tR (j : Fin 3) (c : Dev nD) : CellTallies nD τ sig Unit := tallyAt (recvCell j (fwd j c)) () N
/-- After the three signals: the three receive credits, summed so that the copies (2, 1, 3 places ahead) peel them from the right. -/
def OR (c : Dev nD) : CellTallies nD τ sig Unit := tR 2 c + tR 0 c + tR 1 c
def O₀ (c : Dev nD) : CellTallies nD τ sig Unit := OR c + tB 2 c + tB 1 c + tB 0 c

def L (g : GSem nD τ sig) : Finset Unit := if g.1.2 = .tc then {()} else ∅
def lv (g : GSem nD τ sig) (_ : Unit) : ℕ := match kindOf g.2 with | .bar => 1 | .rcv _ => 2 | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barCell c) u = 1 := by dsimp only [lv]; rw [kind_bar]
theorem lv_recv (j : Fin 3) (c : Dev nD) (u : Unit) : lv (recvCell j c) u = 2 := by dsimp only [lv]; rw [kind_recv]
theorem lv_send (j : Fin 3) (c : Dev nD) (u : Unit) : lv (sendCell j c) u = 0 := by dsimp only [lv]; rw [kind_send]

theorem OR_pos {c : Dev nD} {g : GSem nD τ sig} {u : Unit} (h : 0 < OR c g u) : ∃ j, g = recvCell j (fwd j c) := by
  unfold OR tR at h
  rcases Pipeline.add_pos_cases h with h | h
  · rcases Pipeline.add_pos_cases h with h | h
    · exact ⟨2, (Pipeline.tallyAt_pos h).1⟩
    · exact ⟨0, (Pipeline.tallyAt_pos h).1⟩
  · exact ⟨1, (Pipeline.tallyAt_pos h).1⟩

theorem O₀_pos {c : Dev nD} {g : GSem nD τ sig} {u : Unit} (h : 0 < O₀ c g u) :
    (∃ j, g = recvCell j (fwd j c)) ∨ ∃ j, g = barCell (fwd j c) := by
  unfold O₀ tB at h
  rcases Pipeline.add_pos_cases h with h | h
  · rcases Pipeline.add_pos_cases h with h | h
    · rcases Pipeline.add_pos_cases h with h | h
      · exact .inl (OR_pos h)
      · exact .inr ⟨2, (Pipeline.tallyAt_pos h).1⟩
    · exact .inr ⟨1, (Pipeline.tallyAt_pos h).1⟩
  · exact .inr ⟨0, (Pipeline.tallyAt_pos h).1⟩

omit [FloatOps F] in
/-- A wait on a cell of level 0 (a staging cell, a send cell), whatever of its launch dues the device still owes. -/
theorem mayWait_low (c : Dev nD) (s : SemLoc sig) (hs : lv ((c : Thread nD τ), s) () = 0) (O : CellTallies nD τ sig Unit)
    (hO : ∀ g u, 0 < O g u → 0 < O₀ c g u) :
    (levAts L lv : sProp 𝕄) ⊢ MayWait (c : Thread nD τ) s () O :=
  Pipeline.mayWait_of_levAts (by rw [L_tc]; exact Finset.mem_singleton_self _) fun g u hg => by
    rcases O₀_pos (hO g u hg) with ⟨j, rfl⟩ | ⟨j, rfl⟩
    · exact ⟨by rw [L_tc]; exact Finset.mem_singleton_self _, by rw [hs, lv_recv]; decide⟩
    · exact ⟨by rw [L_tc]; exact Finset.mem_singleton_self _, by rw [hs, lv_bar]; decide⟩

omit [FloatOps F] in
/-- At its barrier wait a device owes receive credits only: receive cells sit above barrier cells. -/
theorem mayWait_bar (c : Dev nD) : (levAts L lv : sProp 𝕄) ⊢ MayWait (c : Thread nD τ) (.reg barS) () (OR c) :=
  Pipeline.mayWait_of_levAts (by rw [L_tc]; exact Finset.mem_singleton_self _) fun g u hg => by
    obtain ⟨j, rfl⟩ := OR_pos hg
    exact ⟨by rw [L_tc]; exact Finset.mem_singleton_self _, by rw [lv_bar, lv_recv]; decide⟩

/-! ## Reading the exchange buffer

Rows are disjoint, so writing one row leaves the others alone, and what a row reads back is what was last written to it. -/

omit [FloatOps F] in
theorem write_row_off {k k' : Fin 4} (h : k ≠ k') (f : (cc0_scratch0 : Ref sig .tc).ty.Contents (Elt F)) (w : (rk k).shape.Idx → Elt F .f32)
    {i : S4x512.Idx} (hi : i ∈ rowSet k') : (aV k).write (Elt F) f w Finset.univ i = f i :=
  View.write_of_not_mem _ _ _ (by
    rw [View.setOn_univ, aV_set]; exact fun hk => Finset.disjoint_left.mp (rowSet_disjoint h) hk hi)

omit [FloatOps F] in
theorem write_row_on {k : Fin 4} (f f' : (cc0_scratch0 : Ref sig .tc).ty.Contents (Elt F)) (w : (rk k).shape.Idx → Elt F .f32)
    {i : S4x512.Idx} (hi : i ∈ rowSet k) : (aV k).write (Elt F) f w Finset.univ i = (aV k).write (Elt F) f' w Finset.univ i := by
  have h := congrFun (View.write_eq_piecewise (v := aV k) f f' w Finset.univ) i
  rw [h, Finset.piecewise_eq_of_mem _ _ _ (by rw [View.setOn_univ, aV_set]; exact hi)]

omit [FloatOps F] in
theorem read_row_off {k k' : Fin 4} (h : k ≠ k') (f : (cc0_scratch0 : Ref sig .tc).ty.Contents (Elt F)) (w : (rk k').shape.Idx → Elt F .f32) :
    (aV k).read (Elt F) ((aV k').write (Elt F) f w Finset.univ) = (aV k).read (Elt F) f :=
  View.read_slice_write_slice_of_disjoint (v := sM.view) (rk k) (rk k') f w Finset.univ (by
    rw [View.setOn_univ]; show Disjoint (aV k).set (aV k').set; rw [aV_set, aV_set]; exact rowSet_disjoint h)

/-- Row 3 of a device's buffer reads its own partial sums; row `j < 3` those of the device `j + 1` places behind. -/
theorem read_comm3 (c : Dev nD) : (aV 3).read (Elt F) (comm m c) = psum m c := by
  unfold comm
  rw [read_row_off (by decide), read_row_off (by decide), read_row_off (by decide)]
  exact View.read_write_univ _ _
theorem read_comm2 (c : Dev nD) : (aV 2).read (Elt F) (comm m c) = psum m (bwd 2 c) := by
  unfold comm
  rw [read_row_off (by decide), read_row_off (by decide)]
  exact View.read_write_univ _ _
theorem read_comm1 (c : Dev nD) : (aV 1).read (Elt F) (comm m c) = psum m (bwd 1 c) := by
  unfold comm
  rw [read_row_off (by decide)]
  exact View.read_write_univ _ _
theorem read_comm0 (c : Dev nD) : (aV 0).read (Elt F) (comm m c) = psum m (bwd 0 c) := by
  unfold comm
  exact View.read_write_univ _ _

/-- On row `k` the final contents are that row's write, over whatever was there. -/
theorem comm_at0 (c : Dev nD) {i : S4x512.Idx} (hi : i ∈ rowSet 0) (f : (cc0_scratch0 : Ref sig .tc).ty.Contents (Elt F)) :
    comm m c i = (aV 0).write (Elt F) f (psum m (bwd 0 c)) Finset.univ i := by
  unfold comm; exact write_row_on _ _ _ hi
theorem comm_at1 (c : Dev nD) {i : S4x512.Idx} (hi : i ∈ rowSet 1) (f : (cc0_scratch0 : Ref sig .tc).ty.Contents (Elt F)) :
    comm m c i = (aV 1).write (Elt F) f (psum m (bwd 1 c)) Finset.univ i := by
  unfold comm; rw [write_row_off (k := 0) (by decide) _ _ hi]; exact write_row_on _ _ _ hi
theorem comm_at2 (c : Dev nD) {i : S4x512.Idx} (hi : i ∈ rowSet 2) (f : (cc0_scratch0 : Ref sig .tc).ty.Contents (Elt F)) :
    comm m c i = (aV 2).write (Elt F) f (psum m (bwd 2 c)) Finset.univ i := by
  unfold comm; rw [write_row_off (k := 0) (by decide) _ _ hi, write_row_off (k := 1) (by decide) _ _ hi]; exact write_row_on _ _ _ hi
theorem comm_at3 (c : Dev nD) {i : S4x512.Idx} (hi : i ∈ rowSet 3) (f : (cc0_scratch0 : Ref sig .tc).ty.Contents (Elt F)) :
    comm m c i = (aV 3).write (Elt F) f (psum m c) Finset.univ i := by
  unfold comm
  rw [write_row_off (k := 0) (by decide) _ _ hi, write_row_off (k := 1) (by decide) _ _ hi, write_row_off (k := 2) (by decide) _ _ hi]
  exact write_row_on _ _ _ hi

/-- The copy 1 place(s) ahead lands the sender's partial sums in row 0 of the receiver, as the receiver finally holds it. -/
theorem land_eq0 (c : Dev nD) (fd : (cc0_scratch0 : Ref sig .tc).ty.Contents (Elt F)) :
    ∀ i ∈ rowSet 0, (rowM 0).view.write (Elt F) fd ((rowM 3).view.read (Elt F) (comm m c)) Finset.univ i = comm m (fwd 0 c) i := fun i hi => by
  have hw : (rowM 0).view.write (Elt F) fd ((rowM 3).view.read (Elt F) (comm m c)) Finset.univ
      = (aV 0).write (Elt F) fd (fun x => (rowM 3).view.read (Elt F) (comm m c) ((Shape.reshapeEquiv squeezes_S1x512_S512.numel_eq).symm x)) Finset.univ :=
    View.write_reshape_univ (v := aV 0) squeezes_S1x512_S512.numel_eq fd _
  have hr : (fun x => (rowM 3).view.read (Elt F) (comm m c) ((Shape.reshapeEquiv squeezes_S1x512_S512.numel_eq).symm x)) = psum m c := by
    funext x
    show (aV 3).read (Elt F) (comm m c) (Shape.reshapeEquiv squeezes_S1x512_S512.numel_eq ((Shape.reshapeEquiv squeezes_S1x512_S512.numel_eq).symm x)) = _
    rw [Equiv.apply_symm_apply, read_comm3]
  have hw' : (rowM 0).view.write (Elt F) fd ((rowM 3).view.read (Elt F) (comm m c)) Finset.univ = (aV 0).write (Elt F) fd (psum m c) Finset.univ :=
    hw.trans (congrArg (fun w => View.write (Elt F) (aV 0) fd w Finset.univ) hr)
  rw [hw', comm_at0 m (fwd 0 c) hi fd, bwd_fwd]

/-- The copy 2 place(s) ahead lands the sender's partial sums in row 1 of the receiver, as the receiver finally holds it. -/
theorem land_eq1 (c : Dev nD) (fd : (cc0_scratch0 : Ref sig .tc).ty.Contents (Elt F)) :
    ∀ i ∈ rowSet 1, (rowM 1).view.write (Elt F) fd ((rowM 3).view.read (Elt F) (comm m c)) Finset.univ i = comm m (fwd 1 c) i := fun i hi => by
  have hw : (rowM 1).view.write (Elt F) fd ((rowM 3).view.read (Elt F) (comm m c)) Finset.univ
      = (aV 1).write (Elt F) fd (fun x => (rowM 3).view.read (Elt F) (comm m c) ((Shape.reshapeEquiv squeezes_S1x512_S512.numel_eq).symm x)) Finset.univ :=
    View.write_reshape_univ (v := aV 1) squeezes_S1x512_S512.numel_eq fd _
  have hr : (fun x => (rowM 3).view.read (Elt F) (comm m c) ((Shape.reshapeEquiv squeezes_S1x512_S512.numel_eq).symm x)) = psum m c := by
    funext x
    show (aV 3).read (Elt F) (comm m c) (Shape.reshapeEquiv squeezes_S1x512_S512.numel_eq ((Shape.reshapeEquiv squeezes_S1x512_S512.numel_eq).symm x)) = _
    rw [Equiv.apply_symm_apply, read_comm3]
  have hw' : (rowM 1).view.write (Elt F) fd ((rowM 3).view.read (Elt F) (comm m c)) Finset.univ = (aV 1).write (Elt F) fd (psum m c) Finset.univ :=
    hw.trans (congrArg (fun w => View.write (Elt F) (aV 1) fd w Finset.univ) hr)
  rw [hw', comm_at1 m (fwd 1 c) hi fd, bwd_fwd]

/-- The copy 3 place(s) ahead lands the sender's partial sums in row 2 of the receiver, as the receiver finally holds it. -/
theorem land_eq2 (c : Dev nD) (fd : (cc0_scratch0 : Ref sig .tc).ty.Contents (Elt F)) :
    ∀ i ∈ rowSet 2, (rowM 2).view.write (Elt F) fd ((rowM 3).view.read (Elt F) (comm m c)) Finset.univ i = comm m (fwd 2 c) i := fun i hi => by
  have hw : (rowM 2).view.write (Elt F) fd ((rowM 3).view.read (Elt F) (comm m c)) Finset.univ
      = (aV 2).write (Elt F) fd (fun x => (rowM 3).view.read (Elt F) (comm m c) ((Shape.reshapeEquiv squeezes_S1x512_S512.numel_eq).symm x)) Finset.univ :=
    View.write_reshape_univ (v := aV 2) squeezes_S1x512_S512.numel_eq fd _
  have hr : (fun x => (rowM 3).view.read (Elt F) (comm m c) ((Shape.reshapeEquiv squeezes_S1x512_S512.numel_eq).symm x)) = psum m c := by
    funext x
    show (aV 3).read (Elt F) (comm m c) (Shape.reshapeEquiv squeezes_S1x512_S512.numel_eq ((Shape.reshapeEquiv squeezes_S1x512_S512.numel_eq).symm x)) = _
    rw [Equiv.apply_symm_apply, read_comm3]
  have hw' : (rowM 2).view.write (Elt F) fd ((rowM 3).view.read (Elt F) (comm m c)) Finset.univ = (aV 2).write (Elt F) fd (psum m c) Finset.univ :=
    hw.trans (congrArg (fun w => View.write (Elt F) (aV 2) fd w Finset.univ) hr)
  rw [hw', comm_at2 m (fwd 2 c) hi fd, bwd_fwd]

/-- Row `k`'s elements are those the buffer's own view reaches through the row's rectangle. -/
theorem rowSet_eq (k : Fin 4) : rowSet k = sM.view.setOn (rk k).set := (aV_set k).symm.trans (View.set_slice _ _)

end Cert.KernelProof
end
-- ==== Proof.BodyK.lean ====
import proofs.«900385_g7700000000000386_dist_rmsnorm_colshard_i_m512_n256_v7x_i4_f32_1_alg».proof.Defs
import proofs.«900385_g7700000000000386_dist_rmsnorm_colshard_i_m512_n256_v7x_i4_f32_1_alg».proof.Proof.Gen.Kernel
import proofs.«900385_g7700000000000386_dist_rmsnorm_colshard_i_m512_n256_v7x_i4_f32_1_alg».proof.Proof.Gen.Kernel.Skeleton
import proofs.«900385_g7700000000000386_dist_rmsnorm_colshard_i_m512_n256_v7x_i4_f32_1_alg».proof.Proof.Gen.Kernel.Launch
import proofs.«900385_g7700000000000386_dist_rmsnorm_colshard_i_m512_n256_v7x_i4_f32_1_alg».proof.Proof.Gen.Kernel.Points
import proofs.«900385_g7700000000000386_dist_rmsnorm_colshard_i_m512_n256_v7x_i4_f32_1_alg».proof.Proof.Gen.Kernel.Frame
import Idealize.ShloMosaic.Lib.Pipeline.Launch
import Idealize.ShloMosaic.Lib.Pipeline.Kit
import Idealize.ShloMosaic.Lib.Pipeline.Value
import Idealize.ShloMosaic.Lib.Tactic
import proofs.«900385_g7700000000000386_dist_rmsnorm_colshard_i_m512_n256_v7x_i4_f32_1_alg».proof.Proof.ProtocolK

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The pipeline's proof data -/

theorem cfg0_N : cfg0.N = 1 := by decide
abbrev t₀ : Fin cfg0.N := t0_0
theorem fin_N (t : Fin cfg0.N) : t = t₀ := fin_N0 t

/-- The kernel's result on device `c`: its block of `x` times its block of `gamma`, every row scaled by the reciprocal
    root of the mean of the FOUR devices' partial sums for that row plus epsilon (the generated payloads). -/
def outAt (c : Dev nD) : (cc0_stg2_0 : Ref sig .tc).ty.Contents (Elt F) :=
  k0_pay4 (k0_pay3 (k0_pay1 (xstg m c)) (gstg m c)) (psum m (bwd 0 c)) (psum m (bwd 1 c)) (psum m (bwd 2 c)) (psum m c)

/-- The cells' invariants device `c`'s body opens, under the names `K` the launch allocated them at: its own seven,
    each peer's barrier cell (its signals), each peer's receive cell for the row it copies into. -/
def invs (K : Dev nD × Fin 7 → ℕ) (c : Dev nD) : sProp 𝕄 :=
  iprop(cellInv ER (sched m) (K (c, 0)) (barCell c)
    ∗ cellInv ER (sched m) (K (c, 1)) (sendCell 0 c) ∗ cellInv ER (sched m) (K (c, 2)) (sendCell 1 c) ∗ cellInv ER (sched m) (K (c, 3)) (sendCell 2 c)
    ∗ cellInv ER (sched m) (K (c, 4)) (recvCell 0 c) ∗ cellInv ER (sched m) (K (c, 5)) (recvCell 1 c) ∗ cellInv ER (sched m) (K (c, 6)) (recvCell 2 c)
    ∗ cellInv ER (sched m) (K (fwd 0 c, 0)) (barCell (fwd 0 c)) ∗ cellInv ER (sched m) (K (fwd 1 c, 0)) (barCell (fwd 1 c)) ∗ cellInv ER (sched m) (K (fwd 2 c, 0)) (barCell (fwd 2 c))
    ∗ cellInv ER (sched m) (K (fwd 0 c, 4)) (recvCell 0 (fwd 0 c)) ∗ cellInv ER (sched m) (K (fwd 1 c, 5)) (recvCell 1 (fwd 1 c)) ∗ cellInv ER (sched m) (K (fwd 2 c, 6)) (recvCell 2 (fwd 2 c)))

instance invs_persistent (K : Dev nD × Fin 7 → ℕ) (c : Dev nD) : BI.Persistent (invs m K c) := by unfold invs; infer_instance

/-- Where device `c` stands on its own seven cells: round 0, nothing taken. -/
def posns (c : Dev nD) : sProp 𝕄 :=
  iprop(atPos ER (barCell c) 0 ∅ 0
    ∗ atPos ER (sendCell 0 c) 0 ∅ 0 ∗ atPos ER (sendCell 1 c) 0 ∅ 0 ∗ atPos ER (sendCell 2 c) 0 ∅ 0
    ∗ atPos ER (recvCell 0 c) 0 ∅ 0 ∗ atPos ER (recvCell 1 c) 0 ∅ 0 ∗ atPos ER (recvCell 2 c) 0 ∅ 0)

/-- Round 0 is open on every cell device `c` touches. -/
def marks (c : Dev nD) : sProp 𝕄 :=
  iprop(reached ER (barCell (fwd 0 c)) 0 ∗ reached ER (barCell (fwd 1 c)) 0 ∗ reached ER (barCell (fwd 2 c)) 0
    ∗ reached ER (recvCell 0 (fwd 0 c)) 0 ∗ reached ER (recvCell 1 (fwd 1 c)) 0 ∗ reached ER (recvCell 2 (fwd 2 c)) 0
    ∗ reached ER (sendCell 0 c) 0 ∗ reached ER (sendCell 1 c) 0 ∗ reached ER (sendCell 2 c) 0
    ∗ reached ER (recvCell 0 c) 0 ∗ reached ER (recvCell 1 c) 0 ∗ reached ER (recvCell 2 c) 0)

instance marks_persistent (c : Dev nD) : BI.Persistent (marks (F := F) c) := by unfold marks; infer_instance

/-- The tokens of the nine duties device `c` pays: duty `j` of the barrier cell of the device `j + 1` ahead, the
    receive duty of the row it copies into there, and its own three send duties. -/
def payToks (c : Dev nD) : sProp 𝕄 :=
  iprop(dutyTok ER (barCell (fwd 0 c)) 0 0 ∗ dutyTok ER (barCell (fwd 1 c)) 0 1 ∗ dutyTok ER (barCell (fwd 2 c)) 0 2
    ∗ dutyTok ER (recvCell 0 (fwd 0 c)) 0 0 ∗ dutyTok ER (recvCell 1 (fwd 1 c)) 0 0 ∗ dutyTok ER (recvCell 2 (fwd 2 c)) 0 0
    ∗ dutyTok ER (sendCell 0 c) 0 0 ∗ dutyTok ER (sendCell 1 c) 0 0 ∗ dutyTok ER (sendCell 2 c) 0 0)

def ghost (K : Dev nD × Fin 7 → ℕ) (c : Dev nD) : sProp 𝕄 :=
  iprop(invs m K c ∗ posns c ∗ marks c ∗ payToks c)

/-- The credit with which device `c` waits: three units on its barrier cell, a row's credit on each receive cell. -/
def creds (c : Dev nD) : sProp 𝕄 :=
  iprop(cred (tallyAt (barCell c) () 3) ∗ cred (tallyAt (recvCell 0 c) () N) ∗ cred (tallyAt (recvCell 1 c) () N) ∗ cred (tallyAt (recvCell 2 c) () N))

def start (c : Dev nD) : sProp 𝕄 := iprop((∃ K, ghost m K c) ∗ creds c ∗ levAts L lv)

/-- The exchange buffer whole, at some contents. -/
def scrAny (c : Dev nD) : sProp 𝕄 := iprop(∃ f : Buf (Elt F) ((c : Thread nD τ).loc cc0_scratch0), ((c : Thread nD τ).loc cc0_scratch0) ↦{fullShare} f)

def Φ₀ (c : Dev nD) : sProp 𝕄 := iprop(start m c ∗ scrAny c)
/-- After the point: the exchange buffer whole again, the six own cells at zero, closed. -/
def Φ₁ (c : Dev nD) : sProp 𝕄 :=
  iprop(scrAny c ∗ semVal (sendCell 0 c) 0 ∗ semVal (sendCell 1 c) 0 ∗ semVal (sendCell 2 c) 0
    ∗ semVal (recvCell 0 c) 0 ∗ semVal (recvCell 1 c) 0 ∗ semVal (recvCell 2 c) 0)

def dats (_ : Fin 1) (c : Dev nD) : Dat τ (Elt F) Unit ℕ UU ℕ cfg0 c where
  A w := m ((cfg0.win w).arr.view.loc (c : Thread nD τ))
  after w _ := match w with
    | ⟨0, _⟩ => xstg m c
    | ⟨1, _⟩ => gstg m c
    | ⟨2, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

abbrev 𝒱₀ : Variants := Variants.none

omit [FloatOps F] in
theorem bigSep_W (Φ : Fin cfg0.W → sProp 𝕄) : bigSep Finset.univ Φ = iprop(Φ (0 : Fin 3) ∗ Φ (1 : Fin 3) ∗ Φ (2 : Fin 3)) := bigSep_W0 Φ

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem before_x (c : Dev nD) (d) : (dats m 0 c).before (0 : Fin 3) t₀ d = xstg m c := by
  unfold Dat.before; rw [if_pos (fetch0_0 t₀)]; rfl
theorem before_g (c : Dev nD) (d) : (dats m 0 c).before (1 : Fin 3) t₀ d = gstg m c := by
  unfold Dat.before; rw [if_pos (fetch0_1 t₀)]; rfl

/-! ## The body -/

section Body

variable (K : Dev nD × Fin 7 → ℕ)

def bodyPre (c : Dev nD) : sProp 𝕄 :=
  iprop((ghost m K c ∗ creds c ∗ levAts L lv ∗ scrAny c)
    ∗ (dats m 0 c).owesAt () t₀.castSucc
    ∗ (∃ d, stg c cc0_stg0_0 ((dats m 0 c).before (0 : Fin 3) t₀ d))
    ∗ (∃ d, stg c cc0_stg1_0 ((dats m 0 c).before (1 : Fin 3) t₀ d))
    ∗ (∃ d, stg c cc0_stg2_0 ((dats m 0 c).before (2 : Fin 3) t₀ d)))

def bodyPost (c : Dev nD) : sProp 𝕄 :=
  iprop(Φ₁ c ∗ (dats m 0 c).owesAt () t₀.succ ∗ stg c cc0_stg0_0 (xstg m c) ∗ stg c cc0_stg1_0 (gstg m c) ∗ stg c cc0_stg2_0 (outAt m c))

omit [FloatOps F] in
theorem bigSep_fin4 (Φ : Fin 4 → sProp 𝕄) : bigSep Finset.univ Φ = iprop(Φ 0 ∗ Φ 1 ∗ Φ 2 ∗ Φ 3) := bigSep_univ_eq_bigSepL [0, 1, 2, 3] (by decide) (by decide) Φ

omit [FloatOps F] in
/-- The exchange buffer whole is its four rows. -/
theorem scr_rows (c : Dev nD) (q : PosShare TreeShare) (f : Buf (Elt F) ((c : Thread nD τ).loc cc0_scratch0)) :
    ((((c : Thread nD τ).loc cc0_scratch0) ↦{q} f : sProp 𝕄)) = iprop(rowPts c 0 q f ∗ rowPts c 1 q f ∗ rowPts c 2 q f ∗ rowPts c 3 q f) := by
  unfold rowPts
  have h := pointsTo_biUnion (Ix := Unit) (Name := ℕ) (U := UU) (Lvl := ℕ) (ℓ := ((c : Thread nD τ).loc cc0_scratch0)) (q := q) (f := f) Finset.univ rowSet
    (fun _ _ _ _ h => rowSet_disjoint h)
  rw [rowSet_cover] at h
  rw [h, bigSep_fin4]

/-- What the barrier wait brings: row `j` of the device `j + 1` ahead, and that its receive cell `j` is open, for each `j`. -/
theorem rest_bar' (c : Dev nD) : bigSep ((sched (F := F) m).duties (barCell c) 0 \ ∅) (fun d => (sched (F := F) m).payload (barCell c) 0 d)
    = iprop(((∃ f, rowPts (fwd 2 c) 2 fullShare f) ∗ reached ER (recvCell 2 (fwd 2 c)) 0)
        ∗ ((∃ f, rowPts (fwd 1 c) 1 fullShare f) ∗ reached ER (recvCell 1 (fwd 1 c)) 0)
        ∗ ((∃ f, rowPts (fwd 0 c) 0 fullShare f) ∗ reached ER (recvCell 0 (fwd 0 c)) 0)) := by
  rw [rest_bar]; unfold barPay
  rw [← bwd_rev 2 c, ← bwd_rev 1 c, ← bwd_rev 0 c]; rfl

omit [FloatOps F] in
theorem hz2 : (![0, 0] : Fin 2 → Nat) = fun _ => 0 := funext fun a => by fin_cases a <;> rfl
omit [FloatOps F] in
theorem hz1 : (![0] : Fin 1 → Nat) = fun _ => 0 := funext fun a => by fin_cases a; rfl

abbrev rX : Rect S512x256 := Rect.unit (s := S512x256) ![0, 0] S512x256.size inb_S512x256_S512x256_0_0
abbrev rG : Rect S256 := Rect.unit (s := S256) ![0] S256.size inb_S256_S256_0

omit [FloatOps F] in
theorem read_x (f : (cc0_stg0_0 : Ref sig .tc).ty.Contents (Elt F)) : xM.view.readAt (Elt F) rX.toLoadRect f = f :=
  Memref.readAt_unit_zero (Elt F) cc0_stg0_0 hz2 _ f
omit [FloatOps F] in
theorem read_g (f : (cc0_stg1_0 : Ref sig .tc).ty.Contents (Elt F)) : gM.view.readAt (Elt F) rG.toLoadRect f = f :=
  Memref.readAt_unit_zero (Elt F) cc0_stg1_0 hz1 _ f
omit [FloatOps F] in
theorem write_out (f w : (cc0_stg2_0 : Ref sig .tc).ty.Contents (Elt F)) :
    ((oM : Memref sig .tc .vmem S512x256 .f32).access rX : View sig .tc _ _ _).write (Elt F) f w Finset.univ = w :=
  Memref.write_access_unit_zero_univ (Elt F) cc0_stg2_0 hz2 _ f w

/-- What the barrier wait brings, row by row (ownership spelt out). -/
theorem rest_bar'' (c : Dev nD) : bigSep ((sched (F := F) m).duties (barCell c) 0 \ ∅) (fun d => (sched (F := F) m).payload (barCell c) 0 d)
    = iprop(((∃ f, ((fwd 2 c : Thread nD τ).loc cc0_scratch0) ↦[rowSet 2]{fullShare} f) ∗ reached ER (recvCell 2 (fwd 2 c)) 0)
        ∗ ((∃ f, ((fwd 1 c : Thread nD τ).loc cc0_scratch0) ↦[rowSet 1]{fullShare} f) ∗ reached ER (recvCell 1 (fwd 1 c)) 0)
        ∗ ((∃ f, ((fwd 0 c : Thread nD τ).loc cc0_scratch0) ↦[rowSet 0]{fullShare} f) ∗ reached ER (recvCell 0 (fwd 0 c)) 0)) := by
  rw [rest_bar']; rfl

theorem rest_recv0' (c : Dev nD) : bigSep ((sched (F := F) m).duties (recvCell 0 c) 0 \ ∅) (fun d => (sched (F := F) m).payload (recvCell 0 c) 0 d)
    = (((c : Thread nD τ).loc cc0_scratch0) ↦[rowSet 0]{fullShare} comm m c : sProp 𝕄) := by
  rw [rest_recv]; rfl
theorem rest_send0' (c : Dev nD) : bigSep ((sched (F := F) m).duties (sendCell 0 c) 0 \ ∅) (fun d => (sched (F := F) m).payload (sendCell 0 c) 0 d)
    = (((c : Thread nD τ).loc cc0_scratch0) ↦[rowSet 3]{fullShare.left.left} comm m c : sProp 𝕄) := by
  rw [rest_send]; rfl

theorem rest_recv1' (c : Dev nD) : bigSep ((sched (F := F) m).duties (recvCell 1 c) 0 \ ∅) (fun d => (sched (F := F) m).payload (recvCell 1 c) 0 d)
    = (((c : Thread nD τ).loc cc0_scratch0) ↦[rowSet 1]{fullShare} comm m c : sProp 𝕄) := by
  rw [rest_recv]; rfl
theorem rest_send1' (c : Dev nD) : bigSep ((sched (F := F) m).duties (sendCell 1 c) 0 \ ∅) (fun d => (sched (F := F) m).payload (sendCell 1 c) 0 d)
    = (((c : Thread nD τ).loc cc0_scratch0) ↦[rowSet 3]{fullShare.left.right} comm m c : sProp 𝕄) := by
  rw [rest_send]; rfl

theorem rest_recv2' (c : Dev nD) : bigSep ((sched (F := F) m).duties (recvCell 2 c) 0 \ ∅) (fun d => (sched (F := F) m).payload (recvCell 2 c) 0 d)
    = (((c : Thread nD τ).loc cc0_scratch0) ↦[rowSet 2]{fullShare} comm m c : sProp 𝕄) := by
  rw [rest_recv]; rfl
theorem rest_send2' (c : Dev nD) : bigSep ((sched (F := F) m).duties (sendCell 2 c) 0 \ ∅) (fun d => (sched (F := F) m).payload (sendCell 2 c) 0 d)
    = (((c : Thread nD τ).loc cc0_scratch0) ↦[rowSet 3]{fullShare.right.left} comm m c : sProp 𝕄) := by
  rw [rest_send]; rfl

set_option maxHeartbeats 1600000 in
/-- The copy 1 place(s) ahead: `Rounds.wp_send_pointsTo` at send cell 0 and the receiver's receive cell 0, reading row 3 at its
    share for this copy and landing in the receiver's row 0 (addressed to `n = fwd 0 c`, substituted). -/
theorem wp_send0_core (c n : Dev nD) (hn : n = fwd 0 c)
    {hsc : (rowM 0 : Memref sig (Dev.tc n : Thread nD τ).2.kind .vmem S512 .f32).view.ref.isScScratch = false}
    {hsrc : (rowM 3).view.WordExact} {hdst : (rowM 0).view.WordExact}
    {hsem : DmaTarget.Typed .vmem (.dma (recvS 0)) (.remote (Dev.tc n : Thread nD τ) (rowM 0) (.dma (sendS 0)) hsc)}
    {α : Type} {Q : α → sProp 𝕄} {k : PUnit → Prog (TpuEff nD τ sig (Elt F) Λ₀ .tc) α}
    (fn : Buf (Elt F) ((fwd 0 c : Thread nD τ).loc cc0_scratch0)) (O : CellTallies nD τ sig Unit) (W : Waits sig Unit) :
    iprop(cellInv ER (sched m) (K (c, 1)) (sendCell 0 c) ∗ cellInv ER (sched m) (K (fwd 0 c, 4)) (recvCell 0 (fwd 0 c))
        ∗ ((rowM 3).view.loc (c : Thread nD τ) ↦[(rowM 3).view.set]{qs 0} comm m c)
        ∗ ((rowM 0).view.loc (fwd 0 c : Thread nD τ) ↦[(rowM 0).view.set]{fullShare} fn)
        ∗ owes (c : Thread nD τ) (O + tallyAt (recvCell 0 (fwd 0 c)) () N) W
        ∗ dutyTok ER (sendCell 0 c) 0 0 ∗ reached ER (sendCell 0 c) 0
        ∗ dutyTok ER (recvCell 0 (fwd 0 c)) 0 0 ∗ reached ER (recvCell 0 (fwd 0 c)) 0)
      ⊢ iprop(((cred (tallyAt (sendCell 0 c) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (rowM 3) (.remote (Dev.tc n : Thread nD τ) (rowM 0) (.dma (sendS 0)) hsc) (.dma (recvS 0)) hsrc hdst hsem) k) Q) := by
  subst hn
  exact Rounds.wp_send_pointsTo 𝒱₀ ER (sched m) (c : Thread nD τ) none (c' := (fwd 0 c : Thread nD τ)) (src := rowM 3) (dst := rowM 0)
    (q := qs 0) (fs := comm m c) (κ₁ := K (c, 1)) (κ₂ := K (fwd 0 c, 4))
    (r₁ := 0) (r₂ := 0) (d₁ := 0) (d₂ := 0) (fd := fn)
    (by rw [duties_send]; exact Finset.mem_singleton_self _) (by rw [duties_recv]; exact Finset.mem_singleton_self _)
    () () N rfl (amount_send m c 0 0) (amount_recv m (fwd 0 c) 0 0) O rfl (W := W)
    (by rw [payload_send]; unfold sendPay rowPts; rw [← rowM_set3])
    (by
      rw [payload_recv]; unfold recvPay rowPts
      refine Entails.of_eq ?_
      rw [rowM_set0]
      exact pointsTo_congr (land_eq0 m c fn))

set_option maxHeartbeats 1600000 in
/-- The same over the rows as the body's proof holds them. -/
theorem wp_send0 (c n : Dev nD) (hn : n = fwd 0 c)
    {hsc : (rowM 0 : Memref sig (Dev.tc n : Thread nD τ).2.kind .vmem S512 .f32).view.ref.isScScratch = false}
    {hsrc : (rowM 3).view.WordExact} {hdst : (rowM 0).view.WordExact}
    {hsem : DmaTarget.Typed .vmem (.dma (recvS 0)) (.remote (Dev.tc n : Thread nD τ) (rowM 0) (.dma (sendS 0)) hsc)}
    {α : Type} {Q : α → sProp 𝕄} {k : PUnit → Prog (TpuEff nD τ sig (Elt F) Λ₀ .tc) α}
    (fn : Buf (Elt F) ((fwd 0 c : Thread nD τ).loc cc0_scratch0)) (O : CellTallies nD τ sig Unit) (W : Waits sig Unit) :
    iprop(cellInv ER (sched m) (K (c, 1)) (sendCell 0 c) ∗ cellInv ER (sched m) (K (fwd 0 c, 4)) (recvCell 0 (fwd 0 c))
        ∗ (((c : Thread nD τ).loc cc0_scratch0) ↦[rowSet 3]{fullShare.left.left} comm m c)
        ∗ (((fwd 0 c : Thread nD τ).loc cc0_scratch0) ↦[rowSet 0]{fullShare} fn)
        ∗ owes (c : Thread nD τ) (O + tR 0 c) W
        ∗ dutyTok ER (sendCell 0 c) 0 0 ∗ reached ER (sendCell 0 c) 0
        ∗ dutyTok ER (recvCell 0 (fwd 0 c)) 0 0 ∗ reached ER (recvCell 0 (fwd 0 c)) 0)
      ⊢ iprop(((cred (tallyAt (sendCell 0 c) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (rowM 3) (.remote (Dev.tc n : Thread nD τ) (rowM 0) (.dma (sendS 0)) hsc) (.dma (recvS 0)) hsrc hdst hsem) k) Q) := by
  have e1 : ((((c : Thread nD τ).loc cc0_scratch0) ↦[rowSet 3]{fullShare.left.left} comm m c) : sProp 𝕄) = ((rowM 3).view.loc (c : Thread nD τ) ↦[(rowM 3).view.set]{qs 0} comm m c) := by
    rw [rowM_set3]
  have e2 : ((((fwd 0 c : Thread nD τ).loc cc0_scratch0) ↦[rowSet 0]{fullShare} fn) : sProp 𝕄) = ((rowM 0).view.loc (fwd 0 c : Thread nD τ) ↦[(rowM 0).view.set]{fullShare} fn) := by
    rw [rowM_set0]
  rw [e1, e2]; unfold tR
  exact wp_send0_core m K c n hn fn O W

set_option maxHeartbeats 1600000 in
/-- The copy 2 place(s) ahead: `Rounds.wp_send_pointsTo` at send cell 1 and the receiver's receive cell 1, reading row 3 at its
    share for this copy and landing in the receiver's row 1 (addressed to `n = fwd 1 c`, substituted). -/
theorem wp_send1_core (c n : Dev nD) (hn : n = fwd 1 c)
    {hsc : (rowM 1 : Memref sig (Dev.tc n : Thread nD τ).2.kind .vmem S512 .f32).view.ref.isScScratch = false}
    {hsrc : (rowM 3).view.WordExact} {hdst : (rowM 1).view.WordExact}
    {hsem : DmaTarget.Typed .vmem (.dma (recvS 1)) (.remote (Dev.tc n : Thread nD τ) (rowM 1) (.dma (sendS 1)) hsc)}
    {α : Type} {Q : α → sProp 𝕄} {k : PUnit → Prog (TpuEff nD τ sig (Elt F) Λ₀ .tc) α}
    (fn : Buf (Elt F) ((fwd 1 c : Thread nD τ).loc cc0_scratch0)) (O : CellTallies nD τ sig Unit) (W : Waits sig Unit) :
    iprop(cellInv ER (sched m) (K (c, 2)) (sendCell 1 c) ∗ cellInv ER (sched m) (K (fwd 1 c, 5)) (recvCell 1 (fwd 1 c))
        ∗ ((rowM 3).view.loc (c : Thread nD τ) ↦[(rowM 3).view.set]{qs 1} comm m c)
        ∗ ((rowM 1).view.loc (fwd 1 c : Thread nD τ) ↦[(rowM 1).view.set]{fullShare} fn)
        ∗ owes (c : Thread nD τ) (O + tallyAt (recvCell 1 (fwd 1 c)) () N) W
        ∗ dutyTok ER (sendCell 1 c) 0 0 ∗ reached ER (sendCell 1 c) 0
        ∗ dutyTok ER (recvCell 1 (fwd 1 c)) 0 0 ∗ reached ER (recvCell 1 (fwd 1 c)) 0)
      ⊢ iprop(((cred (tallyAt (sendCell 1 c) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (rowM 3) (.remote (Dev.tc n : Thread nD τ) (rowM 1) (.dma (sendS 1)) hsc) (.dma (recvS 1)) hsrc hdst hsem) k) Q) := by
  subst hn
  exact Rounds.wp_send_pointsTo 𝒱₀ ER (sched m) (c : Thread nD τ) none (c' := (fwd 1 c : Thread nD τ)) (src := rowM 3) (dst := rowM 1)
    (q := qs 1) (fs := comm m c) (κ₁ := K (c, 2)) (κ₂ := K (fwd 1 c, 5))
    (r₁ := 0) (r₂ := 0) (d₁ := 0) (d₂ := 0) (fd := fn)
    (by rw [duties_send]; exact Finset.mem_singleton_self _) (by rw [duties_recv]; exact Finset.mem_singleton_self _)
    () () N rfl (amount_send m c 1 0) (amount_recv m (fwd 1 c) 1 0) O rfl (W := W)
    (by rw [payload_send]; unfold sendPay rowPts; rw [← rowM_set3])
    (by
      rw [payload_recv]; unfold recvPay rowPts
      refine Entails.of_eq ?_
      rw [rowM_set1]
      exact pointsTo_congr (land_eq1 m c fn))

set_option maxHeartbeats 1600000 in
/-- The same over the rows as the body's proof holds them. -/
theorem wp_send1 (c n : Dev nD) (hn : n = fwd 1 c)
    {hsc : (rowM 1 : Memref sig (Dev.tc n : Thread nD τ).2.kind .vmem S512 .f32).view.ref.isScScratch = false}
    {hsrc : (rowM 3).view.WordExact} {hdst : (rowM 1).view.WordExact}
    {hsem : DmaTarget.Typed .vmem (.dma (recvS 1)) (.remote (Dev.tc n : Thread nD τ) (rowM 1) (.dma (sendS 1)) hsc)}
    {α : Type} {Q : α → sProp 𝕄} {k : PUnit → Prog (TpuEff nD τ sig (Elt F) Λ₀ .tc) α}
    (fn : Buf (Elt F) ((fwd 1 c : Thread nD τ).loc cc0_scratch0)) (O : CellTallies nD τ sig Unit) (W : Waits sig Unit) :
    iprop(cellInv ER (sched m) (K (c, 2)) (sendCell 1 c) ∗ cellInv ER (sched m) (K (fwd 1 c, 5)) (recvCell 1 (fwd 1 c))
        ∗ (((c : Thread nD τ).loc cc0_scratch0) ↦[rowSet 3]{fullShare.left.right} comm m c)
        ∗ (((fwd 1 c : Thread nD τ).loc cc0_scratch0) ↦[rowSet 1]{fullShare} fn)
        ∗ owes (c : Thread nD τ) (O + tR 1 c) W
        ∗ dutyTok ER (sendCell 1 c) 0 0 ∗ reached ER (sendCell 1 c) 0
        ∗ dutyTok ER (recvCell 1 (fwd 1 c)) 0 0 ∗ reached ER (recvCell 1 (fwd 1 c)) 0)
      ⊢ iprop(((cred (tallyAt (sendCell 1 c) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (rowM 3) (.remote (Dev.tc n : Thread nD τ) (rowM 1) (.dma (sendS 1)) hsc) (.dma (recvS 1)) hsrc hdst hsem) k) Q) := by
  have e1 : ((((c : Thread nD τ).loc cc0_scratch0) ↦[rowSet 3]{fullShare.left.right} comm m c) : sProp 𝕄) = ((rowM 3).view.loc (c : Thread nD τ) ↦[(rowM 3).view.set]{qs 1} comm m c) := by
    rw [rowM_set3]
  have e2 : ((((fwd 1 c : Thread nD τ).loc cc0_scratch0) ↦[rowSet 1]{fullShare} fn) : sProp 𝕄) = ((rowM 1).view.loc (fwd 1 c : Thread nD τ) ↦[(rowM 1).view.set]{fullShare} fn) := by
    rw [rowM_set1]
  rw [e1, e2]; unfold tR
  exact wp_send1_core m K c n hn fn O W

set_option maxHeartbeats 1600000 in
/-- The copy 3 place(s) ahead: `Rounds.wp_send_pointsTo` at send cell 2 and the receiver's receive cell 2, reading row 3 at its
    share for this copy and landing in the receiver's row 2 (addressed to `n = fwd 2 c`, substituted). -/
theorem wp_send2_core (c n : Dev nD) (hn : n = fwd 2 c)
    {hsc : (rowM 2 : Memref sig (Dev.tc n : Thread nD τ).2.kind .vmem S512 .f32).view.ref.isScScratch = false}
    {hsrc : (rowM 3).view.WordExact} {hdst : (rowM 2).view.WordExact}
    {hsem : DmaTarget.Typed .vmem (.dma (recvS 2)) (.remote (Dev.tc n : Thread nD τ) (rowM 2) (.dma (sendS 2)) hsc)}
    {α : Type} {Q : α → sProp 𝕄} {k : PUnit → Prog (TpuEff nD τ sig (Elt F) Λ₀ .tc) α}
    (fn : Buf (Elt F) ((fwd 2 c : Thread nD τ).loc cc0_scratch0)) (O : CellTallies nD τ sig Unit) (W : Waits sig Unit) :
    iprop(cellInv ER (sched m) (K (c, 3)) (sendCell 2 c) ∗ cellInv ER (sched m) (K (fwd 2 c, 6)) (recvCell 2 (fwd 2 c))
        ∗ ((rowM 3).view.loc (c : Thread nD τ) ↦[(rowM 3).view.set]{qs 2} comm m c)
        ∗ ((rowM 2).view.loc (fwd 2 c : Thread nD τ) ↦[(rowM 2).view.set]{fullShare} fn)
        ∗ owes (c : Thread nD τ) (O + tallyAt (recvCell 2 (fwd 2 c)) () N) W
        ∗ dutyTok ER (sendCell 2 c) 0 0 ∗ reached ER (sendCell 2 c) 0
        ∗ dutyTok ER (recvCell 2 (fwd 2 c)) 0 0 ∗ reached ER (recvCell 2 (fwd 2 c)) 0)
      ⊢ iprop(((cred (tallyAt (sendCell 2 c) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (rowM 3) (.remote (Dev.tc n : Thread nD τ) (rowM 2) (.dma (sendS 2)) hsc) (.dma (recvS 2)) hsrc hdst hsem) k) Q) := by
  subst hn
  exact Rounds.wp_send_pointsTo 𝒱₀ ER (sched m) (c : Thread nD τ) none (c' := (fwd 2 c : Thread nD τ)) (src := rowM 3) (dst := rowM 2)
    (q := qs 2) (fs := comm m c) (κ₁ := K (c, 3)) (κ₂ := K (fwd 2 c, 6))
    (r₁ := 0) (r₂ := 0) (d₁ := 0) (d₂ := 0) (fd := fn)
    (by rw [duties_send]; exact Finset.mem_singleton_self _) (by rw [duties_recv]; exact Finset.mem_singleton_self _)
    () () N rfl (amount_send m c 2 0) (amount_recv m (fwd 2 c) 2 0) O rfl (W := W)
    (by rw [payload_send]; unfold sendPay rowPts; rw [← rowM_set3])
    (by
      rw [payload_recv]; unfold recvPay rowPts
      refine Entails.of_eq ?_
      rw [rowM_set2]
      exact pointsTo_congr (land_eq2 m c fn))

set_option maxHeartbeats 1600000 in
/-- The same over the rows as the body's proof holds them. -/
theorem wp_send2 (c n : Dev nD) (hn : n = fwd 2 c)
    {hsc : (rowM 2 : Memref sig (Dev.tc n : Thread nD τ).2.kind .vmem S512 .f32).view.ref.isScScratch = false}
    {hsrc : (rowM 3).view.WordExact} {hdst : (rowM 2).view.WordExact}
    {hsem : DmaTarget.Typed .vmem (.dma (recvS 2)) (.remote (Dev.tc n : Thread nD τ) (rowM 2) (.dma (sendS 2)) hsc)}
    {α : Type} {Q : α → sProp 𝕄} {k : PUnit → Prog (TpuEff nD τ sig (Elt F) Λ₀ .tc) α}
    (fn : Buf (Elt F) ((fwd 2 c : Thread nD τ).loc cc0_scratch0)) (O : CellTallies nD τ sig Unit) (W : Waits sig Unit) :
    iprop(cellInv ER (sched m) (K (c, 3)) (sendCell 2 c) ∗ cellInv ER (sched m) (K (fwd 2 c, 6)) (recvCell 2 (fwd 2 c))
        ∗ (((c : Thread nD τ).loc cc0_scratch0) ↦[rowSet 3]{fullShare.right.left} comm m c)
        ∗ (((fwd 2 c : Thread nD τ).loc cc0_scratch0) ↦[rowSet 2]{fullShare} fn)
        ∗ owes (c : Thread nD τ) (O + tR 2 c) W
        ∗ dutyTok ER (sendCell 2 c) 0 0 ∗ reached ER (sendCell 2 c) 0
        ∗ dutyTok ER (recvCell 2 (fwd 2 c)) 0 0 ∗ reached ER (recvCell 2 (fwd 2 c)) 0)
      ⊢ iprop(((cred (tallyAt (sendCell 2 c) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (rowM 3) (.remote (Dev.tc n : Thread nD τ) (rowM 2) (.dma (sendS 2)) hsc) (.dma (recvS 2)) hsrc hdst hsem) k) Q) := by
  have e1 : ((((c : Thread nD τ).loc cc0_scratch0) ↦[rowSet 3]{fullShare.right.left} comm m c) : sProp 𝕄) = ((rowM 3).view.loc (c : Thread nD τ) ↦[(rowM 3).view.set]{qs 2} comm m c) := by
    rw [rowM_set3]
  have e2 : ((((fwd 2 c : Thread nD τ).loc cc0_scratch0) ↦[rowSet 2]{fullShare} fn) : sProp 𝕄) = ((rowM 2).view.loc (fwd 2 c : Thread nD τ) ↦[(rowM 2).view.set]{fullShare} fn) := by
    rw [rowM_set2]
  rw [e1, e2]; unfold tR
  exact wp_send2_core m K c n hn fn O W

set_option maxHeartbeats 4000000 in
/-- The body, run from `bodyPre` one rule per effect in program order, to `bodyPost`. -/
theorem sound_body (c : Dev nD) (Kt : PUnit → sProp 𝕄) :
    iprop(bodyPre m K c ∗ (bodyPost m c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _) (Memref.whole cc0_scratch0) (Memref.isWhole_whole _) cc0_scratch1 cc0_scratch2) Kt := by
  simp only [cc0_body_eq_skeleton]; unfold cc0_body_skel
  simp only [k0_part1_eq_skeleton, k0_part2_eq_skeleton, k0_part3_eq_skeleton, k0_part4_eq_skeleton, k0_part5_eq_skeleton]
  unfold k0_part1_skel k0_part2_skel k0_part3_skel k0_part4_skel k0_part5_skel
  simp only [semSignalWord, semWaitWord, Prog.lift, Prog.bind_op, Prog.bind_ret, Prog.pure_eq_ret, wp_deviceId]
  unfold bodyPre ghost invs posns marks payToks creds scrAny
  iintro ⟨⟨⟨⟨⟨#HIbar, #HIs0, #HIs1, #HIs2, #HIr0, #HIr1, #HIr2, #HIb0, #HIb1, #HIb2, #HIv0, #HIv1, #HIv2⟩,
      ⟨HatB, HatS0, HatS1, HatS2, HatV0, HatV1, HatV2⟩,
      ⟨#HrB0, #HrB1, #HrB2, #HrV0, #HrV1, #HrV2, #HrS0, #HrS1, #HrS2, #HrR0, #HrR1, #HrR2⟩,
      ⟨HtB0, HtB1, HtB2, HtV0, HtV1, HtV2, HtS0, HtS1, HtS2⟩⟩,
      ⟨HcB, HcV0, HcV1, HcV2⟩, #Hlev, ⟨%f0, Hscr⟩⟩,
    Ho, ⟨%d0, %g0, %hg0, Hx⟩, ⟨%d1, %g1, %hg1, Hg⟩, ⟨%d2, %g2, %hg2, Hout⟩⟩, Hk⟩
  rw [before_x] at hg0; subst hg0
  rw [before_g] at hg1; subst hg1
  unfold Dat.owesAt Pipeline.owesWithin
  icases Ho with ⟨%W, %hW, HO⟩
  rw [show (dats m 0 c).owed t₀.castSucc = O₀ c from rfl]
  simp only [dev1_eq c, dev2_eq c, dev3_eq c]
  ihave Hrows := (Entails.of_eq (scr_rows (F := F) c fullShare f0)) $$ Hscr
  icases Hrows with ⟨Hrow0, Hrow1, Hrow2, Hrow3⟩
  unfold rowPts
  unfold O₀
  -- the signal 1 place ahead: its duty 0, handing over this device's row 2 and that receive cell 2 is open
  iapply (Rounds.wp_signal 𝒱₀ ER (sched m) (c : Thread nD τ) none (dst := (fwd 0 c : Thread nD τ)) (κ := K (fwd 0 c, 0))
      (d := 0) (by rw [duties_bar]; exact Finset.mem_univ _) ((amount_bar m (fwd 0 c) 0).trans (by decide)) () (OR c + tB 2 c + tB 1 c) rfl)
    $$ [HO HtB0 Hrow2]
  · isplitr; · iexact HIb0
    isplitl [HO]; · iexact HO
    isplitl [HtB0]; · iexact HtB0
    isplitl [Hrow2]
    · rw [payload_bar]; unfold barPay rowPts; rw [bwd_fwd]
      isplitl [Hrow2]; · iexists f0; iexact Hrow2
      iexact HrR2
    · iexact HrB0
  iintro HO
  -- 2 places ahead: duty 1, row 1
  iapply (Rounds.wp_signal 𝒱₀ ER (sched m) (c : Thread nD τ) none (dst := (fwd 1 c : Thread nD τ)) (κ := K (fwd 1 c, 0))
      (d := 1) (by rw [duties_bar]; exact Finset.mem_univ _) ((amount_bar m (fwd 1 c) 1).trans (by decide)) () (OR c + tB 2 c) rfl)
    $$ [HO HtB1 Hrow1]
  · isplitr; · iexact HIb1
    isplitl [HO]; · iexact HO
    isplitl [HtB1]; · iexact HtB1
    isplitl [Hrow1]
    · rw [payload_bar]; unfold barPay rowPts; rw [bwd_fwd]
      isplitl [Hrow1]; · iexists f0; iexact Hrow1
      iexact HrR1
    · iexact HrB1
  iintro HO
  -- 3 places ahead: duty 2, row 0
  iapply (Rounds.wp_signal 𝒱₀ ER (sched m) (c : Thread nD τ) none (dst := (fwd 2 c : Thread nD τ)) (κ := K (fwd 2 c, 0))
      (d := 2) (by rw [duties_bar]; exact Finset.mem_univ _) ((amount_bar m (fwd 2 c) 2).trans (by decide)) () (OR c) rfl)
    $$ [HO HtB2 Hrow0]
  · isplitr; · iexact HIb2
    isplitl [HO]; · iexact HO
    isplitl [HtB2]; · iexact HtB2
    isplitl [Hrow0]
    · rw [payload_bar]; unfold barPay rowPts; rw [bwd_fwd]
      isplitl [Hrow0]; · iexists f0; iexact Hrow0
      iexact HrR0
    · iexact HrB2
  iintro HO
  -- the block of x; row 3 read (unused) and overwritten with this device's partial sums
  iapply (wp_load 𝒱₀ (c : Thread nD τ) none Set.univ (m := xM) (Finset.subset_univ _)) $$ Hx; iintro Hx
  rw [read_x]
  iapply (wp_load 𝒱₀ (c : Thread nD τ) none Set.univ (m := sM) (r := (rk 3).toLoadRect) (S := rowSet 3) (by rw [rowSet_eq])) $$ Hrow3; iintro Hrow3
  iapply (wp_store 𝒱₀ (c : Thread nD τ) none Set.univ (m := sM) (r := rk 3) (Mk := Finset.univ) (S := rowSet 3)
    (by rw [View.setOn_univ]; exact (aV_set 3).le)) $$ Hrow3; iintro Hrow3
  ihave Hrow3 := (Entails.of_eq (pointsTo_congr (fun i hi => (comm_at3 m c hi f0).symm))) $$ Hrow3
  -- the WAIT for 3 on the barrier cell, owing the three receive credits: each peer's row comes with it
  iapply (Rounds.wp_wait_rest_token 𝒱₀ ER (sched m) (c : Thread nD τ) none (κ := K (c, 0))
      (wpE_semWait_eq 𝒱₀ (c : Thread nD τ) none Set.univ) (Set.mem_univ _) () (O := OR c) (W := W) (R := 0) (m := 0) (T := ∅)
      (by rw [expect_bar]; decide)) $$ [HcB HO HatB]
  · isplitr; · iexact HIbar
    isplitl [HcB]; · iexact HcB
    isplitl [HO]; · iexact HO
    isplitr; · iapply (mayWait_bar c); iexact Hlev
    iexact HatB
  iintro ⟨HO, HatB, -, Hpay⟩
  ihave Hp := (Entails.of_eq (rest_bar'' m c)) $$ Hpay
  icases Hp with ⟨⟨⟨%fn2, Hn2⟩, -⟩, ⟨⟨%fn1, Hn1⟩, -⟩, ⟨⟨%fn0, Hn0⟩, -⟩⟩
  -- row 3 in four quarter shares: one per copy, one kept for this device's own read
  ihave Hh := (pointsTo_share (PosShare.mem_left_op_right fullShare)).1 $$ Hrow3
  icases Hh with ⟨HL, HR⟩
  ihave Hh := (pointsTo_share (PosShare.mem_left_op_right fullShare.left)).1 $$ HL
  icases Hh with ⟨Hq0, Hq1⟩
  ihave Hh := (pointsTo_share (PosShare.mem_left_op_right fullShare.right)).1 $$ HR
  icases Hh with ⟨Hq2, Hqk⟩
  unfold OR
  -- the copy 2 places ahead (row 1, cells 1)
  iapply (wp_send1 m K c _ (dev4_eq c) fn1 (tR 2 c + tR 0 c) (insert (SemLoc.reg barS, ()) W)) $$ [Hq1 Hn1 HO HtS1 HtV1]
  · isplitr; · iexact HIs1
    isplitr; · iexact HIv1
    isplitl [Hq1]; · iexact Hq1
    isplitl [Hn1]; · iexact Hn1
    isplitl [HO]; · iexact HO
    isplitl [HtS1]; · iexact HtS1
    isplitr; · iexact HrS1
    isplitl [HtV1]; · iexact HtV1
    iexact HrV1
  iintro ⟨HcS1, HO⟩
  -- 1 place ahead (row 0, cells 0)
  iapply (wp_send0 m K c _ (dev5_eq c) fn0 (tR 2 c) (insert (SemLoc.reg barS, ()) W)) $$ [Hq0 Hn0 HO HtS0 HtV0]
  · isplitr; · iexact HIs0
    isplitr; · iexact HIv0
    isplitl [Hq0]; · iexact Hq0
    isplitl [Hn0]; · iexact Hn0
    isplitl [HO]; · iexact HO
    isplitl [HtS0]; · iexact HtS0
    isplitr; · iexact HrS0
    isplitl [HtV0]; · iexact HtV0
    iexact HrV0
  iintro ⟨HcS0, HO⟩
  -- 3 places ahead (row 2, cells 2)
  iapply (wp_send2 m K c _ (dev6_eq c) fn2 0 (insert (SemLoc.reg barS, ()) W)) $$ [Hq2 Hn2 HO HtS2 HtV2]
  · isplitr; · iexact HIs2
    isplitr; · iexact HIv2
    isplitl [Hq2]; · iexact Hq2
    isplitl [Hn2]; · iexact Hn2
    isplitl [HO]; · rw [zero_add]; iexact HO
    isplitl [HtS2]; · iexact HtS2
    isplitr; · iexact HrS2
    isplitl [HtV2]; · iexact HtV2
    iexact HrV2
  iintro ⟨HcS2, HO⟩
  -- the block of gamma
  iapply (wp_load 𝒱₀ (c : Thread nD τ) none Set.univ (m := gM) (Finset.subset_univ _)) $$ Hg; iintro Hg
  rw [read_g]
  -- the three receive waits (rows 1, 0, 2): each row comes holding its sender's partial sums

  iapply (Rounds.wp_wait_rest_token 𝒱₀ ER (sched m) (c : Thread nD τ) none (κ := K (c, 5))
      (sm := SemLoc.dma (recvS 1)) (wpE_waitDma2_eq 𝒱₀ (c : Thread nD τ) none Set.univ) (Set.mem_univ _) () (O := 0) (W := insert (SemLoc.reg barS, ()) W) (R := 0) (m := 0) (T := ∅)
      (by rw [Nat.zero_add]; exact ((expect_recv m c 1).trans (by decide)).symm)) $$ [HcV1 HO HatV1]
  · isplitr; · iexact HIr1
    isplitl [HcV1]; · iexact HcV1
    isplitl [HO]; · iexact HO
    isplitr; · rw [MayWait_zero]; iempintro
    iexact HatV1
  iintro ⟨HO, HatV1, -, Hpay⟩
  ihave Hrow1 := (Entails.of_eq (rest_recv1' m c)) $$ Hpay

  iapply (Rounds.wp_wait_rest_token 𝒱₀ ER (sched m) (c : Thread nD τ) none (κ := K (c, 4))
      (sm := SemLoc.dma (recvS 0)) (wpE_waitDma2_eq 𝒱₀ (c : Thread nD τ) none Set.univ) (Set.mem_univ _) () (O := 0) (W := insert (SemLoc.dma (recvS 1), ()) (insert (SemLoc.reg barS, ()) W)) (R := 0) (m := 0) (T := ∅)
      (by rw [Nat.zero_add]; exact ((expect_recv m c 0).trans (by decide)).symm)) $$ [HcV0 HO HatV0]
  · isplitr; · iexact HIr0
    isplitl [HcV0]; · iexact HcV0
    isplitl [HO]; · iexact HO
    isplitr; · rw [MayWait_zero]; iempintro
    iexact HatV0
  iintro ⟨HO, HatV0, -, Hpay⟩
  ihave Hrow0 := (Entails.of_eq (rest_recv0' m c)) $$ Hpay

  iapply (Rounds.wp_wait_rest_token 𝒱₀ ER (sched m) (c : Thread nD τ) none (κ := K (c, 6))
      (sm := SemLoc.dma (recvS 2)) (wpE_waitDma2_eq 𝒱₀ (c : Thread nD τ) none Set.univ) (Set.mem_univ _) () (O := 0) (W := insert (SemLoc.dma (recvS 0), ()) (insert (SemLoc.dma (recvS 1), ()) (insert (SemLoc.reg barS, ()) W))) (R := 0) (m := 0) (T := ∅)
      (by rw [Nat.zero_add]; exact ((expect_recv m c 2).trans (by decide)).symm)) $$ [HcV2 HO HatV2]
  · isplitr; · iexact HIr2
    isplitl [HcV2]; · iexact HcV2
    isplitl [HO]; · iexact HO
    isplitr; · rw [MayWait_zero]; iempintro
    iexact HatV2
  iintro ⟨HO, HatV2, -, Hpay⟩
  ihave Hrow2 := (Entails.of_eq (rest_recv2' m c)) $$ Hpay
  -- the four rows read, the result computed and stored
  iapply (wp_load 𝒱₀ (c : Thread nD τ) none Set.univ (m := sM) (r := (rk 0).toLoadRect) (S := rowSet 0) (by rw [rowSet_eq])) $$ Hrow0; iintro Hrow0
  rw [show sM.view.readAt (Elt F) (rk 0).toLoadRect (comm m c) = psum m (bwd 0 c) from read_comm0 m c]
  iapply (wp_load 𝒱₀ (c : Thread nD τ) none Set.univ (m := sM) (r := (rk 1).toLoadRect) (S := rowSet 1) (by rw [rowSet_eq])) $$ Hrow1; iintro Hrow1
  rw [show sM.view.readAt (Elt F) (rk 1).toLoadRect (comm m c) = psum m (bwd 1 c) from read_comm1 m c]
  iapply (wp_load 𝒱₀ (c : Thread nD τ) none Set.univ (m := sM) (r := (rk 2).toLoadRect) (S := rowSet 2) (by rw [rowSet_eq])) $$ Hrow2; iintro Hrow2
  rw [show sM.view.readAt (Elt F) (rk 2).toLoadRect (comm m c) = psum m (bwd 2 c) from read_comm2 m c]
  iapply (wp_load 𝒱₀ (c : Thread nD τ) none Set.univ (m := sM) (r := (rk 3).toLoadRect) (S := rowSet 3) (by rw [rowSet_eq])) $$ Hqk; iintro Hqk
  rw [show sM.view.readAt (Elt F) (rk 3).toLoadRect (comm m c) = psum m c from read_comm3 m c]
  iapply (wp_load 𝒱₀ (c : Thread nD τ) none Set.univ (m := oM) (Finset.subset_univ _)) $$ Hout; iintro Hout
  iapply (wp_store 𝒱₀ (c : Thread nD τ) none Set.univ (m := oM) (r := rX) (Mk := Finset.univ) (Finset.subset_univ _)) $$ Hout; iintro Hout
  rw [write_out]
  -- the three send waits (cells 1, 0, 2): the shares of row 3 come back

  iapply (Rounds.wp_wait_rest_token 𝒱₀ ER (sched m) (c : Thread nD τ) none (κ := K (c, 2))
      (sm := SemLoc.dma (sendS 1)) (wpE_waitDma2_eq 𝒱₀ (c : Thread nD τ) none Set.univ) (Set.mem_univ _) () (O := 0) (W := insert (SemLoc.dma (recvS 2), ()) (insert (SemLoc.dma (recvS 0), ()) (insert (SemLoc.dma (recvS 1), ()) (insert (SemLoc.reg barS, ()) W)))) (R := 0) (m := 0) (T := ∅)
      (by rw [Nat.zero_add]; exact ((expect_send m c 1).trans (by decide)).symm)) $$ [HcS1 HO HatS1]
  · isplitr; · iexact HIs1
    isplitl [HcS1]; · iexact HcS1
    isplitl [HO]; · iexact HO
    isplitr; · rw [MayWait_zero]; iempintro
    iexact HatS1
  iintro ⟨HO, HatS1, -, Hpay⟩
  ihave Hq1 := (Entails.of_eq (rest_send1' m c)) $$ Hpay

  iapply (Rounds.wp_wait_rest_token 𝒱₀ ER (sched m) (c : Thread nD τ) none (κ := K (c, 1))
      (sm := SemLoc.dma (sendS 0)) (wpE_waitDma2_eq 𝒱₀ (c : Thread nD τ) none Set.univ) (Set.mem_univ _) () (O := 0) (W := insert (SemLoc.dma (sendS 1), ()) (insert (SemLoc.dma (recvS 2), ()) (insert (SemLoc.dma (recvS 0), ()) (insert (SemLoc.dma (recvS 1), ()) (insert (SemLoc.reg barS, ()) W))))) (R := 0) (m := 0) (T := ∅)
      (by rw [Nat.zero_add]; exact ((expect_send m c 0).trans (by decide)).symm)) $$ [HcS0 HO HatS0]
  · isplitr; · iexact HIs0
    isplitl [HcS0]; · iexact HcS0
    isplitl [HO]; · iexact HO
    isplitr; · rw [MayWait_zero]; iempintro
    iexact HatS0
  iintro ⟨HO, HatS0, -, Hpay⟩
  ihave Hq0 := (Entails.of_eq (rest_send0' m c)) $$ Hpay

  iapply (Rounds.wp_wait_rest_token 𝒱₀ ER (sched m) (c : Thread nD τ) none (κ := K (c, 3))
      (sm := SemLoc.dma (sendS 2)) (wpE_waitDma2_eq 𝒱₀ (c : Thread nD τ) none Set.univ) (Set.mem_univ _) () (O := 0) (W := insert (SemLoc.dma (sendS 0), ()) (insert (SemLoc.dma (sendS 1), ()) (insert (SemLoc.dma (recvS 2), ()) (insert (SemLoc.dma (recvS 0), ()) (insert (SemLoc.dma (recvS 1), ()) (insert (SemLoc.reg barS, ()) W)))))) (R := 0) (m := 0) (T := ∅)
      (by rw [Nat.zero_add]; exact ((expect_send m c 2).trans (by decide)).symm)) $$ [HcS2 HO HatS2]
  · isplitr; · iexact HIs2
    isplitl [HcS2]; · iexact HcS2
    isplitl [HO]; · iexact HO
    isplitr; · rw [MayWait_zero]; iempintro
    iexact HatS2
  iintro ⟨HO, HatS2, -, Hpay⟩
  ihave Hq2 := (Entails.of_eq (rest_send2' m c)) $$ Hpay
  -- the six own cells close: their counters at zero are the device's again
  imod (Rounds.cell_close ER (sched m) (Set.mem_univ (K (c, 1))) (fun h => h) (R := 0 + 1) (duties_later m (sendCell 0 c))) $$ [HatS0] with HzS0
  · isplitr; · iexact HIs0
    iexact HatS0
  imod (Rounds.cell_close ER (sched m) (Set.mem_univ (K (c, 2))) (fun h => h) (R := 0 + 1) (duties_later m (sendCell 1 c))) $$ [HatS1] with HzS1
  · isplitr; · iexact HIs1
    iexact HatS1
  imod (Rounds.cell_close ER (sched m) (Set.mem_univ (K (c, 3))) (fun h => h) (R := 0 + 1) (duties_later m (sendCell 2 c))) $$ [HatS2] with HzS2
  · isplitr; · iexact HIs2
    iexact HatS2
  imod (Rounds.cell_close ER (sched m) (Set.mem_univ (K (c, 4))) (fun h => h) (R := 0 + 1) (duties_later m (recvCell 0 c))) $$ [HatV0] with HzV0
  · isplitr; · iexact HIr0
    iexact HatV0
  imod (Rounds.cell_close ER (sched m) (Set.mem_univ (K (c, 5))) (fun h => h) (R := 0 + 1) (duties_later m (recvCell 1 c))) $$ [HatV1] with HzV1
  · isplitr; · iexact HIr1
    iexact HatV1
  imod (Rounds.cell_close ER (sched m) (Set.mem_univ (K (c, 6))) (fun h => h) (R := 0 + 1) (duties_later m (recvCell 2 c))) $$ [HatV2] with HzV2
  · isplitr; · iexact HIr2
    iexact HatV2
  -- row 3's four shares rejoined, the four rows the whole buffer again
  ihave HL := (pointsTo_share (PosShare.mem_left_op_right fullShare.left)).2 $$ [Hq0 Hq1]
  · isplitl [Hq0] <;> iassumption
  ihave HR := (pointsTo_share (PosShare.mem_left_op_right fullShare.right)).2 $$ [Hq2 Hqk]
  · isplitl [Hq2] <;> iassumption
  ihave Hrow3 := (pointsTo_share (PosShare.mem_left_op_right fullShare)).2 $$ [HL HR]
  · isplitl [HL] <;> iassumption
  ihave Hscr := (Entails.of_eq (scr_rows (F := F) c fullShare (comm m c)).symm) $$ [Hrow0 Hrow1 Hrow2 Hrow3]
  · unfold rowPts
    isplitl [Hrow0]; · iexact Hrow0
    isplitl [Hrow1]; · iexact Hrow1
    isplitl [Hrow2]; · iexact Hrow2
    iexact Hrow3
  rw [wp_ret]; imodintro
  iapply Hk
  unfold bodyPost Φ₁ scrAny Dat.owesAt Pipeline.owesWithin
  rw [show (dats m 0 c).owed t₀.succ = 0 from rfl]
  isplitl [Hscr HzS0 HzS1 HzS2 HzV0 HzV1 HzV2]
  · isplitl [Hscr]; · iexists (comm m c); iexact Hscr
    isplitl [HzS0]; · iexact HzS0
    isplitl [HzS1]; · iexact HzS1
    isplitl [HzS2]; · iexact HzS2
    isplitl [HzV0]; · iexact HzV0
    isplitl [HzV1]; · iexact HzV1
    iexact HzV2
  isplitl [HO]
  · iexists (insert (SemLoc.dma (sendS 2), ()) (insert (SemLoc.dma (sendS 0), ()) (insert (SemLoc.dma (sendS 1), ()) (insert (SemLoc.dma (recvS 2), ()) (insert (SemLoc.dma (recvS 0), ()) (insert (SemLoc.dma (recvS 1), ()) (insert (SemLoc.reg barS, ()) W)))))))
    isplitr; · ipureintro; exact fun _ _ => Or.inl trivial
    iexact HO
  isplitl [Hx]
  · iexists _; isplitr; · (ipureintro; rfl)
    iexact Hx
  isplitl [Hg]
  · iexists _; isplitr; · (ipureintro; rfl)
    iexact Hg
  iexists _; isplitr; · (ipureintro; rfl)
  iexact Hout

end Body

set_option maxRecDepth 4000 in
def bodyPre' (c : Dev nD) : sProp 𝕄 :=
  iprop(Φ₀ m c ∗ (dats m 0 c).owesAt () t₀.castSucc
    ∗ (∃ d, stg c cc0_stg0_0 ((dats m 0 c).before (0 : Fin 3) t₀ d))
    ∗ (∃ d, stg c cc0_stg1_0 ((dats m 0 c).before (1 : Fin 3) t₀ d))
    ∗ (∃ d, stg c cc0_stg2_0 ((dats m 0 c).before (2 : Fin 3) t₀ d)))

set_option maxRecDepth 4000 in
/-- The library's body obligation on device `c`. -/
theorem body_obligation (c : Dev nD) : BodyObligation (dats (F := F) m 0 c) (defs₀ (F := F)) 𝒱₀ () Set.univ := fun t => by
  rw [fin_N t]
  rw [bigSep_W, bigSep_W]
  simp only [owns_whole_eq]
  show bodyPre' m c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_stg2_0) (Memref.isWhole_whole _) (Memref.whole cc0_scratch0) (Memref.isWhole_whole _) cc0_scratch1 cc0_scratch2) (fun _ => bodyPost m c)
  unfold bodyPre' Φ₀ start
  iintro ⟨⟨⟨⟨%K, Hg⟩, Hrest⟩, Hscr⟩, Ho, Hx, Hgm, Hout⟩
  iapply (sound_body m K c fun _ => bodyPost m c)
  unfold bodyPre
  isplitr []
  · isplitl [Hg Hrest Hscr]
    · isplitl [Hg]; · iexact Hg
      icases Hrest with ⟨H1, H2⟩
      isplitl [H1]; · iexact H1
      isplitl [H2]; · iexact H2
      iexact Hscr
    isplitl [Ho]; · iexact Ho
    isplitl [Hx]; · iexact Hx
    isplitl [Hgm]; · iexact Hgm
    iexact Hout
  · iintro H; iexact H

end Cert.KernelProof
end
-- ==== Proof.LaunchK.lean ====
import proofs.«900385_g7700000000000386_dist_rmsnorm_colshard_i_m512_n256_v7x_i4_f32_1_alg».proof.Defs
import proofs.«900385_g7700000000000386_dist_rmsnorm_colshard_i_m512_n256_v7x_i4_f32_1_alg».proof.Proof.Gen.Kernel
import proofs.«900385_g7700000000000386_dist_rmsnorm_colshard_i_m512_n256_v7x_i4_f32_1_alg».proof.Proof.Gen.Kernel.Skeleton
import proofs.«900385_g7700000000000386_dist_rmsnorm_colshard_i_m512_n256_v7x_i4_f32_1_alg».proof.Proof.Gen.Kernel.Launch
import proofs.«900385_g7700000000000386_dist_rmsnorm_colshard_i_m512_n256_v7x_i4_f32_1_alg».proof.Proof.Gen.Kernel.Points
import proofs.«900385_g7700000000000386_dist_rmsnorm_colshard_i_m512_n256_v7x_i4_f32_1_alg».proof.Proof.Gen.Kernel.Frame
import Idealize.ShloMosaic.Lib.Pipeline.Launch
import Idealize.ShloMosaic.Lib.Pipeline.Kit
import Idealize.ShloMosaic.Lib.Pipeline.Value
import Idealize.ShloMosaic.Lib.Tactic
import proofs.«900385_g7700000000000386_dist_rmsnorm_colshard_i_m512_n256_v7x_i4_f32_1_alg».proof.Proof.BodyK

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The launch -/

theorem ownSemFacts : Pipeline.OwnSemFacts cfg0.spec osem := by decide

theorem share_eq (c : Dev nD) (w : Fin cfg0.W) : (dats m 0 c).share w = fullShare := by unfold Dat.share; split <;> rfl

theorem kcell_injective : Function.Injective (kcell : Dev nD × Fin 7 → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := by fin_cases k <;> fin_cases k' <;> first | rfl | exact absurd h2 (by decide)
  subst this; rfl
def allCells : Finset (GSem nD τ sig) := Finset.univ.map ⟨kcell, kcell_injective⟩

/-- A device's own cells' duty tokens as minted: its barrier's three, its send cells' and its receive cells' one each. -/
abbrev tokOf (cj : Dev nD × Fin 9) : GSem nD τ sig × ℕ × Fin 3 := match cj.2 with
  | 0 => (barCell cj.1, 0, 0) | 1 => (barCell cj.1, 0, 1) | 2 => (barCell cj.1, 0, 2)
  | 3 => (sendCell 0 cj.1, 0, 0) | 4 => (sendCell 1 cj.1, 0, 0) | 5 => (sendCell 2 cj.1, 0, 0)
  | 6 => (recvCell 0 cj.1, 0, 0) | 7 => (recvCell 1 cj.1, 0, 0) | 8 => (recvCell 2 cj.1, 0, 0)
theorem tokOf_injective : Function.Injective (tokOf : Dev nD × Fin 9 → GSem nD τ sig × ℕ × Fin 3) := by
  rintro ⟨c, j⟩ ⟨c', j'⟩ h
  have h1 : c = c' := by
    have := congrArg (fun x : GSem nD τ sig × ℕ × Fin 3 => x.1.1.1) h
    fin_cases j <;> fin_cases j' <;> exact this
  subst h1
  have : j = j' := by
    fin_cases j <;> fin_cases j' <;> first | rfl | exact absurd (congrArg (fun x : GSem nD τ sig × ℕ × Fin 3 => (x.1.2, x.2.2)) h) (by dsimp only [tokOf]; decide)
  subst this; rfl
def allToks : Finset (GSem nD τ sig × ℕ × Fin 3) := Finset.univ.map ⟨tokOf, tokOf_injective⟩

def u₀ : UU :=
  (initOf (Pipeline.cells cfgs cellOf_inj) (Pipeline.launchToks cfgs cellOf_inj), initOf allCells allToks)

/-- The duty tokens of device `c`'s own cells. -/
def toks (c : Dev nD) : sProp 𝕄 :=
  iprop(dutyTok ER (barCell c) 0 0 ∗ dutyTok ER (barCell c) 0 1 ∗ dutyTok ER (barCell c) 0 2
    ∗ dutyTok ER (sendCell 0 c) 0 0 ∗ dutyTok ER (sendCell 1 c) 0 0 ∗ dutyTok ER (sendCell 2 c) 0 0
    ∗ dutyTok ER (recvCell 0 c) 0 0 ∗ dutyTok ER (recvCell 1 c) 0 0 ∗ dutyTok ER (recvCell 2 c) 0 0)

/-- What the launch element deals device `c`. -/
def G (c : Dev nD) : sProp 𝕄 :=
  iprop((bigSep Finset.univ fun k : Fin 7 => roundState ER (sched m) (kcell (c, k)) 0)
    ∗ (bigSep Finset.univ fun k : Fin 7 => iprop(atPos ER (kcell (c, k)) 0 ∅ 0 ∗ reached ER (kcell (c, k)) 0)) ∗ toks c)

/-- What the global step makes of it. -/
def G' (c : Dev nD) : sProp 𝕄 := iprop(∃ K, ghost m K c)

omit [FloatOps F] in
theorem bigSep_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ
omit [FloatOps F] in
theorem bigSep_fin9 (Φ : Fin 9 → sProp 𝕄) : bigSep Finset.univ Φ = iprop(Φ 0 ∗ Φ 1 ∗ Φ 2 ∗ Φ 3 ∗ Φ 4 ∗ Φ 5 ∗ Φ 6 ∗ Φ 7 ∗ Φ 8) :=
  bigSep_univ_eq_bigSepL [0, 1, 2, 3, 4, 5, 6, 7, 8] (by decide) (by decide) Φ
omit [FloatOps F] in
theorem bigSep_fin6 (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ

theorem fund_all : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : Fin 7 => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => by unfold toks; rw [bigSep_fin9]; rfl
  iintro HX
  imod (Rounds.fund ER (sched m) allCells allToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
theorem ownSems0_eq (c : Dev nD) : (Pipeline.ownSems0 (Ix := Unit) (Name := ℕ) (U := UU) (Lvl := ℕ) (Val := Elt F) (τ := τ) osem c : sProp 𝕄)
    = iprop(semVal (sendCell 0 c) 0 ∗ semVal (sendCell 1 c) 0 ∗ semVal (sendCell 2 c) 0 ∗ semVal (recvCell 0 c) 0 ∗ semVal (recvCell 1 c) 0 ∗ semVal (recvCell 2 c) 0) := by
  rw [Pipeline.ownSems0_eq_of_list c osem [0, 1, 2, 3, 4, 5] (by decide) (by decide)]; rfl
omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 7 => semVal (kcell (c, k)) 0 : sProp 𝕄) := by
  rw [ownSems0_eq, unscopedSems0_eq, bigSep_fin7]
  iintro ⟨⟨H1, H2, H3, H4, H5, H6⟩, HB⟩
  isplitl [HB]; · iexact HB
  isplitl [H1]; · iexact H1
  isplitl [H2]; · iexact H2
  isplitl [H3]; · iexact H3
  isplitl [H4]; · iexact H4
  isplitl [H5]; · iexact H5
  iexact H6

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (sched m) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 7 => semVal (kcell (c, k)) 0) ∗ bigSep Finset.univ fun k : Fin 7 => roundState ER (sched m) (kcell (c, k)) 0)
      ⊢ (|={Set.univ}=> bigSep Finset.univ fun k => iprop(∃ κ : ℕ, cellInv ER (sched m) κ (kcell (c, k))) : sProp 𝕄) from by
        rw [← bigSep_sep']
        exact (bigSep_mono fun k _ => (Rounds.body_intro ER (sched m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

def records (K : Dev nD × Fin 7 → ℕ) : sProp 𝕄 :=
  iprop((bigSep Finset.univ fun ck : Dev nD × Fin 7 => cellInv ER (sched m) (K ck) (kcell ck))
    ∗ bigSep Finset.univ fun ck : Dev nD × Fin 7 => reached ER (kcell ck) 0)

instance records_persistent (K : Dev nD × Fin 7 → ℕ) : BI.Persistent (records m K) := by unfold records; infer_instance

theorem inv_at (K : Dev nD × Fin 7 → ℕ) (ck : Dev nD × Fin 7) :
    (bigSep Finset.univ fun ck : Dev nD × Fin 7 => (cellInv ER (sched m) (K ck) (kcell ck) : sProp 𝕄)) ⊢ cellInv ER (sched m) (K ck) (kcell ck) :=
  bigSep_elim (Finset.mem_univ ck)
omit [FloatOps F] in
theorem reached_at (ck : Dev nD × Fin 7) :
    (bigSep Finset.univ fun ck : Dev nD × Fin 7 => (reached ER (kcell ck) 0 : sProp 𝕄)) ⊢ reached ER (kcell ck) 0 :=
  bigSep_elim (Finset.mem_univ ck)

/-- What stays with device `c`: its positions, and the tokens of the duties IT pays. -/
def linear (c : Dev nD) : sProp 𝕄 := iprop(posns c ∗ payToks c)

theorem ghost_intro (K : Dev nD × Fin 7 → ℕ) (c : Dev nD) : iprop(records m K ∗ linear c) ⊢ G' m c := by
  unfold records linear G' ghost invs marks
  iintro ⟨⟨#HI, #HR⟩, Hp, Ht⟩
  iexists K
  isplitr
  · isplitr; · iapply (inv_at m K (c, 0)); iexact HI
    isplitr; · iapply (inv_at m K (c, 1)); iexact HI
    isplitr; · iapply (inv_at m K (c, 2)); iexact HI
    isplitr; · iapply (inv_at m K (c, 3)); iexact HI
    isplitr; · iapply (inv_at m K (c, 4)); iexact HI
    isplitr; · iapply (inv_at m K (c, 5)); iexact HI
    isplitr; · iapply (inv_at m K (c, 6)); iexact HI
    isplitr; · iapply (inv_at m K (fwd 0 c, 0)); iexact HI
    isplitr; · iapply (inv_at m K (fwd 1 c, 0)); iexact HI
    isplitr; · iapply (inv_at m K (fwd 2 c, 0)); iexact HI
    isplitr; · iapply (inv_at m K (fwd 0 c, 4)); iexact HI
    isplitr; · iapply (inv_at m K (fwd 1 c, 5)); iexact HI
    iapply (inv_at m K (fwd 2 c, 6)); iexact HI
  isplitl [Hp]; · iexact Hp
  isplitr
  · isplitr; · iapply (reached_at (F := F) (fwd 0 c, 0)); iexact HR
    isplitr; · iapply (reached_at (F := F) (fwd 1 c, 0)); iexact HR
    isplitr; · iapply (reached_at (F := F) (fwd 2 c, 0)); iexact HR
    isplitr; · iapply (reached_at (F := F) (fwd 0 c, 4)); iexact HR
    isplitr; · iapply (reached_at (F := F) (fwd 1 c, 5)); iexact HR
    isplitr; · iapply (reached_at (F := F) (fwd 2 c, 6)); iexact HR
    isplitr; · iapply (reached_at (F := F) (c, 1)); iexact HR
    isplitr; · iapply (reached_at (F := F) (c, 2)); iexact HR
    isplitr; · iapply (reached_at (F := F) (c, 3)); iexact HR
    isplitr; · iapply (reached_at (F := F) (c, 4)); iexact HR
    isplitr; · iapply (reached_at (F := F) (c, 5)); iexact HR
    iapply (reached_at (F := F) (c, 6)); iexact HR
  iexact Ht

omit [FloatOps F] in
/-- The tokens dealt to their payers: duty `d` of a barrier cell, and the duty of receive cell `d`, go to the device
    `d + 1` places behind the cell's owner; the send tokens stay. -/
theorem toks_around : (bigSep Finset.univ fun c : Dev nD => (toks c : sProp 𝕄)) ⊢ bigSep Finset.univ fun c : Dev nD => payToks c := by
  unfold toks payToks
  simp only [bigSep_sep']
  rw [bigSep_univ_equiv (ring 0) (fun c : Dev nD => (dutyTok ER (barCell c) 0 0 : sProp 𝕄)),
    bigSep_univ_equiv (ring 1) (fun c : Dev nD => (dutyTok ER (barCell c) 0 1 : sProp 𝕄)),
    bigSep_univ_equiv (ring 2) (fun c : Dev nD => (dutyTok ER (barCell c) 0 2 : sProp 𝕄)),
    bigSep_univ_equiv (ring 0) (fun c : Dev nD => (dutyTok ER (recvCell 0 c) 0 0 : sProp 𝕄)),
    bigSep_univ_equiv (ring 1) (fun c : Dev nD => (dutyTok ER (recvCell 1 c) 0 0 : sProp 𝕄)),
    bigSep_univ_equiv (ring 2) (fun c : Dev nD => (dutyTok ER (recvCell 2 c) 0 0 : sProp 𝕄))]
  iintro ⟨B0, B1, B2, S0, S1, S2, V0, V1, V2⟩
  isplitl [B0]; · iexact B0
  isplitl [B1]; · iexact B1
  isplitl [B2]; · iexact B2
  isplitl [V0]; · iexact V0
  isplitl [V1]; · iexact V1
  isplitl [V2]; · iexact V2
  isplitl [S0]; · iexact S0
  isplitl [S1]; · iexact S1
  iexact S2

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (sched m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 7 => iprop(∃ κ : ℕ, cellInv ER (sched m) κ (kcell ck))),
    bigSep_congr (s := Finset.univ) (fun (c : Dev nD) _ => bigSep_sep' Finset.univ (fun k : Fin 7 => (atPos ER (kcell (c, k)) 0 ∅ 0 : sProp 𝕄)) (fun k => reached ER (kcell (c, k)) 0)),
    bigSep_sep', ← bigSep_univ_prod (fun ck : Dev nD × Fin 7 => (reached ER (kcell ck) 0 : sProp 𝕄))]
  iintro ⟨HI, ⟨Hat, #HR⟩, Htok⟩
  ihave HK := (BI.bigSep_exists_pi Finset.univ (fun (ck : Dev nD × Fin 7) (κ : ℕ) => (cellInv ER (sched m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply ((Entails.of_eq (bigSep_sep' Finset.univ (fun c : Dev nD => bigSep Finset.univ fun k : Fin 7 => (atPos ER (kcell (c, k)) 0 ∅ 0 : sProp 𝕄)) payToks).symm).trans
      (bigSep_mono fun c _ => show _ ⊢ linear c from Entails.of_eq (by unfold linear posns; rw [bigSep_fin7])))
    isplitl [Hat]; · iexact Hat
    iexact Htk

/-- The global step: own AND unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ### The launch credit

Every device owes the device `j + 1` ahead one barrier unit and one row's credit on receive cell `j`: summed over the
issuers, each device is dealt three barrier units and a row's credit on each of its receive cells. -/

omit [FloatOps F] in
theorem launch_creds (c : Dev nD) : (Pipeline.launchCred O₀ c : sProp 𝕄) ⊢ creds c := by
  unfold creds
  have hO : (O₀ : Dev nD → CellTallies nD τ sig Unit) = fun d =>
      ((((tallyAt (((fwd 2 d).tc : Thread nD τ), SemLoc.dma (recvS 2)) () N + tallyAt (((fwd 0 d).tc : Thread nD τ), SemLoc.dma (recvS 0)) () N)
        + tallyAt (((fwd 1 d).tc : Thread nD τ), SemLoc.dma (recvS 1)) () N) + tallyAt (((fwd 2 d).tc : Thread nD τ), SemLoc.reg barS) () 1)
        + tallyAt (((fwd 1 d).tc : Thread nD τ), SemLoc.reg barS) () 1) + tallyAt (((fwd 0 d).tc : Thread nD τ), SemLoc.reg barS) () 1 := rfl
  rw [hO, Pipeline.launchCred_add, Pipeline.launchCred_add, Pipeline.launchCred_add, Pipeline.launchCred_add, Pipeline.launchCred_add]
  iintro ⟨⟨⟨⟨⟨R2, R0⟩, R1⟩, B2⟩, B1⟩, B0⟩
  ihave R2' := (Pipeline.launchCred_tallyAt (SemLoc.dma (recvS 2)) (fwd 2) (bwd 2) (fwd_bwd 2) (bwd_fwd 2) () N c) $$ R2
  ihave R0' := (Pipeline.launchCred_tallyAt (SemLoc.dma (recvS 0)) (fwd 0) (bwd 0) (fwd_bwd 0) (bwd_fwd 0) () N c) $$ R0
  ihave R1' := (Pipeline.launchCred_tallyAt (SemLoc.dma (recvS 1)) (fwd 1) (bwd 1) (fwd_bwd 1) (bwd_fwd 1) () N c) $$ R1
  ihave B2' := (Pipeline.launchCred_tallyAt (SemLoc.reg barS) (fwd 2) (bwd 2) (fwd_bwd 2) (bwd_fwd 2) () 1 c) $$ B2
  ihave B1' := (Pipeline.launchCred_tallyAt (SemLoc.reg barS) (fwd 1) (bwd 1) (fwd_bwd 1) (bwd_fwd 1) () 1 c) $$ B1
  ihave B0' := (Pipeline.launchCred_tallyAt (SemLoc.reg barS) (fwd 0) (bwd 0) (fwd_bwd 0) (bwd_fwd 0) () 1 c) $$ B0
  isplitl [B0' B1' B2']
  · have e3 : (tallyAt (barCell c) () 3 : CellTallies nD τ sig Unit) = tallyAt (barCell c) () 1 + tallyAt (barCell c) () 1 + tallyAt (barCell c) () 1 := by
      rw [tallyAt_add, tallyAt_add]
    rw [e3]
    iapply (cred_add _ _).2
    isplitl [B0' B1']
    · iapply (cred_add _ _).2
      isplitl [B0'] <;> iassumption
    · iexact B2'
  isplitl [R0']; · iexact R0'
  isplitl [R1']; · iexact R1'
  iexact R2'

/-! ### The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (launch_creds (F := F) c) $$ Hcr
  imodintro
  unfold start G'
  isplitl
  · isplitl [HG]; · iexact HG
    isplitl [Hc]; · iexact Hc
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scrAny
  iintro ⟨Hs, -, Hr⟩
  isplitl [Hs]; · iexact Hs
  iexact Hr

theorem phi1_exit (c : Dev nD) :
    (dats m 0 c).Φ (Fin.last cfg0.N) ⊢ iprop(emp ∗ Pipeline.ownSems0 osem c ∗ Pipeline.scopedRest cfg0.spec c) := by
  rw [show (dats m 0 c).Φ (Fin.last cfg0.N) = Φ₁ c from rfl, scopedRest0_eq, ownSems0_eq]
  unfold Φ₁ scrAny
  iintro ⟨Hr, Hz⟩
  isplitr; · iempintro
  isplitl [Hz]; · iexact Hz
  iexact Hr

theorem waits (c : Dev nD) : (levAts L lv : sProp 𝕄) ⊢ Pipeline.cellsWaits cfgs (dats m) () 0 c :=
  Pipeline.cellsWaits_intro cfgs (dats m) () 0 c fun w s t =>
    mayWait_low c _ (by fin_cases w <;> fin_cases s <;> rfl) _ (by
      rcases t with ⟨_ | _, ht⟩
      · exact fun g u h => h
      · exact fun g u h => absurd h (Nat.lt_irrefl 0))

/-! ### The run -/

def finalA (c : Dev nD) (w : Fin cfg0.W) : Buf (Elt F) ((cfg0.win w).arr.view.loc (c : Thread nD τ)) := (dats m 0 c).arrAt w cfg0.N

def QC : PUnit × MemSt nD τ sig (Elt F) → Prop := fun r =>
  ∀ c : Dev nD, ∀ w : Fin cfg0.W, r.2.mem ((cfg0.win w).arr.view.loc (c : Thread nD τ)) = finalA m c w

set_option maxRecDepth 8000 in
/-- At the compiled mesh of four devices, at any float instance, from any memory with zero counters: every weakly fair
    execution of @main — the four kernels meeting on the runtime's barrier semaphore, then exchanging their partial sums —
    terminates, and every final state has each device's arrays at the proof data's final contents. -/
theorem run_main : θ_run defs (onTc (τ := τ) (main (F := F))) (s₀ m ρ) (QC m) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m) (hout := phi1_exit m)
    (QY := fun _ _ => True)
    (hY := fun c s' => by
      iintro ⟨-, -, HSI⟩
      imodintro
      isplitr; · ipureintro; trivial
      iexact HSI)
    (hQ := fun _ h c w => (h c).1 w)

end Cert.KernelProof
end
-- ==== Proof.Algebra.lean ====
import Idealize.ShloMosaic.PureOps.Ideal
import Idealize.ShloMosaic.PureOps.Ideal.Laws

/-!
# The arithmetic that joins the two sides

Over the extended reals, for every `a` and every `t > 0` (a positive real or `+∞`), `a · rsqrt t = a / sqrt t`:
the kernel's product with the reciprocal root is the reference's quotient by the root. The `t` of this kernel is a
sum of squares divided by 1024 plus a positive constant, which is positive whatever the inputs (a square is never
negative on the extended reals, `(-∞)·(-∞) = +∞` included), so no hypothesis on the inputs is used. A row's 1024 squares
summed at once are the four blocks' 256 summed separately and added, in whatever order.
-/

noncomputable section

namespace Cert.RowNorm

open Idealize.ShloMosaic

theorem mul_self_nonneg (x : EReal) : 0 ≤ x * x := by
  induction x using EReal.rec with
  | bot => rw [EReal.bot_mul_bot]; exact le_top
  | coe r => rw [← EReal.coe_mul]; exact_mod_cast _root_.mul_self_nonneg r
  | top => rw [EReal.top_mul_top]; exact le_top

theorem sum_sq_nonneg {ι : Type} (s : Finset ι) (f : ι → EReal) : 0 ≤ ∑ k ∈ s, f k * f k :=
  Finset.sum_nonneg fun k _ => mul_self_nonneg (f k)

/-- A non-negative extended real divided by a positive real, plus a positive real, is positive. -/
theorem div_add_pos {s : EReal} (hs : 0 ≤ s) {n e : ℝ} (hn : 0 < n) (he : 0 < e) : 0 < Ideal.div s (n : EReal) + (e : EReal) := by
  rw [Ideal.div_coe hn.ne']
  have h1 : (0 : EReal) ≤ s * ((1 / n : ℝ) : EReal) := mul_nonneg hs (by exact_mod_cast (one_div_pos.mpr hn).le)
  calc (0 : EReal) < (e : EReal) := by exact_mod_cast he
    _ = 0 + (e : EReal) := (zero_add _).symm
    _ ≤ s * ((1 / n : ℝ) : EReal) + (e : EReal) := add_le_add h1 le_rfl

/-- The product with the reciprocal root is the quotient by the root, at every positive `t`, `+∞` included. -/
theorem mul_rsqrt_eq_div_sqrt (a : EReal) {t : EReal} (ht : 0 < t) : a * Ideal.rsqrt t = Ideal.div a (Ideal.sqrt t) := by
  induction t using EReal.rec with
  | bot => exact absurd ht (not_lt.mpr bot_le)
  | coe r =>
    have hr : 0 < r := by exact_mod_cast ht
    have hs : 0 < Real.sqrt r := Real.sqrt_pos.mpr hr
    rw [Ideal.rsqrt_coe, if_neg (not_lt.mpr hr.le), if_neg hr.ne', Ideal.sqrt_coe, if_neg (not_lt.mpr hr.le), Ideal.div,
      if_neg (by exact_mod_cast hs.ne'), EReal.coe_inv]
  | top =>
    rw [Ideal.rsqrt_top, Ideal.sqrt_top, Ideal.div, if_neg EReal.top_ne_zero, EReal.inv_top]

/-- 1024 consecutive terms are four runs of 256. -/
theorem sum_1024 {M : Type} [AddCommMonoid M] (f : ℕ → M) :
    ∑ k : Fin 1024, f k.val = ∑ d : Fin 4, ∑ l : Fin 256, f (d.val * 256 + l.val) := by
  rw [← Fintype.sum_prod_type', ← (finProdFinEquiv (m := 4) (n := 256)).sum_comp]
  refine Finset.sum_congr rfl fun p _ => ?_
  show f (p.2.val + 256 * p.1.val) = f (p.1.val * 256 + p.2.val)
  congr 1; ring

/-- The four devices, counted from any one of them backwards and ending with itself, are all four. -/
theorem sum_around {M : Type} [AddCommMonoid M] (P : Fin 4 → M) (c : Fin 4) :
    P ⟨(c.val + 3 - 0) % 4, Nat.mod_lt _ (by decide)⟩ + P ⟨(c.val + 3 - 1) % 4, Nat.mod_lt _ (by decide)⟩
      + P ⟨(c.val + 3 - 2) % 4, Nat.mod_lt _ (by decide)⟩ + P c = ∑ d : Fin 4, P d := by
  rw [Fin.sum_univ_four]
  fin_cases c <;> simp <;> abel

/-- The two constants of the kernel and the reference: 1024 and a positive real near 1e-5. -/
theorem ofBits_1024 : Ideal.ofBits .f32 0x44800000#32 = ((1024 : ℝ) : EReal) := by
  simp [Ideal.ofBits, Ideal.ieee, -EReal.coe_mul]; norm_num

theorem ofBits_eps : ∃ e : ℝ, 0 < e ∧ Ideal.ofBits .f32 0x3727C5AC#32 = (e : EReal) := by
  refine ⟨_, ?_, by simp [Ideal.ofBits, Ideal.ieee, -EReal.coe_mul]; rfl⟩
  norm_num

end Cert.RowNorm

end
-- ==== Proof.Value.lean ====
import proofs.«900385_g7700000000000386_dist_rmsnorm_colshard_i_m512_n256_v7x_i4_f32_1_alg».proof.Proof.Gen.KernelIdeal.Skeleton
import proofs.«900385_g7700000000000386_dist_rmsnorm_colshard_i_m512_n256_v7x_i4_f32_1_alg».proof.Proof.Gen.ReferenceIdeal.Read
import proofs.«900385_g7700000000000386_dist_rmsnorm_colshard_i_m512_n256_v7x_i4_f32_1_alg».proof.Proof.Algebra
import Idealize.ShloMosaic.Lib.ValueIdx
import Idealize.ShloMosaic.Lib.ValueLayout
import Idealize.ShloMosaic.Lib.Pipeline.Value
import Idealize.ShloMosaic.Lib.Layout
import Idealize.ShloMosaic.PureOps.Ideal.Laws

/-!
# The kernel's result and the reference's, index by index, over the extended reals

Device `c` holds columns `256 c … 256 c + 255` of `x` and of `gamma`. Its result at (row `r`, local column `l`) is
`x · gamma · rsqrt((S₀ + S₁ + S₂ + S₃) / 1024 + ε)`, each `S` one device's sum of the row's 256 squares; the reference's
at (row `r`, column `256 c + l`) is `gamma · x / sqrt((0 + the row's 1024 squares) / 1024 + ε)`. The same number.
-/

noncomputable section

namespace Cert.RowNorm

open Idealize.ShloMosaic Idealize.ShloMosaic.ValueIdx
open Cert.KernelIdeal Cert.KernelIdeal.Gen

variable {α : Type}

/-- The whole arrays' shapes: `x` is 512 × 1024, `gamma` 1024. -/
abbrev SW : Shape := ⟨2, ![512, 1024]⟩
abbrev SG : Shape := ⟨1, ![1024]⟩

/-- An `[a]` array cast to `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A device's partial sums: row `r`'s 256 squares, summed. -/
theorem pay2_apply (x : Vec Ideal S512x256 .f32) (u : Fin 1) (r : Fin 512) :
    k0_pay2 (F := Ideal) x (ix2 u r) = ∑ l : Fin 256, x (ix2 r l) * x (ix2 r l) := by
  unfold k0_pay2 k0_pay1
  try dsimp only
  rw [shapeCast_a_1a_apply, shapeCast_self]
  refine (Ideal.multiReduction_add_single (mulf x x) 0x00000000#32 reduces_S512x256_S512 (.inl rfl) rfl (ix1 r)).trans ?_
  refine Finset.sum_congr rfl fun l _ => ?_
  rw [mulf_apply]
  have e : (reduces_S512x256_S512).lift (ix1 r) l = ix2 r l :=
    funext fun a => Fin.ext (by match a with | ⟨0, _⟩ => rfl | ⟨1, _⟩ => rfl)
  rw [e]
  rfl

/-- The block of `x` times the block of `gamma` along the columns. -/
theorem pay3_apply (x : Vec Ideal S512x256 .f32) (g : Vec Ideal S256 .f32) (r : Fin 512) (l : Fin 256) :
    k0_pay3 (F := Ideal) (k0_pay1 x) g (ix2 r l) = x (ix2 r l) * g (ix1 l) := by
  unfold k0_pay3 k0_pay1
  try dsimp only
  rw [mulf_apply, shapeCast_self, broadcastTo_1b_ab_apply, shapeCast_a_1a_apply, shapeCast_self]

/-- The result: the product above times the reciprocal root of the four rows' sum over 1024 plus epsilon. -/
theorem pay4_apply (v : Vec Ideal S512x256 .f32) (p0 p1 p2 p3 : Vec Ideal S1x512 .f32) (r : Fin 512) (l : Fin 256) :
    k0_pay4 (F := Ideal) v p0 p1 p2 p3 (ix2 r l)
      = v (ix2 r l) * Ideal.rsqrt (Ideal.div (p0 (ix2 0 r) + p1 (ix2 0 r) + p2 (ix2 0 r) + p3 (ix2 0 r)) (Ideal.ofBits .f32 0x44800000#32)
          + Ideal.ofBits .f32 0x3727C5AC#32) := by
  unfold k0_pay4
  try dsimp only
  rw [mulf_apply, broadcastTo_a1_ab_apply, shapeCast_a_a1_apply]
  show v (ix2 r l) * Ideal.rsqrt (addf (divf (addf (addf (addf (shapeCast S512 p0 _) (shapeCast S512 p1 _)) (shapeCast S512 p2 _)) (shapeCast S512 p3 _))
    (broadcast S512 (Scalar.ofBits (F := Ideal) .f32 0x44800000#32))) (broadcast S512 (Scalar.ofBits (F := Ideal) .f32 0x3727C5AC#32)) (ix1 r)) = _
  rw [addf_apply, divf_apply, addf_apply, addf_apply, addf_apply, shapeCast_1a_a_apply, shapeCast_1a_a_apply, shapeCast_1a_a_apply,
    shapeCast_1a_a_apply]
  rfl

/-! ## The reference at an index -/

open Cert.ReferenceIdeal Cert.ReferenceIdeal.Read in
/-- The reference at (row `r`, column `k`): `gamma[k] · x[r, k]` over the root of the row's mean square plus epsilon. -/
theorem ref_apply (X : (⟨SW, .f32⟩ : BufTy).Contents (Elt Ideal)) (Gm : (⟨SG, .f32⟩ : BufTy).Contents (Elt Ideal)) (r : Fin 512) (k : Fin 1024) :
    val_main_v12 (F := Ideal) X Gm (ix2 r k)
      = Ideal.div (Gm (ix1 k) * X (ix2 r k))
          (Ideal.sqrt (Ideal.div (Ideal.ofBits .f32 0x00000000#32 + ∑ k' : Fin 1024, X (ix2 r k') * X (ix2 r k')) (Ideal.ofBits .f32 0x44800000#32)
            + Ideal.ofBits .f32 0x3727C5AC#32)) := by
  have e1 : idx_main_v8 (idx_main_v9 (ix2 r k)) = ix1 k := funext fun a => Fin.ext (by match a with | ⟨0, _⟩ => rfl)
  have e2 : ∀ k' : Fin 1024, idx_main_v1 (idx_main_v2 (idx_main_v11 (ix2 r k))) k' = ix2 r k' := fun k' =>
    funext fun a => Fin.ext (by match a with | ⟨0, _⟩ => rfl | ⟨1, _⟩ => rfl)
  rw [val_main_v12_apply, val_main_v10_apply, val_main_v9_apply, val_main_v8_apply, val_main_v11_apply, val_main_v7_apply, val_main_v6_apply,
    val_main_v4_apply, val_main_v5_apply, val_main_v2_apply, val_main_v3_apply, val_main_v1_apply, e1]
  simp only [val_main_v0_apply, e2, val_main_cst_apply, val_main_cst_0_apply, val_main_cst_1_apply, Ideal.hostDivf_def, Ideal.mulf_def,
    Ideal.addf_def, Ideal.hostUnary_sqrt_def, Ideal.ofBits_def]

/-! ## The two sides are one function -/

/-- Column `l` of device `d`'s block is column `256 d + l` of the whole array. -/
theorem col_lt (d : Fin 4) (l : Fin 256) : d.val * 256 + l.val < 1024 := by have := d.isLt; have := l.isLt; omega

theorem blockX_apply (X : SW.Idx → EReal) (d : Fin 4) (r : Fin 512) (l : Fin 256) :
    Layout.block S512x256 SW 1 4 d X (by decide) (ix2 r l) = X (ix2 r ⟨d.val * 256 + l.val, col_lt d l⟩) :=
  congrArg X (funext fun a => Fin.ext (by match a with | ⟨0, _⟩ => rfl | ⟨1, _⟩ => rfl))

theorem blockG_apply (Gm : SG.Idx → EReal) (d : Fin 4) (l : Fin 256) :
    Layout.block S256 SG 0 4 d Gm (by decide) (ix1 l) = Gm (ix1 ⟨d.val * 256 + l.val, col_lt d l⟩) :=
  congrArg Gm (funext fun a => Fin.ext (by match a with | ⟨0, _⟩ => rfl))

/-- THE BRIDGE. With every device's blocks its columns of the whole arrays, what device `c` computes from its own blocks
    and the three other devices' partial sums is its columns of what the reference computes from the whole arrays. -/
theorem bridge (X : SW.Idx → EReal) (Gm : SG.Idx → EReal) (xb : Fin 4 → Vec Ideal S512x256 .f32) (gb : Fin 4 → Vec Ideal S256 .f32)
    (hx : ∀ d, xb d = Layout.block S512x256 SW 1 4 d X (by decide)) (hg : ∀ d, gb d = Layout.block S256 SG 0 4 d Gm (by decide))
    (c b0 b1 b2 : Fin 4)
    (hb0 : b0 = ⟨(c.val + 3 - 0) % 4, Nat.mod_lt _ (by decide)⟩) (hb1 : b1 = ⟨(c.val + 3 - 1) % 4, Nat.mod_lt _ (by decide)⟩)
    (hb2 : b2 = ⟨(c.val + 3 - 2) % 4, Nat.mod_lt _ (by decide)⟩) :
    k0_pay4 (F := Ideal) (k0_pay3 (k0_pay1 (xb c)) (gb c)) (k0_pay2 (xb b0)) (k0_pay2 (xb b1)) (k0_pay2 (xb b2)) (k0_pay2 (xb c))
      = Layout.block S512x256 SW 1 4 c (Cert.ReferenceIdeal.Read.val_main_v12 (F := Ideal) X Gm) (by decide) := by
  funext i
  obtain ⟨r, l, rfl⟩ : ∃ (r : Fin 512) (l : Fin 256), i = ix2 r l := ⟨i 0, i 1, eq_ix2 i⟩
  rw [pay4_apply, pay3_apply, pay2_apply, pay2_apply, pay2_apply, pay2_apply, blockX_apply, ref_apply]
  -- the four partial sums, as sums over the whole array's columns
  let fn : ℕ → EReal := fun n => if h : n < 1024 then X (ix2 r ⟨n, h⟩) * X (ix2 r ⟨n, h⟩) else 0
  have hfn : ∀ (n : ℕ) (h : n < 1024), fn n = X (ix2 r ⟨n, h⟩) * X (ix2 r ⟨n, h⟩) := fun n h => dif_pos h
  have hP : ∀ d : Fin 4, (∑ l' : Fin 256, xb d (ix2 r l') * xb d (ix2 r l')) = ∑ l' : Fin 256, fn (d.val * 256 + l'.val) := fun d =>
    Finset.sum_congr rfl fun l' _ => by rw [hx d, blockX_apply, hfn _ (col_lt d l')]
  have hS : (∑ k' : Fin 1024, X (ix2 r k') * X (ix2 r k')) = ∑ k' : Fin 1024, fn k'.val :=
    Finset.sum_congr rfl fun k' _ => (hfn _ k'.isLt).symm
  have hsum : (∑ l' : Fin 256, xb b0 (ix2 r l') * xb b0 (ix2 r l')) + (∑ l' : Fin 256, xb b1 (ix2 r l') * xb b1 (ix2 r l'))
      + (∑ l' : Fin 256, xb b2 (ix2 r l') * xb b2 (ix2 r l')) + (∑ l' : Fin 256, xb c (ix2 r l') * xb c (ix2 r l'))
      = ∑ k' : Fin 1024, X (ix2 r k') * X (ix2 r k') := by
    rw [hS, sum_1024 fn, ← sum_around (fun d => ∑ l' : Fin 256, fn (d.val * 256 + l'.val)) c, hP, hP, hP, hP, hb0, hb1, hb2]
  rw [hsum, Ideal.ofBits_zero_f32, zero_add, hx c, hg c, blockX_apply, blockG_apply]
  -- the quotient by the root is the product with the reciprocal root: the radicand is positive
  obtain ⟨e, he, heq⟩ := ofBits_eps
  have ht : 0 < Ideal.div (∑ k' : Fin 1024, X (ix2 r k') * X (ix2 r k')) (Ideal.ofBits .f32 0x44800000#32) + Ideal.ofBits .f32 0x3727C5AC#32 := by
    rw [ofBits_1024, heq]
    exact div_add_pos (sum_sq_nonneg _ _) (by norm_num) he
  rw [mul_rsqrt_eq_div_sqrt _ ht, mul_comm (X _) (Gm _)]

end Cert.RowNorm

end
-- ==== Proof.Claims.lean ====
import proofs.«900385_g7700000000000386_dist_rmsnorm_colshard_i_m512_n256_v7x_i4_f32_1_alg».proof.Defs
import proofs.«900385_g7700000000000386_dist_rmsnorm_colshard_i_m512_n256_v7x_i4_f32_1_alg».proof.Proof.Launch
import proofs.«900385_g7700000000000386_dist_rmsnorm_colshard_i_m512_n256_v7x_i4_f32_1_alg».proof.Proof.LaunchK
import proofs.«900385_g7700000000000386_dist_rmsnorm_colshard_i_m512_n256_v7x_i4_f32_1_alg».proof.Proof.Value
import proofs.«900385_g7700000000000386_dist_rmsnorm_colshard_i_m512_n256_v7x_i4_f32_1_alg».proof.Proof.Gen.ReferenceIdeal
import proofs.«900385_g7700000000000386_dist_rmsnorm_colshard_i_m512_n256_v7x_i4_f32_1_alg».proof.Proof.Gen.ReferenceIdeal.Run
import proofs.«900385_g7700000000000386_dist_rmsnorm_colshard_i_m512_n256_v7x_i4_f32_1_alg».proof.Proof.Gen.ReferenceIdeal.Read
import proofs.«900385_g7700000000000386_dist_rmsnorm_colshard_i_m512_n256_v7x_i4_f32_1_alg».proof.Proof.Gen.Pre_finite_inputs_Kernel
import proofs.«900385_g7700000000000386_dist_rmsnorm_colshard_i_m512_n256_v7x_i4_f32_1_alg».proof.Proof.Gen.Pre_finite_inputs_ReferenceIdeal

/-!
# The five conjuncts

The three frames are the runs with the values dropped; `preserves` has no entry; `algebraic` reads device `c`'s result
array off the kernel's run (what its one grid point wrote back) and identifies it, through the bridge, with block `c` of
what the reference's run leaves.
-/

noncomputable section

namespace Cert.KernelIdealProof

open Cert.KernelIdeal Cert.KernelIdeal.Gen
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ)

/-- The result array after the run is what the one grid point wrote back: the whole block. -/
theorem finalA_out (c : Dev nD) : finalA m c (2 : Fin 3) = outAt m c := by
  unfold finalA
  rw [show cfg0.N = (t₀ : Fin cfg0.N).val + 1 from rfl, Dat.arrAt_succ, if_pos (flush0_2 t₀)]
  exact Memref.write_access_unit_zero_univ (Elt F) main_v1 (funext fun a => Nat.zero_mul _) _ _ _

/-- The staged blocks are the devices' whole argument arrays. -/
theorem xstg_eq (c : Dev nD) : xstg m c = m ((c : Thread nD τ).loc main_arg0) := by
  unfold xstg iblk
  exact Memref.read_access_unit_zero (Elt F) main_arg0 (off := fun a => win0_0.index t0_0 a * win0_0.size a) (funext fun a => Nat.zero_mul _) _ _
theorem gstg_eq (c : Dev nD) : gstg m c = m ((c : Thread nD τ).loc main_arg1) := by
  unfold gstg iblk
  exact Memref.read_access_unit_zero (Elt F) main_arg1 (off := fun a => win0_1.index t0_0 a * win0_1.size a) (funext fun a => Nat.zero_mul _) _ _

end Cert.KernelIdealProof

namespace Cert.Proof.Claims

open Idealize.ShloMosaic Idealize.ShloMosaic.TcCoe Idealize.SL.Sem

theorem frame_k : Cert.frame_Kernel := fun m ρ _ =>
  (θ_run (Cert.Kernel.defs (F := Bits)) _ _).mono (fun _ h c =>
    ⟨(h c 0).trans ((Cert.KernelProof.dats m 0 c).arrAt_in (0 : Fin 3) rfl _),
     (h c 1).trans ((Cert.KernelProof.dats m 0 c).arrAt_in (1 : Fin 3) rfl _)⟩)
    (Cert.KernelProof.run_main (F := Bits) m ρ)

theorem frame_ki : Cert.frame_KernelIdeal := fun m ρ _ =>
  (θ_run (Cert.KernelIdeal.defs (F := Ideal)) _ _).mono (fun _ h c =>
    ⟨(h c 0).trans ((Cert.KernelIdealProof.dats m 0 c).arrAt_in (0 : Fin 3) rfl _),
     (h c 1).trans ((Cert.KernelIdealProof.dats m 0 c).arrAt_in (1 : Fin 3) rfl _)⟩)
    (Cert.KernelIdealProof.run_main (F := Ideal) m ρ)

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

theorem algebraic : Cert.algebraic_KernelIdeal_ReferenceIdeal := by
  intro m ρ m' ρ' _ hagree
  refine ⟨Cert.ReferenceIdeal.Read.val_main_v12 (F := Ideal)
    (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1)), ?_, ?_⟩
  · refine (θ_run (Cert.KernelIdeal.defs (F := Ideal)) _ _).mono (fun _ h c =>
      ⟨(h c 2).trans ?_, (h c 0).trans ((Cert.KernelIdealProof.dats m 0 c).arrAt_in (0 : Fin 3) rfl _),
       (h c 1).trans ((Cert.KernelIdealProof.dats m 0 c).arrAt_in (1 : Fin 3) rfl _)⟩)
      (Cert.KernelIdealProof.run_main (F := Ideal) m ρ)
    rw [Cert.KernelIdealProof.finalA_out]
    unfold Cert.KernelIdealProof.outAt Cert.KernelIdealProof.psum
    exact Cert.RowNorm.bridge _ _ (fun d => Cert.KernelIdealProof.xstg m d) (fun d => Cert.KernelIdealProof.gstg m d)
      (fun d => (Cert.KernelIdealProof.xstg_eq m d).trans (hagree d).1) (fun d => (Cert.KernelIdealProof.gstg_eq m d).trans (hagree d).2)
      c (Cert.KernelIdealProof.bwd 0 c) (Cert.KernelIdealProof.bwd 1 c) (Cert.KernelIdealProof.bwd 2 c) rfl rfl rfl
  · refine (θ_run Cert.ReferenceIdeal.defs _ _).mono (fun _ h => ⟨by rw [(h 0).1, Cert.ReferenceIdeal.Read.val_main_v12_eq], (h 0).2⟩)
      (Cert.ReferenceIdeal.Value.run (F := Ideal) m' ρ')

end Cert.Proof.Claims

end
-- ==== Proof.lean ====
/-
  Four devices each hold 256 of the 1024 columns of `x` (512 × 1024) and of `gamma` (1024). Each device sums the squares
  of every row of its block (512 partial sums), tells the three others over the barrier semaphore that it has entered,
  waits for their three tells, copies its partial sums into one row of each other device's 4 × 512 exchange buffer,
  waits for the three rows copied into its own, adds the four rows, and scales its block of `x · gamma`, row by row,
  by the reciprocal root of that total over 1024 plus a small constant. The reference, on one device over the whole
  arrays, divides `gamma · x` by the root of the row's mean square plus the same constant.

  THE FRAMES. A device may wait on its barrier cell while it still owes the other devices' receive cells their
  copies, because receive cells sit above barrier cells; on its receive cells it waits owing nothing. Each tell hands
  its receiver the row of the teller's buffer that the receiver will copy into, so no copy can land before its
  destination's owner has entered. Row 3 of a device's buffer, the source of its three copies, is read at four
  quarter shares: one per copy in flight and one for the device's own read. (Proof/Protocol, Proof/Body, Proof/Launch;
  the word-level program is the same text, Proof/ProtocolK, Proof/BodyK, Proof/LaunchK.)

  THE VALUE. Over the extended reals `a · rsqrt t = a / sqrt t` for every `t > 0`, `+∞` included, and the radicand
  here is a sum of squares over 1024 plus a positive constant, positive whatever the inputs; a row's 1024 squares are the
  four blocks' 256 in any order. So device `c`'s result is its 256 columns of the reference's, at every input:
  the precondition is not used. (Proof/Algebra, Proof/Value, Proof/Claims.)
-/
import proofs.«900385_g7700000000000386_dist_rmsnorm_colshard_i_m512_n256_v7x_i4_f32_1_alg».proof.Defs
import proofs.«900385_g7700000000000386_dist_rmsnorm_colshard_i_m512_n256_v7x_i4_f32_1_alg».proof.Proof.Gen.Kernel
import proofs.«900385_g7700000000000386_dist_rmsnorm_colshard_i_m512_n256_v7x_i4_f32_1_alg».proof.Proof.Gen.KernelIdeal
import proofs.«900385_g7700000000000386_dist_rmsnorm_colshard_i_m512_n256_v7x_i4_f32_1_alg».proof.Proof.Gen.ReferenceIdeal
import proofs.«900385_g7700000000000386_dist_rmsnorm_colshard_i_m512_n256_v7x_i4_f32_1_alg».proof.Proof.Gen.Pre_finite_inputs_Kernel
import proofs.«900385_g7700000000000386_dist_rmsnorm_colshard_i_m512_n256_v7x_i4_f32_1_alg».proof.Proof.Gen.Pre_finite_inputs_ReferenceIdeal
import proofs.«900385_g7700000000000386_dist_rmsnorm_colshard_i_m512_n256_v7x_i4_f32_1_alg».proof.Proof.Claims

noncomputable section

namespace Cert.Proof

theorem claim : Cert.Claim :=
  ⟨Cert.Kernel.Gen.facts, Cert.KernelIdeal.Gen.facts, Cert.ReferenceIdeal.Gen.facts, Cert.Pre_finite_inputs_Kernel.Gen.facts,
    Cert.Pre_finite_inputs_ReferenceIdeal.Gen.facts,
    Cert.Proof.Claims.frame_k, Cert.Proof.Claims.frame_ki, Cert.Proof.Claims.frame_ri, Cert.Proof.Claims.preserves, Cert.Proof.Claims.algebraic⟩

end Cert.Proof

end
